-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v305) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x160000 : Shape := ⟨2, ![2, 160000]⟩
abbrev S160000 : Shape := ⟨1, ![160000]⟩
abbrev S8x256x256 : Shape := ⟨3, ![8, 256, 256]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S160000 : S_.BroadcastsInDim S160000 (![] : Fin 0 → Fin S160000.rank)
  reducesTo_S160000_S_d0 : S160000.ReducesTo [0] S_

variable [Facts]

def fn_part1 {F : FTy → Type} [FloatOps F] (main_arg2 : IVec S160000 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_c_6 : IVec S_ 32 := constantI S_ 32 0#32
  let main_v19 : IVec S160000 32 := broadcastInDim S160000 ![] bcast_S_S160000 main_c_6
  let main_v20 : IVec S160000 1 := cmpi .sge main_arg2 main_v19
  let main_c_7 : IVec S_ 1 := constantI S_ 1 1#1
  let main_v21 : IVec S_ 1 := (fun x v => Host.reduce IntOp.andi x v reducesTo_S160000_S_d0 h_S_) main_v20 main_c_7
  let main_v22 : IVec S_ 1 := andi main_v18 main_v21
  let main_c_8 : IVec S_ 32 := constantI S_ 32 8#32
  let main_v23 : IVec S160000 32 := broadcastInDim S160000 ![] bcast_S_S160000 main_c_8
  let main_v24 : IVec S160000 1 := cmpi .slt main_arg2 main_v23
  let main_c_9 : IVec S_ 1 := constantI S_ 1 1#1
  let main_v25 : IVec S_ 1 := (fun x v => Host.reduce IntOp.andi x v reducesTo_S160000_S_d0 h_S_) main_v24 main_c_9
  let main_v26 : IVec S_ 1 := andi main_v22 main_v25
  main_v26

def fn {F : FTy → Type} [FloatOps F] (main_arg0 : FVec F S10000x256 .f32) (main_arg1 : IVec S2x160000 32) (main_arg2 : IVec S160000 32) (main_arg3 : FVec F S8x256x256 .f32) (main_arg4 : FVec F S256x256 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S8x256x256 .f32 := Host.absf main_arg3
  let main_cst_0 : FVec F S_ .f32 := constant S_ .f32 0x7F800000#32
  let main_v5 : FVec F S8x256x256 .f32 := broadcastInDim S8x256x256 ![] bcast_S_S8x256x256 main_cst_0
  let main_v6 : IVec S8x256x256 1 := cmpf .olt main_v4 main_v5
  let main_c_1 : IVec S_ 1 := constantI S_ 1 1#1
  let main_v7 : IVec S_ 1 := (fun x v => Host.reduce IntOp.andi x v reducesTo_S8x256x256_S_d0_1_2 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_v13 main_v16
-- ==== Kernel.lean ====
abbrev S10000x256 : Shape := ⟨2, ![10000, 256]⟩
abbrev S2x160000 : Shape := ⟨2, ![2, 160000]⟩
abbrev S160000 : Shape := ⟨1, ![160000]⟩
abbrev S8x256x256 : Shape := ⟨3, ![8, 256, 256]⟩
abbrev S256x256 : Shape := ⟨2, ![256, 256]⟩
abbrev S256 : Shape := ⟨1, ![256]⟩
abbrev S1x160000 : Shape := ⟨2, ![1, 160000]⟩
abbrev S256x8x256 : Shape := ⟨3, ![256, 8, 256]⟩
abbrev S256x2048 : Shape := ⟨2, ![256, 2048]⟩
abbrev S256x2304 : Shape := ⟨2, ![256, 2304]⟩
abbrev S10000x2304 : Shape := ⟨2, ![10000, 2304]⟩
abbrev S1000x256 : Shape := ⟨2, ![1000, 256]⟩
abbrev S10000x2048 : Shape := ⟨2, ![10000, 2048]⟩
abbrev S10000x8x256 : Shape := ⟨3, ![10000, 8, 256]⟩
abbrev S_ : Shape := ⟨0, ![]⟩
abbrev S10000x8 : Shape := ⟨2, ![10000, 8]⟩
abbrev S160000x1 : Shape := ⟨2, ![160000, 1]⟩
abbrev S160000x2 : Shape := ⟨2, ![160000, 2]⟩
abbrev S160000x256 : Shape := ⟨2, ![160000, 256]⟩
abbrev S1x256 : Shape := ⟨2, ![1, 256]⟩

abbrev nBuf : Space → Nat
  | .hbm => 100
  | .vmem => 6
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S160000, .i32⟩
  | .hbm, ⟨3, _⟩ => ⟨S8x256x256, .f32⟩
  | .hbm, ⟨4, _⟩ => ⟨S256x256, .f32⟩
  | .hbm, ⟨5, _⟩ => ⟨S256, .f32⟩
  | .hbm, ⟨6, _⟩ => ⟨S1x160000, .i32⟩
  | .hbm, ⟨7, _⟩ => ⟨S160000, .i32⟩
  | .hbm, ⟨8, _⟩ => ⟨S1x160000, .i32⟩
  | .hbm, ⟨9, _⟩ => ⟨S160000, .i32⟩
  | .hbm, ⟨10, _⟩ => ⟨S256x8x256, .f32⟩
  | .hbm, ⟨11, _⟩ => ⟨S256x2048, .f32⟩
  | .hbm, ⟨12, _⟩ => ⟨S256x2304, .f32⟩
  | .hbm, ⟨13, _⟩ => ⟨S10000x2304, .f32⟩
  | .hbm, ⟨14, _⟩ => ⟨S10000x2048, .f32⟩
  | .hbm, ⟨15, _⟩ => ⟨S10000x8x256, .f32⟩
  | .hbm, ⟨16, _⟩ => ⟨S10000x256, .f32⟩
  | .hbm, ⟨17, _⟩ => ⟨S_, .f32⟩
  | .hbm, ⟨18, _⟩ => ⟨S10000x8, .f32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S_, .i32⟩
  | .hbm, ⟨27, _⟩ => ⟨S160000, .i32⟩
  | .hbm, ⟨28, _⟩ => ⟨S160000, .i1⟩
  | .hbm, ⟨29, _⟩ => ⟨S_, .i32⟩
  | .hbm, ⟨30, _⟩ => ⟨S160000, .i32⟩
  | .hbm, ⟨31, _⟩ => ⟨S160000, .i32⟩
  | .hbm, ⟨32, _⟩ => ⟨S160000, .i32⟩
  | .hbm, ⟨33, _⟩ => ⟨S160000x1, .i32⟩
  | .hbm, ⟨34, _⟩ => ⟨S160000x1, .i32⟩
  | .hbm, ⟨35, _⟩ => ⟨S160000x2, .i32⟩
  | .hbm, ⟨36, _⟩ => ⟨S_, .f32⟩
  | .hbm, ⟨37, _⟩ => ⟨S160000, .f32⟩
  | .hbm, ⟨38, _⟩ => ⟨S10000x8, .f32⟩
  | .hbm, ⟨39, _⟩ => ⟨S_, .f32⟩
  | .hbm, ⟨40, _⟩ => ⟨S_, .f32⟩
  | .hbm, ⟨41, _⟩ => ⟨S10000x8, .f32⟩
  | .hbm, ⟨42, _⟩ => ⟨S10000x8, .f32⟩
  | .hbm, ⟨43, _⟩ => ⟨S_, .f32⟩
  | .hbm, ⟨44, _⟩ => ⟨S10000x8, .f32⟩
  | .hbm, ⟨45, _⟩ => ⟨S10000x8, .f32⟩
  | .hbm, ⟨46, _⟩ => ⟨S_, .i32⟩
  | .hbm, ⟨47, _⟩ => ⟨S160000, .i32⟩
  | .hbm, ⟨48, _⟩ => ⟨S160000, .i1⟩
  | .hbm, ⟨49, _⟩ => ⟨S_, .i32⟩
  | .hbm, ⟨50, _⟩ => ⟨S160000, .i32⟩
  | .hbm, ⟨51, _⟩ => ⟨S160000, .i32⟩
  | .hbm, ⟨52, _⟩ => ⟨S160000, .i32⟩
  | .hbm, ⟨53, _⟩ => ⟨S_, .i32⟩
  | .hbm, ⟨54, _⟩ => ⟨S160000, .i32⟩
  | .hbm, ⟨55, _⟩ => ⟨S160000, .i1⟩
  | .hbm, ⟨56, _⟩ => ⟨S_, .i32⟩
  | .hbm, ⟨57, _⟩ => ⟨S160000, .i32⟩
  | .hbm, ⟨58, _⟩ => ⟨S160000, .i32⟩
  | .hbm, ⟨59, _⟩ => ⟨S160000, .i32⟩
  | .hbm, ⟨60, _⟩ => ⟨S160000x1, .i32⟩
  | .hbm, ⟨61, _⟩ => ⟨S160000x1, .i32⟩
  | .hbm, ⟨62, _⟩ => ⟨S160000x2, .i32⟩
  | .hbm, ⟨63, _⟩ => ⟨S160000x256, .f32⟩
  | .hbm, ⟨64, _⟩ => ⟨S_, .i32⟩
  | .hbm, ⟨65, _⟩ => ⟨S160000, .i32⟩
  | .hbm, ⟨66, _⟩ => ⟨S160000, .i1⟩
  | .hbm, ⟨67, _⟩ => ⟨S_, .i32⟩
  | .hbm, ⟨68, _⟩ => ⟨S160000, .i32⟩
  | .hbm, ⟨69, _⟩ => ⟨S160000, .i32⟩
  | .hbm, ⟨70, _⟩ => ⟨S160000, .i32⟩
  | .hbm, ⟨71, _⟩ => ⟨S_, .i32⟩
  | .hbm, ⟨72, _⟩ => ⟨S160000, .i32⟩
  | .hbm, ⟨73, _⟩ => ⟨S160000, .i1⟩
  | .hbm, ⟨74, _⟩ => ⟨S_, .i32⟩
  | .hbm, ⟨75, _⟩ => ⟨S160000, .i32⟩
  | .hbm, ⟨76, _⟩ => ⟨S160000, .i32⟩
  | .hbm, ⟨77, _⟩ => ⟨S160000, .i32⟩
  | .hbm, ⟨78, _⟩ => ⟨S160000x1, .i32⟩
  | .hbm, ⟨79, _⟩ => ⟨S160000x1, .i32⟩
  | .hbm, ⟨80, _⟩ => ⟨S160000x2, .i32⟩
  | .hbm, ⟨81, _⟩ => ⟨S160000, .f32⟩
  | .hbm, ⟨82, _⟩ => ⟨S160000x1, .f32⟩
  | .hbm, ⟨83, _⟩ => ⟨S160000x256, .f32⟩
  | .hbm, ⟨84, _⟩ => ⟨S160000x256, .f32⟩
  | .hbm, ⟨85, _⟩ => ⟨S_, .f32⟩
  | .hbm, ⟨86, _⟩ => ⟨S10000x256, .f32⟩
  | .hbm, ⟨87, _⟩ => ⟨S_, .i32⟩
  | .hbm, ⟨88, _⟩ => ⟨S160000, .i32⟩
  | .hbm, ⟨89, _⟩ => ⟨S160000, .i1⟩
  | .hbm, ⟨90, _⟩ => ⟨S_, .i32⟩
  | .hbm, ⟨91, _⟩ => ⟨S160000, .i32⟩
  | .hbm, ⟨92, _⟩ => ⟨S160000, .i32⟩
  | .hbm, ⟨93, _⟩ => ⟨S160000, .i32⟩
  | .hbm, ⟨94, _⟩ => ⟨S160000x1, .i32⟩
  | .hbm, ⟨95, _⟩ => ⟨S10000x256, .f32⟩
  | .hbm, ⟨96, _⟩ => ⟨S10000x256, .f32⟩
  | .hbm, ⟨97, _⟩ => ⟨S1x256, .f32⟩
  | .hbm, ⟨98, _⟩ => ⟨S10000x256, .f32⟩
  | .hbm, ⟨99, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S256x256, .f32⟩
  | .local _ .vmem, ⟨4, _⟩ => ⟨S1000x256, .f32⟩
  | .local _ .vmem, ⟨5, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_c_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_c_15 : Ref sig .tc := ⟨.hbm, 87, rfl⟩
abbrev main_v62 : Ref sig .tc := ⟨.hbm, 88, rfl⟩
abbrev main_v63 : Ref sig .tc := ⟨.hbm, 89, rfl⟩
abbrev main_c_16 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  transposes_S8x256x256_S256x8x256_1_0_2 : S8x256x256.Transposes [1, 0, 2] S256x8x256
  shapeCasts_S256x8x256_S256x2048 : S256x8x256.ShapeCasts S256x2048
  concatenates_S256x2048_S256x256_S256x2304_d1 : Shape.Concatenates [S256x2048, S256x256] S256x2304 1
  inb_S1000x256_S1000x256_0_0 : ∀ a, (![0, 0] : Fin 2 → Nat) a + S1000x256.size a ≤ S1000x256.size a
  h_S1000x256 : 0 < S1000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S10000x2304_S10000x2048_0_0 : S10000x2304.Slices ![0, 0] S10000x2048
  shapeCasts_S10000x2048_S10000x8x256 : S10000x2048.ShapeCasts S10000x8x256
  slices_S10000x2304_S10000x256_0_2048 : S10000x2304.Slices ![0, 2048] S10000x256
  bcast_S_S10000x8 : S_.BroadcastsInDim S10000x8 (![] : Fin 0 → Fin S10000x8.rank)
  bcast_S_S160000 : S_.BroadcastsInDim S160000 (![] : Fin 0 → Fin S160000.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  bcast_S160000x1_S160000x256_0_1 : S160000x1.BroadcastsInDim S160000x256 (![0, 1] : Fin 2 → Fin S160000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S1000x256_S256x256_S1000x256_1_0_0_1_n_n_wf : DotDims.WF S1000x256 S256x256 S1000x256 [1] [0] [0] [1] [] []
  scatter_S10000x8_S160000x2_S160000_n_01_01_1_wf : ScatterDims.WF S10000x8 S160000x2 S160000 [] [0, 1] [0, 1] 1
  gather_S10000x8x256_S160000x2_S160000x256_1_01_n_n_01_1_11256_wf : GatherDims.WF S10000x8x256 S160000x2 S160000x256 [1] [0, 1] [] [0, 1] [] 1 ![1, 1, 256]
  gather_S10000x8_S160000x2_S160000_n_01_n_n_01_1_11_wf : GatherDims.WF S10000x8 S160000x2 S160000 [] [0, 1] [] [0, 1] [] 1 ![1, 1]
  scatter_S10000x256_S160000x1_S160000x256_1_0_0_1_wf : ScatterDims.WF S10000x256 S160000x1 S160000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x2304.size a
  hwx0_1 : ∀ i : grid0.Coords, EltTy.bits .f32 = 32 ∨ (Rect.block (s := S256x2304) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x2304.size a
  hwx0_2 : ∀ i : grid0.Coords, EltTy.bits .f32 = 32 ∨ (Rect.block (s := S10000x2304) S1000x256.size (cc0_transform_2 i) (hinb0_2 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def scatter_S10000x8_S160000x2_S160000_n_01_01_1 : ScatterDims S10000x8 S160000x2 S160000 where
  updateWindowDims := []
  insertedWindowDims := [0, 1]
  scatterDimsToOperandDims := [0, 1]
  indexVectorDim := 1
  wf := scatter_S10000x8_S160000x2_S160000_n_01_01_1_wf
def gather_S10000x8x256_S160000x2_S160000x256_1_01_n_n_01_1_11256 : GatherDims S10000x8x256 S160000x2 S160000x256 where
  offsetDims := [1]
  collapsedSliceDims := [0, 1]
  operandBatchingDims := []
  startIndicesBatchingDims := []
  startIndexMap := [0, 1]
  indexVectorDim := 1
  sliceSizes := ![1, 1, 256]
  wf := gather_S10000x8x256_S160000x2_S160000x256_1_01_n_n_01_1_11256_wf
def gather_S10000x8_S160000x2_S160000_n_01_n_n_01_1_11 : GatherDims S10000x8 S160000x2 S160000 where
  offsetDims := []
  collapsedSliceDims := [0, 1]
  operandBatchingDims := []
  startIndicesBatchingDims := []
  startIndexMap := [0, 1]
  indexVectorDim := 1
  sliceSizes := ![1, 1]
  wf := gather_S10000x8_S160000x2_S160000_n_01_n_n_01_1_11_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x160000 : Shape := ⟨2, ![2, 160000]⟩
abbrev S160000 : Shape := ⟨1, ![160000]⟩
abbrev S8x256x256 : Shape := ⟨3, ![8, 256, 256]⟩
abbrev S256x256 : Shape := ⟨2, ![256, 256]⟩
abbrev S256 : Shape := ⟨1, ![256]⟩
abbrev S1x160000 : Shape := ⟨2, ![1, 160000]⟩
abbrev S_ : Shape := ⟨0, ![]⟩
abbrev S160000x1 : Shape := ⟨2, ![160000, 1]⟩
abbrev S160000x256 : Shape := ⟨2, ![160000, 256]⟩
abbrev S10000 : Shape := ⟨1, ![10000]⟩
abbrev S10000x1 : Shape := ⟨2, ![10000, 1]⟩
abbrev S1x256x256 : Shape := ⟨3, ![1, 256, 256]⟩
abbrev S1x256 : Shape := ⟨2, ![1, 256]⟩

abbrev nBuf : Space → Nat
  | .hbm => 409
  | .vmem => 0
  | .smem => 0
  | _ => 0

abbrev hbmTy0_0 (i : Nat) : BufTy := match i % 128 with
  | 0 => ⟨S10000x256, .f32⟩
  | 1 => ⟨S2x160000, .i32⟩
  | 2 => ⟨S160000, .i32⟩
  | 3 => ⟨S8x256x256, .f32⟩
  | 4 => ⟨S256x256, .f32⟩
  | 5 => ⟨S256, .f32⟩
  | 6 => ⟨S1x160000, .i32⟩
  | 7 => ⟨S160000, .i32⟩
  | 8 => ⟨S1x160000, .i32⟩
  | 9 => ⟨S160000, .i32⟩
  | 10 => ⟨S_, .f32⟩
  | 11 => ⟨S10000x256, .f32⟩
  | 12 => ⟨S_, .i32⟩
  | 13 => ⟨S160000, .i32⟩
  | 14 => ⟨S160000, .i1⟩
  | 15 => ⟨S160000, .f32⟩
  | 16 => ⟨S_, .i32⟩
  | 17 => ⟨S160000, .i32⟩
  | 18 => ⟨S160000, .i1⟩
  | 19 => ⟨S_, .i32⟩
  | 20 => ⟨S160000, .i32⟩
  | 21 => ⟨S160000, .i32⟩
  | 22 => ⟨S160000, .i32⟩
  | 23 => ⟨S160000x1, .i32⟩
  | 24 => ⟨S160000x256, .f32⟩
  | 25 => ⟨S160000x1, .f32⟩
  | 26 => ⟨S160000x256, .f32⟩
  | 27 => ⟨S160000x256, .f32⟩
  | 28 => ⟨S_, .f32⟩
  | 29 => ⟨S10000x256, .f32⟩
  | 30 => ⟨S_, .i32⟩
  | 31 => ⟨S160000, .i32⟩
  | 32 => ⟨S160000, .i1⟩
  | 33 => ⟨S_, .i32⟩
  | 34 => ⟨S160000, .i32⟩
  | 35 => ⟨S160000, .i32⟩
  | 36 => ⟨S160000, .i32⟩
  | 37 => ⟨S160000x1, .i32⟩
  | 38 => ⟨S10000x256, .f32⟩
  | 39 => ⟨S_, .f32⟩
  | 40 => ⟨S10000, .f32⟩
  | 41 => ⟨S_, .i32⟩
  | 42 => ⟨S160000, .i32⟩
  | 43 => ⟨S160000, .i1⟩
  | 44 => ⟨S_, .i32⟩
  | 45 => ⟨S160000, .i32⟩
  | 46 => ⟨S160000, .i32⟩
  | 47 => ⟨S160000, .i32⟩
  | 48 => ⟨S160000x1, .i32⟩
  | 49 => ⟨S10000, .f32⟩
  | 50 => ⟨S_, .f32⟩
  | 51 => ⟨S_, .f32⟩
  | 52 => ⟨S10000, .f32⟩
  | 53 => ⟨S10000, .f32⟩
  | 54 => ⟨S10000x1, .f32⟩
  | 55 => ⟨S10000x256, .f32⟩
  | 56 => ⟨S10000x256, .f32⟩
  | 57 => ⟨S1x256x256, .f32⟩
  | 58 => ⟨S256x256, .f32⟩
  | 59 => ⟨S10000x256, .f32⟩
  | 60 => ⟨S10000x256, .f32⟩
  | 61 => ⟨S_, .i32⟩
  | 62 => ⟨S160000, .i32⟩
  | 63 => ⟨S160000, .i1⟩
  | 64 => ⟨S160000, .f32⟩
  | 65 => ⟨S_, .i32⟩
  | 66 => ⟨S160000, .i32⟩
  | 67 => ⟨S160000, .i1⟩
  | 68 => ⟨S_, .i32⟩
  | 69 => ⟨S160000, .i32⟩
  | 70 => ⟨S160000, .i32⟩
  | 71 => ⟨S160000, .i32⟩
  | 72 => ⟨S160000x1, .i32⟩
  | 73 => ⟨S160000x256, .f32⟩
  | 74 => ⟨S160000x1, .f32⟩
  | 75 => ⟨S160000x256, .f32⟩
  | 76 => ⟨S160000x256, .f32⟩
  | 77 => ⟨S_, .f32⟩
  | 78 => ⟨S10000x256, .f32⟩
  | 79 => ⟨S_, .i32⟩
  | 80 => ⟨S160000, .i32⟩
  | 81 => ⟨S160000, .i1⟩
  | 82 => ⟨S_, .i32⟩
  | 83 => ⟨S160000, .i32⟩
  | 84 => ⟨S160000, .i32⟩
  | 85 => ⟨S160000, .i32⟩
  | 86 => ⟨S160000x1, .i32⟩
  | 87 => ⟨S10000x256, .f32⟩
  | 88 => ⟨S_, .f32⟩
  | 89 => ⟨S10000, .f32⟩
  | 90 => ⟨S_, .i32⟩
  | 91 => ⟨S160000, .i32⟩
  | 92 => ⟨S160000, .i1⟩
  | 93 => ⟨S_, .i32⟩
  | 94 => ⟨S160000, .i32⟩
  | 95 => ⟨S160000, .i32⟩
  | 96 => ⟨S160000, .i32⟩
  | 97 => ⟨S160000x1, .i32⟩
  | 98 => ⟨S10000, .f32⟩
  | 99 => ⟨S_, .f32⟩
  | 100 => ⟨S_, .f32⟩
  | 101 => ⟨S10000, .f32⟩
  | 102 => ⟨S10000, .f32⟩
  | 103 => ⟨S10000x1, .f32⟩
  | 104 => ⟨S10000x256, .f32⟩
  | 105 => ⟨S10000x256, .f32⟩
  | 106 => ⟨S1x256x256, .f32⟩
  | 107 => ⟨S256x256, .f32⟩
  | 108 => ⟨S10000x256, .f32⟩
  | 109 => ⟨S10000x256, .f32⟩
  | 110 => ⟨S_, .i32⟩
  | 111 => ⟨S160000, .i32⟩
  | 112 => ⟨S160000, .i1⟩
  | 113 => ⟨S160000, .f32⟩
  | 114 => ⟨S_, .i32⟩
  | 115 => ⟨S160000, .i32⟩
  | 116 => ⟨S160000, .i1⟩
  | 117 => ⟨S_, .i32⟩
  | 118 => ⟨S160000, .i32⟩
  | 119 => ⟨S160000, .i32⟩
  | 120 => ⟨S160000, .i32⟩
  | 121 => ⟨S160000x1, .i32⟩
  | 122 => ⟨S160000x256, .f32⟩
  | 123 => ⟨S160000x1, .f32⟩
  | 124 => ⟨S160000x256, .f32⟩
  | 125 => ⟨S160000x256, .f32⟩
  | 126 => ⟨S_, .f32⟩
  | 127 => ⟨S10000x256, .f32⟩
  | _ => ⟨S10000x256, .f32⟩

abbrev hbmTy0_1 (i : Nat) : BufTy := match i % 128 with
  | 0 => ⟨S_, .i32⟩
  | 1 => ⟨S160000, .i32⟩
  | 2 => ⟨S160000, .i1⟩
  | 3 => ⟨S_, .i32⟩
  | 4 => ⟨S160000, .i32⟩
  | 5 => ⟨S160000, .i32⟩
  | 6 => ⟨S160000, .i32⟩
  | 7 => ⟨S160000x1, .i32⟩
  | 8 => ⟨S10000x256, .f32⟩
  | 9 => ⟨S_, .f32⟩
  | 10 => ⟨S10000, .f32⟩
  | 11 => ⟨S_, .i32⟩
  | 12 => ⟨S160000, .i32⟩
  | 13 => ⟨S160000, .i1⟩
  | 14 => ⟨S_, .i32⟩
  | 15 => ⟨S160000, .i32⟩
  | 16 => ⟨S160000, .i32⟩
  | 17 => ⟨S160000, .i32⟩
  | 18 => ⟨S160000x1, .i32⟩
  | 19 => ⟨S10000, .f32⟩
  | 20 => ⟨S_, .f32⟩
  | 21 => ⟨S_, .f32⟩
  | 22 => ⟨S10000, .f32⟩
  | 23 => ⟨S10000, .f32⟩
  | 24 => ⟨S10000x1, .f32⟩
  | 25 => ⟨S10000x256, .f32⟩
  | 26 => ⟨S10000x256, .f32⟩
  | 27 => ⟨S1x256x256, .f32⟩
  | 28 => ⟨S256x256, .f32⟩
  | 29 => ⟨S10000x256, .f32⟩
  | 30 => ⟨S10000x256, .f32⟩
  | 31 => ⟨S_, .i32⟩
  | 32 => ⟨S160000, .i32⟩
  | 33 => ⟨S160000, .i1⟩
  | 34 => ⟨S160000, .f32⟩
  | 35 => ⟨S_, .i32⟩
  | 36 => ⟨S160000, .i32⟩
  | 37 => ⟨S160000, .i1⟩
  | 38 => ⟨S_, .i32⟩
  | 39 => ⟨S160000, .i32⟩
  | 40 => ⟨S160000, .i32⟩
  | 41 => ⟨S160000, .i32⟩
  | 42 => ⟨S160000x1, .i32⟩
  | 43 => ⟨S160000x256, .f32⟩
  | 44 => ⟨S160000x1, .f32⟩
  | 45 => ⟨S160000x256, .f32⟩
  | 46 => ⟨S160000x256, .f32⟩
  | 47 => ⟨S_, .f32⟩
  | 48 => ⟨S10000x256, .f32⟩
  | 49 => ⟨S_, .i32⟩
  | 50 => ⟨S160000, .i32⟩
  | 51 => ⟨S160000, .i1⟩
  | 52 => ⟨S_, .i32⟩
  | 53 => ⟨S160000, .i32⟩
  | 54 => ⟨S160000, .i32⟩
  | 55 => ⟨S160000, .i32⟩
  | 56 => ⟨S160000x1, .i32⟩
  | 57 => ⟨S10000x256, .f32⟩
  | 58 => ⟨S_, .f32⟩
  | 59 => ⟨S10000, .f32⟩
  | 60 => ⟨S_, .i32⟩
  | 61 => ⟨S160000, .i32⟩
  | 62 => ⟨S160000, .i1⟩
  | 63 => ⟨S_, .i32⟩
  | 64 => ⟨S160000, .i32⟩
  | 65 => ⟨S160000, .i32⟩
  | 66 => ⟨S160000, .i32⟩
  | 67 => ⟨S160000x1, .i32⟩
  | 68 => ⟨S10000, .f32⟩
  | 69 => ⟨S_, .f32⟩
  | 70 => ⟨S_, .f32⟩
  | 71 => ⟨S10000, .f32⟩
  | 72 => ⟨S10000, .f32⟩
  | 73 => ⟨S10000x1, .f32⟩
  | 74 => ⟨S10000x256, .f32⟩
  | 75 => ⟨S10000x256, .f32⟩
  | 76 => ⟨S1x256x256, .f32⟩
  | 77 => ⟨S256x256, .f32⟩
  | 78 => ⟨S10000x256, .f32⟩
  | 79 => ⟨S10000x256, .f32⟩
  | 80 => ⟨S_, .i32⟩
  | 81 => ⟨S160000, .i32⟩
  | 82 => ⟨S160000, .i1⟩
  | 83 => ⟨S160000, .f32⟩
  | 84 => ⟨S_, .i32⟩
  | 85 => ⟨S160000, .i32⟩
  | 86 => ⟨S160000, .i1⟩
  | 87 => ⟨S_, .i32⟩
  | 88 => ⟨S160000, .i32⟩
  | 89 => ⟨S160000, .i32⟩
  | 90 => ⟨S160000, .i32⟩
  | 91 => ⟨S160000x1, .i32⟩
  | 92 => ⟨S160000x256, .f32⟩
  | 93 => ⟨S160000x1, .f32⟩
  | 94 => ⟨S160000x256, .f32⟩
  | 95 => ⟨S160000x256, .f32⟩
  | 96 => ⟨S_, .f32⟩
  | 97 => ⟨S10000x256, .f32⟩
  | 98 => ⟨S_, .i32⟩
  | 99 => ⟨S160000, .i32⟩
  | 100 => ⟨S160000, .i1⟩
  | 101 => ⟨S_, .i32⟩
  | 102 => ⟨S160000, .i32⟩
  | 103 => ⟨S160000, .i32⟩
  | 104 => ⟨S160000, .i32⟩
  | 105 => ⟨S160000x1, .i32⟩
  | 106 => ⟨S10000x256, .f32⟩
  | 107 => ⟨S_, .f32⟩
  | 108 => ⟨S10000, .f32⟩
  | 109 => ⟨S_, .i32⟩
  | 110 => ⟨S160000, .i32⟩
  | 111 => ⟨S160000, .i1⟩
  | 112 => ⟨S_, .i32⟩
  | 113 => ⟨S160000, .i32⟩
  | 114 => ⟨S160000, .i32⟩
  | 115 => ⟨S160000, .i32⟩
  | 116 => ⟨S160000x1, .i32⟩
  | 117 => ⟨S10000, .f32⟩
  | 118 => ⟨S_, .f32⟩
  | 119 => ⟨S_, .f32⟩
  | 120 => ⟨S10000, .f32⟩
  | 121 => ⟨S10000, .f32⟩
  | 122 => ⟨S10000x1, .f32⟩
  | 123 => ⟨S10000x256, .f32⟩
  | 124 => ⟨S10000x256, .f32⟩
  | 125 => ⟨S1x256x256, .f32⟩
  | 126 => ⟨S256x256, .f32⟩
  | 127 => ⟨S10000x256, .f32⟩
  | _ => ⟨S10000x256, .f32⟩

abbrev hbmTy0_2 (i : Nat) : BufTy := match i % 128 with
  | 0 => ⟨S10000x256, .f32⟩
  | 1 => ⟨S_, .i32⟩
  | 2 => ⟨S160000, .i32⟩
  | 3 => ⟨S160000, .i1⟩
  | 4 => ⟨S160000, .f32⟩
  | 5 => ⟨S_, .i32⟩
  | 6 => ⟨S160000, .i32⟩
  | 7 => ⟨S160000, .i1⟩
  | 8 => ⟨S_, .i32⟩
  | 9 => ⟨S160000, .i32⟩
  | 10 => ⟨S160000, .i32⟩
  | 11 => ⟨S160000, .i32⟩
  | 12 => ⟨S160000x1, .i32⟩
  | 13 => ⟨S160000x256, .f32⟩
  | 14 => ⟨S160000x1, .f32⟩
  | 15 => ⟨S160000x256, .f32⟩
  | 16 => ⟨S160000x256, .f32⟩
  | 17 => ⟨S_, .f32⟩
  | 18 => ⟨S10000x256, .f32⟩
  | 19 => ⟨S_, .i32⟩
  | 20 => ⟨S160000, .i32⟩
  | 21 => ⟨S160000, .i1⟩
  | 22 => ⟨S_, .i32⟩
  | 23 => ⟨S160000, .i32⟩
  | 24 => ⟨S160000, .i32⟩
  | 25 => ⟨S160000, .i32⟩
  | 26 => ⟨S160000x1, .i32⟩
  | 27 => ⟨S10000x256, .f32⟩
  | 28 => ⟨S_, .f32⟩
  | 29 => ⟨S10000, .f32⟩
  | 30 => ⟨S_, .i32⟩
  | 31 => ⟨S160000, .i32⟩
  | 32 => ⟨S160000, .i1⟩
  | 33 => ⟨S_, .i32⟩
  | 34 => ⟨S160000, .i32⟩
  | 35 => ⟨S160000, .i32⟩
  | 36 => ⟨S160000, .i32⟩
  | 37 => ⟨S160000x1, .i32⟩
  | 38 => ⟨S10000, .f32⟩
  | 39 => ⟨S_, .f32⟩
  | 40 => ⟨S_, .f32⟩
  | 41 => ⟨S10000, .f32⟩
  | 42 => ⟨S10000, .f32⟩
  | 43 => ⟨S10000x1, .f32⟩
  | 44 => ⟨S10000x256, .f32⟩
  | 45 => ⟨S10000x256, .f32⟩
  | 46 => ⟨S1x256x256, .f32⟩
  | 47 => ⟨S256x256, .f32⟩
  | 48 => ⟨S10000x256, .f32⟩
  | 49 => ⟨S10000x256, .f32⟩
  | 50 => ⟨S_, .i32⟩
  | 51 => ⟨S160000, .i32⟩
  | 52 => ⟨S160000, .i1⟩
  | 53 => ⟨S160000, .f32⟩
  | 54 => ⟨S_, .i32⟩
  | 55 => ⟨S160000, .i32⟩
  | 56 => ⟨S160000, .i1⟩
  | 57 => ⟨S_, .i32⟩
  | 58 => ⟨S160000, .i32⟩
  | 59 => ⟨S160000, .i32⟩
  | 60 => ⟨S160000, .i32⟩
  | 61 => ⟨S160000x1, .i32⟩
  | 62 => ⟨S160000x256, .f32⟩
  | 63 => ⟨S160000x1, .f32⟩
  | 64 => ⟨S160000x256, .f32⟩
  | 65 => ⟨S160000x256, .f32⟩
  | 66 => ⟨S_, .f32⟩
  | 67 => ⟨S10000x256, .f32⟩
  | 68 => ⟨S_, .i32⟩
  | 69 => ⟨S160000, .i32⟩
  | 70 => ⟨S160000, .i1⟩
  | 71 => ⟨S_, .i32⟩
  | 72 => ⟨S160000, .i32⟩
  | 73 => ⟨S160000, .i32⟩
  | 74 => ⟨S160000, .i32⟩
  | 75 => ⟨S160000x1, .i32⟩
  | 76 => ⟨S10000x256, .f32⟩
  | 77 => ⟨S_, .f32⟩
  | 78 => ⟨S10000, .f32⟩
  | 79 => ⟨S_, .i32⟩
  | 80 => ⟨S160000, .i32⟩
  | 81 => ⟨S160000, .i1⟩
  | 82 => ⟨S_, .i32⟩
  | 83 => ⟨S160000, .i32⟩
  | 84 => ⟨S160000, .i32⟩
  | 85 => ⟨S160000, .i32⟩
  | 86 => ⟨S160000x1, .i32⟩
  | 87 => ⟨S10000, .f32⟩
  | 88 => ⟨S_, .f32⟩
  | 89 => ⟨S_, .f32⟩
  | 90 => ⟨S10000, .f32⟩
  | 91 => ⟨S10000, .f32⟩
  | 92 => ⟨S10000x1, .f32⟩
  | 93 => ⟨S10000x256, .f32⟩
  | 94 => ⟨S10000x256, .f32⟩
  | 95 => ⟨S1x256x256, .f32⟩
  | 96 => ⟨S256x256, .f32⟩
  | 97 => ⟨S10000x256, .f32⟩
  | 98 => ⟨S10000x256, .f32⟩
  | 99 => ⟨S_, .i32⟩
  | 100 => ⟨S160000, .i32⟩
  | 101 => ⟨S160000, .i1⟩
  | 102 => ⟨S160000, .f32⟩
  | 103 => ⟨S_, .i32⟩
  | 104 => ⟨S160000, .i32⟩
  | 105 => ⟨S160000, .i1⟩
  | 106 => ⟨S_, .i32⟩
  | 107 => ⟨S160000, .i32⟩
  | 108 => ⟨S160000, .i32⟩
  | 109 => ⟨S160000, .i32⟩
  | 110 => ⟨S160000x1, .i32⟩
  | 111 => ⟨S160000x256, .f32⟩
  | 112 => ⟨S160000x1, .f32⟩
  | 113 => ⟨S160000x256, .f32⟩
  | 114 => ⟨S160000x256, .f32⟩
  | 115 => ⟨S_, .f32⟩
  | 116 => ⟨S10000x256, .f32⟩
  | 117 => ⟨S_, .i32⟩
  | 118 => ⟨S160000, .i32⟩
  | 119 => ⟨S160000, .i1⟩
  | 120 => ⟨S_, .i32⟩
  | 121 => ⟨S160000, .i32⟩
  | 122 => ⟨S160000, .i32⟩
  | 123 => ⟨S160000, .i32⟩
  | 124 => ⟨S160000x1, .i32⟩
  | 125 => ⟨S10000x256, .f32⟩
  | 126 => ⟨S_, .f32⟩
  | 127 => ⟨S10000, .f32⟩
  | _ => ⟨S10000x256, .f32⟩

abbrev hbmTy0_3 (i : Nat) : BufTy := match i % 128 with
  | 0 => ⟨S_, .i32⟩
  | 1 => ⟨S160000, .i32⟩
  | 2 => ⟨S160000, .i1⟩
  | 3 => ⟨S_, .i32⟩
  | 4 => ⟨S160000, .i32⟩
  | 5 => ⟨S160000, .i32⟩
  | 6 => ⟨S160000, .i32⟩
  | 7 => ⟨S160000x1, .i32⟩
  | 8 => ⟨S10000, .f32⟩
  | 9 => ⟨S_, .f32⟩
  | 10 => ⟨S_, .f32⟩
  | 11 => ⟨S10000, .f32⟩
  | 12 => ⟨S10000, .f32⟩
  | 13 => ⟨S10000x1, .f32⟩
  | 14 => ⟨S10000x256, .f32⟩
  | 15 => ⟨S10000x256, .f32⟩
  | 16 => ⟨S1x256x256, .f32⟩
  | 17 => ⟨S256x256, .f32⟩
  | 18 => ⟨S10000x256, .f32⟩
  | 19 => ⟨S10000x256, .f32⟩
  | 20 => ⟨S10000x256, .f32⟩
  | 21 => ⟨S10000x256, .f32⟩
  | 22 => ⟨S1x256, .f32⟩
  | 23 => ⟨S10000x256, .f32⟩
  | 24 => ⟨S10000x256, .f32⟩
  | _ => ⟨S10000x256, .f32⟩

abbrev hbmTy (i : Nat) : BufTy := match i / 128 with
  | 0 => hbmTy0_0 i
  | 1 => hbmTy0_1 i
  | 2 => hbmTy0_2 i
  | 3 => hbmTy0_3 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_call0_v0 : Ref sig .tc := ⟨.hbm, 51, rfl⟩
abbrev main_call0_v1 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_c_13 : Ref sig .tc := ⟨.hbm, 79, rfl⟩
abbrev main_v56 : Ref sig .tc := ⟨.hbm, 80, rfl⟩
abbrev main_v57 : Ref sig .tc := ⟨.hbm, 81, rfl⟩
abbrev main_c_14 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_15 : Ref sig .tc := ⟨.hbm, 88, rfl⟩
abbrev main_v63 : Ref sig .tc := ⟨.hbm, 89, rfl⟩
abbrev main_c_16 : Ref sig .tc := ⟨.hbm, 90, rfl⟩
abbrev main_v64 : Ref sig .tc := ⟨.hbm, 91, rfl⟩
abbrev main_v65 : Ref sig .tc := ⟨.hbm, 92, rfl⟩
abbrev main_c_17 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_18 : Ref sig .tc := ⟨.hbm, 99, rfl⟩
abbrev main_call1_v0 : Ref sig .tc := ⟨.hbm, 100, rfl⟩
abbrev main_call1_v1 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_19 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_20 : Ref sig .tc := ⟨.hbm, 114, rfl⟩
abbrev main_v82 : Ref sig .tc := ⟨.hbm, 115, rfl⟩
abbrev main_v83 : Ref sig .tc := ⟨.hbm, 116, rfl⟩
abbrev main_c_21 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_22 : Ref sig .tc := ⟨.hbm, 126, rfl⟩
abbrev main_v92 : Ref sig .tc := ⟨.hbm, 127, rfl⟩
abbrev main_c_23 : Ref sig .tc := ⟨.hbm, 128, rfl⟩
abbrev main_v93 : Ref sig .tc := ⟨.hbm, 129, rfl⟩
abbrev main_v94 : Ref sig .tc := ⟨.hbm, 130, rfl⟩
abbrev main_c_24 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_25 : Ref sig .tc := ⟨.hbm, 137, rfl⟩
abbrev main_v100 : Ref sig .tc := ⟨.hbm, 138, rfl⟩
abbrev main_c_26 : Ref sig .tc := ⟨.hbm, 139, rfl⟩
abbrev main_v101 : Ref sig .tc := ⟨.hbm, 140, rfl⟩
abbrev main_v102 : Ref sig .tc := ⟨.hbm, 141, rfl⟩
abbrev main_c_27 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_28 : Ref sig .tc := ⟨.hbm, 148, rfl⟩
abbrev main_call2_v0 : Ref sig .tc := ⟨.hbm, 149, rfl⟩
abbrev main_call2_v1 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_c_29 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_c_30 : Ref sig .tc := ⟨.hbm, 163, rfl⟩
abbrev main_v119 : Ref sig .tc := ⟨.hbm, 164, rfl⟩
abbrev main_v120 : Ref sig .tc := ⟨.hbm, 165, rfl⟩
abbrev main_c_31 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_32 : Ref sig .tc := ⟨.hbm, 175, rfl⟩
abbrev main_v129 : Ref sig .tc := ⟨.hbm, 176, rfl⟩
abbrev main_c_33 : Ref sig .tc := ⟨.hbm, 177, rfl⟩
abbrev main_v130 : Ref sig .tc := ⟨.hbm, 178, rfl⟩
abbrev main_v131 : Ref sig .tc := ⟨.hbm, 179, rfl⟩
abbrev main_c_34 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_35 : Ref sig .tc := ⟨.hbm, 186, rfl⟩
abbrev main_v137 : Ref sig .tc := ⟨.hbm, 187, rfl⟩
abbrev main_c_36 : Ref sig .tc := ⟨.hbm, 188, rfl⟩
abbrev main_v138 : Ref sig .tc := ⟨.hbm, 189, rfl⟩
abbrev main_v139 : Ref sig .tc := ⟨.hbm, 190, rfl⟩
abbrev main_c_37 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_cst_38 : Ref sig .tc := ⟨.hbm, 197, rfl⟩
abbrev main_call3_v0 : Ref sig .tc := ⟨.hbm, 198, rfl⟩
abbrev main_call3_v1 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_c_39 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_c_40 : Ref sig .tc := ⟨.hbm, 212, rfl⟩
abbrev main_v156 : Ref sig .tc := ⟨.hbm, 213, rfl⟩
abbrev main_v157 : Ref sig .tc := ⟨.hbm, 214, rfl⟩
abbrev main_c_41 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_cst_42 : Ref sig .tc := ⟨.hbm, 224, rfl⟩
abbrev main_v166 : Ref sig .tc := ⟨.hbm, 225, rfl⟩
abbrev main_c_43 : Ref sig .tc := ⟨.hbm, 226, rfl⟩
abbrev main_v167 : Ref sig .tc := ⟨.hbm, 227, rfl⟩
abbrev main_v168 : Ref sig .tc := ⟨.hbm, 228, rfl⟩
abbrev main_c_44 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_cst_45 : Ref sig .tc := ⟨.hbm, 235, rfl⟩
abbrev main_v174 : Ref sig .tc := ⟨.hbm, 236, rfl⟩
abbrev main_c_46 : Ref sig .tc := ⟨.hbm, 237, rfl⟩
abbrev main_v175 : Ref sig .tc := ⟨.hbm, 238, rfl⟩
abbrev main_v176 : Ref sig .tc := ⟨.hbm, 239, rfl⟩
abbrev main_c_47 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_cst_48 : Ref sig .tc := ⟨.hbm, 246, rfl⟩
abbrev main_call4_v0 : Ref sig .tc := ⟨.hbm, 247, rfl⟩
abbrev main_call4_v1 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_c_49 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_c_50 : Ref sig .tc := ⟨.hbm, 261, rfl⟩
abbrev main_v193 : Ref sig .tc := ⟨.hbm, 262, rfl⟩
abbrev main_v194 : Ref sig .tc := ⟨.hbm, 263, rfl⟩
abbrev main_c_51 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_cst_52 : Ref sig .tc := ⟨.hbm, 273, rfl⟩
abbrev main_v203 : Ref sig .tc := ⟨.hbm, 274, rfl⟩
abbrev main_c_53 : Ref sig .tc := ⟨.hbm, 275, rfl⟩
abbrev main_v204 : Ref sig .tc := ⟨.hbm, 276, rfl⟩
abbrev main_v205 : Ref sig .tc := ⟨.hbm, 277, rfl⟩
abbrev main_c_54 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_cst_55 : Ref sig .tc := ⟨.hbm, 284, rfl⟩
abbrev main_v211 : Ref sig .tc := ⟨.hbm, 285, rfl⟩
abbrev main_c_56 : Ref sig .tc := ⟨.hbm, 286, rfl⟩
abbrev main_v212 : Ref sig .tc := ⟨.hbm, 287, rfl⟩
abbrev main_v213 : Ref sig .tc := ⟨.hbm, 288, rfl⟩
abbrev main_c_57 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_cst_58 : Ref sig .tc := ⟨.hbm, 295, rfl⟩
abbrev main_call5_v0 : Ref sig .tc := ⟨.hbm, 296, rfl⟩
abbrev main_call5_v1 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_c_59 : Ref sig .tc := ⟨.hbm, 306, rfl⟩
abbrev main_v227 : Ref sig .tc := ⟨.hbm, 307, rfl⟩
abbrev main_v228 : Ref sig .tc := ⟨.hbm, 308, rfl⟩
abbrev main_v229 : Ref sig .tc := ⟨.hbm, 309, rfl⟩
abbrev main_c_60 : Ref sig .tc := ⟨.hbm, 310, rfl⟩
abbrev main_v230 : Ref sig .tc := ⟨.hbm, 311, rfl⟩
abbrev main_v231 : Ref sig .tc := ⟨.hbm, 312, rfl⟩
abbrev main_c_61 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_cst_62 : Ref sig .tc := ⟨.hbm, 322, rfl⟩
abbrev main_v240 : Ref sig .tc := ⟨.hbm, 323, rfl⟩
abbrev main_c_63 : Ref sig .tc := ⟨.hbm, 324, rfl⟩
abbrev main_v241 : Ref sig .tc := ⟨.hbm, 325, rfl⟩
abbrev main_v242 : Ref sig .tc := ⟨.hbm, 326, rfl⟩
abbrev main_c_64 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_cst_65 : Ref sig .tc := ⟨.hbm, 333, rfl⟩
abbrev main_v248 : Ref sig .tc := ⟨.hbm, 334, rfl⟩
abbrev main_c_66 : Ref sig .tc := ⟨.hbm, 335, rfl⟩
abbrev main_v249 : Ref sig .tc := ⟨.hbm, 336, rfl⟩
abbrev main_v250 : Ref sig .tc := ⟨.hbm, 337, rfl⟩
abbrev main_c_67 : Ref sig .tc := ⟨.hbm, 338, rfl⟩
abbrev main_v251 : Ref sig .tc := ⟨.hbm, 339, rfl⟩
abbrev main_v252 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩
abbrev main_cst_68 : Ref sig .tc := ⟨.hbm, 344, rfl⟩
abbrev main_call6_v0 : Ref sig .tc := ⟨.hbm, 345, rfl⟩
abbrev main_call6_v1 : Ref sig .tc := ⟨.hbm, 346, rfl⟩
abbrev main_v256 : Ref sig .tc := ⟨.hbm, 347, rfl⟩
abbrev main_v257 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_v261 : Ref sig .tc := ⟨.hbm, 352, rfl⟩
abbrev main_v262 : Ref sig .tc := ⟨.hbm, 353, rfl⟩
abbrev main_v263 : Ref sig .tc := ⟨.hbm, 354, rfl⟩
abbrev main_c_69 : Ref sig .tc := ⟨.hbm, 355, rfl⟩
abbrev main_v264 : Ref sig .tc := ⟨.hbm, 356, rfl⟩
abbrev main_v265 : Ref sig .tc := ⟨.hbm, 357, rfl⟩
abbrev main_v266 : Ref sig .tc := ⟨.hbm, 358, rfl⟩
abbrev main_c_70 : Ref sig .tc := ⟨.hbm, 359, rfl⟩
abbrev main_v267 : Ref sig .tc := ⟨.hbm, 360, rfl⟩
abbrev main_v268 : Ref sig .tc := ⟨.hbm, 361, rfl⟩
abbrev main_c_71 : Ref sig .tc := ⟨.hbm, 362, rfl⟩
abbrev main_v269 : Ref sig .tc := ⟨.hbm, 363, rfl⟩
abbrev main_v270 : Ref sig .tc := ⟨.hbm, 364, rfl⟩
abbrev main_v271 : Ref sig .tc := ⟨.hbm, 365, rfl⟩
abbrev main_v272 : Ref sig .tc := ⟨.hbm, 366, rfl⟩
abbrev main_v273 : Ref sig .tc := ⟨.hbm, 367, rfl⟩
abbrev main_v274 : Ref sig .tc := ⟨.hbm, 368, rfl⟩
abbrev main_v275 : Ref sig .tc := ⟨.hbm, 369, rfl⟩
abbrev main_v276 : Ref sig .tc := ⟨.hbm, 370, rfl⟩
abbrev main_cst_72 : Ref sig .tc := ⟨.hbm, 371, rfl⟩
abbrev main_v277 : Ref sig .tc := ⟨.hbm, 372, rfl⟩
abbrev main_c_73 : Ref sig .tc := ⟨.hbm, 373, rfl⟩
abbrev main_v278 : Ref sig .tc := ⟨.hbm, 374, rfl⟩
abbrev main_v279 : Ref sig .tc := ⟨.hbm, 375, rfl⟩
abbrev main_c_74 : Ref sig .tc := ⟨.hbm, 376, rfl⟩
abbrev main_v280 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_cst_75 : Ref sig .tc := ⟨.hbm, 382, rfl⟩
abbrev main_v285 : Ref sig .tc := ⟨.hbm, 383, rfl⟩
abbrev main_c_76 : Ref sig .tc := ⟨.hbm, 384, rfl⟩
abbrev main_v286 : Ref sig .tc := ⟨.hbm, 385, rfl⟩
abbrev main_v287 : Ref sig .tc := ⟨.hbm, 386, rfl⟩
abbrev main_c_77 : Ref sig .tc := ⟨.hbm, 387, rfl⟩
abbrev main_v288 : Ref sig .tc := ⟨.hbm, 388, rfl⟩
abbrev main_v289 : Ref sig .tc := ⟨.hbm, 389, rfl⟩
abbrev main_v290 : Ref sig .tc := ⟨.hbm, 390, rfl⟩
abbrev main_v291 : Ref sig .tc := ⟨.hbm, 391, rfl⟩
abbrev main_v292 : Ref sig .tc := ⟨.hbm, 392, rfl⟩
abbrev main_cst_78 : Ref sig .tc := ⟨.hbm, 393, rfl⟩
abbrev main_call7_v0 : Ref sig .tc := ⟨.hbm, 394, rfl⟩
abbrev main_call7_v1 : Ref sig .tc := ⟨.hbm, 395, rfl⟩
abbrev main_v293 : Ref sig .tc := ⟨.hbm, 396, rfl⟩
abbrev main_v294 : Ref sig .tc := ⟨.hbm, 397, rfl⟩
abbrev main_v295 : Ref sig .tc := ⟨.hbm, 398, rfl⟩
abbrev main_v296 : Ref sig .tc := ⟨.hbm, 399, rfl⟩
abbrev main_v297 : Ref sig .tc := ⟨.hbm, 400, rfl⟩
abbrev main_v298 : Ref sig .tc := ⟨.hbm, 401, rfl⟩
abbrev main_v299 : Ref sig .tc := ⟨.hbm, 402, rfl⟩
abbrev main_v300 : Ref sig .tc := ⟨.hbm, 403, rfl⟩
abbrev main_v301 : Ref sig .tc := ⟨.hbm, 404, rfl⟩
abbrev main_v302 : Ref sig .tc := ⟨.hbm, 405, rfl⟩
abbrev main_v303 : Ref sig .tc := ⟨.hbm, 406, rfl⟩
abbrev main_v304 : Ref sig .tc := ⟨.hbm, 407, rfl⟩
abbrev main_v305 : Ref sig .tc := ⟨.hbm, 408, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S10000x256 : S_.BroadcastsInDim S10000x256 (![] : Fin 0 → Fin S10000x256.rank)
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x256_0_1 : S160000x1.BroadcastsInDim S160000x256 (![0, 1] : Fin 2 → Fin S160000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  slices_S8x256x256_S1x256x256_0_0_0 : S8x256x256.Slices ![0, 0, 0] S1x256x256
  shapeCasts_S1x256x256_S256x256 : S1x256x256.ShapeCasts S256x256
  slices_S8x256x256_S1x256x256_1_0_0 : S8x256x256.Slices ![1, 0, 0] S1x256x256
  slices_S8x256x256_S1x256x256_2_0_0 : S8x256x256.Slices ![2, 0, 0] S1x256x256
  slices_S8x256x256_S1x256x256_3_0_0 : S8x256x256.Slices ![3, 0, 0] S1x256x256
  slices_S8x256x256_S1x256x256_4_0_0 : S8x256x256.Slices ![4, 0, 0] S1x256x256
  slices_S8x256x256_S1x256x256_5_0_0 : S8x256x256.Slices ![5, 0, 0] S1x256x256
  slices_S8x256x256_S1x256x256_6_0_0 : S8x256x256.Slices ![6, 0, 0] S1x256x256
  slices_S8x256x256_S1x256x256_7_0_0 : S8x256x256.Slices ![7, 0, 0] S1x256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  scatter_S10000_S160000x1_S160000_n_0_0_1_wf : ScatterDims.WF S10000 S160000x1 S160000 [] [0] [0] 1
  dot_S10000x256_S256x256_S10000x256_1_0_0_1_n_n_wf : DotDims.WF S10000x256 S256x256 S10000x256 [1] [0] [0] [1] [] []

variable [Facts₀]

def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.BitsFrame.lean ====
/-
  The frame run of the program: @main is a stretch of host operations, ONE grid region, and three more stretches of
  host operations. The region walks a 10 × 9 grid; at point (i, j) it stages row block i of the left operand
  (1000 × 256) and column block j of the right operand (256 × 256), and the body leaves in the output's staging
  buffer the product of the two blocks accumulated into zero, which is written back to block (i, j) of the result.

  This module states what each window's buffer holds around the body at every point, proves the body's triple,
  and concludes by the library's frame run for an @main that continues after its region: the program terminates
  without fault, every windowed array ends at what the write-backs compute, and every buffer that bypasses the
  region ends at what the later host operations leave in it. The six argument arrays are written by no operation
  and by no write-back, so they end as they were launched.
-/
import proofs.«139433_g6408091205734_cont_9to1_m_209_2_alg».proof.Proof.Gen.Kernel.Launch
import proofs.«139433_g6408091205734_cont_9to1_m_209_2_alg».proof.Proof.Gen.Kernel.Skeleton
import proofs.«139433_g6408091205734_cont_9to1_m_209_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around its region -/

/-- What core `c`'s buffers hold when the region is entered: the launch contents after the seven host operations
    that come first (the two rows of the second argument sliced and flattened; the fourth argument transposed, flattened
    and joined with the fifth along the columns into the region's right operand, 256 × 2304). -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- The three stretches of host operations after the region: 26 operations of @main, the three operations of the
    module-local function it calls there (a maximum against a broadcast scalar), and @main's remaining 57. -/
abbrev tailOps : List (List (HloOp τ sig (Elt F))) := [hostOps1, hostOps1_1, hostOps1_2]

/-- No host operation allocates: each writes a buffer the program already names. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 4000000 in
/-- @main is the first stretch, the region, then the three later stretches: holding the unscoped buffers at the launch
    contents it reduces to the region, entered at `V`, continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] tailOps (by simp only [List.Forall]; exact hostOps0_sub)
    (by simp only [List.Forall]; exact hostOps0_fresh) main_chain

/-! ## The later stretches' side conditions -/

/-- The later operations touch unscoped references of the core only; with nothing prefetched, every such reference is
    an array of the region or a buffer that bypasses it. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Each later operation writes its own result buffer only, and no result buffer is an array of the region (the left
    operand, the right operand, the product): stretch by stretch, operation by operation. -/
theorem hostOps1_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

/-- So the later stretches write no array of the region. -/
theorem tail_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-! ## The argument arrays are written by no host operation -/

/-- No host operation, before or after the region, writes argument 0: each writes its own result, a different buffer. -/
theorem hostOps0_spares_arg0 : (hostOps0 : List (HloOp τ sig (Elt F))).Forall fun op =>
    Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_spares_arg0 : (hostOps1 : List (HloOp τ sig (Elt F))).Forall fun op =>
    Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_spares_arg0 : (hostOps1_1 : List (HloOp τ sig (Elt F))).Forall fun op =>
    Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_spares_arg0 : (hostOps1_2 : List (HloOp τ sig (Elt F))).Forall fun op =>
    Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem tail_spares_arg0 : ∀ op ∈ (tailOps : List (List (HloOp τ sig (Elt F)))).flatten, Proc.devRef .tc main_arg0 ∉ op.writes := by
  intro op hop
  obtain ⟨ops, hops, hop'⟩ := List.mem_flatten.mp hop
  simp only [List.mem_cons, List.mem_nil_iff, or_false] at hops
  rcases hops with rfl | rfl | rfl
  · exact (List.forall_iff_forall_mem.mp hostOps1_spares_arg0) op hop'
  · exact (List.forall_iff_forall_mem.mp hostOps1_1_spares_arg0) op hop'
  · exact (List.forall_iff_forall_mem.mp hostOps1_2_spares_arg0) op hop'

/-- The region finds argument 0 as launched. -/
theorem V_main_arg0 (c : Dev nD) : V m c main_arg0 = m ((c : Thread nD τ).loc main_arg0) :=
  StableHlo.after_of_forall_not_mem (b := Proc.devRef .tc main_arg0) _ _ (fun op hop => by
    rw [List.flatten_cons, List.flatten_nil, List.append_nil] at hop
    exact (List.forall_iff_forall_mem.mp hostOps0_spares_arg0) op hop)

/-- Argument 0 is the left operand, an INPUT array of the region: never written back, it leaves the region as it
    entered it (for proof data whose arrays are the region-entry contents), and no later operation writes it. -/
theorem W_main_arg0 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (tail_spares_arg0 (F := F))]
  exact (Pipeline.withArrays_arr (cfgs 0).spec launch0.win.arr_inj c (V0 m c) _ 0).trans
    (((dats 0 c).arrAt_in 0 rfl _).trans ((hA c 0).trans (V_main_arg0 m c)))

/-- No host operation, before or after the region, writes argument 1: each writes its own result, a different buffer. -/
theorem hostOps0_spares_arg1 : (hostOps0 : List (HloOp τ sig (Elt F))).Forall fun op =>
    Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_spares_arg1 : (hostOps1 : List (HloOp τ sig (Elt F))).Forall fun op =>
    Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_spares_arg1 : (hostOps1_1 : List (HloOp τ sig (Elt F))).Forall fun op =>
    Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_spares_arg1 : (hostOps1_2 : List (HloOp τ sig (Elt F))).Forall fun op =>
    Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem tail_spares_arg1 : ∀ op ∈ (tailOps : List (List (HloOp τ sig (Elt F)))).flatten, Proc.devRef .tc main_arg1 ∉ op.writes := by
  intro op hop
  obtain ⟨ops, hops, hop'⟩ := List.mem_flatten.mp hop
  simp only [List.mem_cons, List.mem_nil_iff, or_false] at hops
  rcases hops with rfl | rfl | rfl
  · exact (List.forall_iff_forall_mem.mp hostOps1_spares_arg1) op hop'
  · exact (List.forall_iff_forall_mem.mp hostOps1_1_spares_arg1) op hop'
  · exact (List.forall_iff_forall_mem.mp hostOps1_2_spares_arg1) op hop'

/-- The region finds argument 1 as launched. -/
theorem V_main_arg1 (c : Dev nD) : V m c main_arg1 = m ((c : Thread nD τ).loc main_arg1) :=
  StableHlo.after_of_forall_not_mem (b := Proc.devRef .tc main_arg1) _ _ (fun op hop => by
    rw [List.flatten_cons, List.flatten_nil, List.append_nil] at hop
    exact (List.forall_iff_forall_mem.mp hostOps0_spares_arg1) op hop)

/-- Argument 1 bypasses the region and no later operation writes it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_spares_arg1 (F := F)),
    Pipeline.withArrays_of_ne _ c (V0 m c) _ main_arg1 (by exact (by decide : ∀ w, Pipeline.arrRef spec0 w ≠ main_arg1))]
  exact V_main_arg1 m c

/-- No host operation, before or after the region, writes argument 2: each writes its own result, a different buffer. -/
theorem hostOps0_spares_arg2 : (hostOps0 : List (HloOp τ sig (Elt F))).Forall fun op =>
    Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_spares_arg2 : (hostOps1 : List (HloOp τ sig (Elt F))).Forall fun op =>
    Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_spares_arg2 : (hostOps1_1 : List (HloOp τ sig (Elt F))).Forall fun op =>
    Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_spares_arg2 : (hostOps1_2 : List (HloOp τ sig (Elt F))).Forall fun op =>
    Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem tail_spares_arg2 : ∀ op ∈ (tailOps : List (List (HloOp τ sig (Elt F)))).flatten, Proc.devRef .tc main_arg2 ∉ op.writes := by
  intro op hop
  obtain ⟨ops, hops, hop'⟩ := List.mem_flatten.mp hop
  simp only [List.mem_cons, List.mem_nil_iff, or_false] at hops
  rcases hops with rfl | rfl | rfl
  · exact (List.forall_iff_forall_mem.mp hostOps1_spares_arg2) op hop'
  · exact (List.forall_iff_forall_mem.mp hostOps1_1_spares_arg2) op hop'
  · exact (List.forall_iff_forall_mem.mp hostOps1_2_spares_arg2) op hop'

/-- The region finds argument 2 as launched. -/
theorem V_main_arg2 (c : Dev nD) : V m c main_arg2 = m ((c : Thread nD τ).loc main_arg2) :=
  StableHlo.after_of_forall_not_mem (b := Proc.devRef .tc main_arg2) _ _ (fun op hop => by
    rw [List.flatten_cons, List.flatten_nil, List.append_nil] at hop
    exact (List.forall_iff_forall_mem.mp hostOps0_spares_arg2) op hop)

/-- Argument 2 bypasses the region and no later operation writes it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (tail_spares_arg2 (F := F)),
    Pipeline.withArrays_of_ne _ c (V0 m c) _ main_arg2 (by exact (by decide : ∀ w, Pipeline.arrRef spec0 w ≠ main_arg2))]
  exact V_main_arg2 m c

/-- No host operation, before or after the region, writes argument 3: each writes its own result, a different buffer. -/
theorem hostOps0_spares_arg3 : (hostOps0 : List (HloOp τ sig (Elt F))).Forall fun op =>
    Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_spares_arg3 : (hostOps1 : List (HloOp τ sig (Elt F))).Forall fun op =>
    Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_spares_arg3 : (hostOps1_1 : List (HloOp τ sig (Elt F))).Forall fun op =>
    Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_spares_arg3 : (hostOps1_2 : List (HloOp τ sig (Elt F))).Forall fun op =>
    Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem tail_spares_arg3 : ∀ op ∈ (tailOps : List (List (HloOp τ sig (Elt F)))).flatten, Proc.devRef .tc main_arg3 ∉ op.writes := by
  intro op hop
  obtain ⟨ops, hops, hop'⟩ := List.mem_flatten.mp hop
  simp only [List.mem_cons, List.mem_nil_iff, or_false] at hops
  rcases hops with rfl | rfl | rfl
  · exact (List.forall_iff_forall_mem.mp hostOps1_spares_arg3) op hop'
  · exact (List.forall_iff_forall_mem.mp hostOps1_1_spares_arg3) op hop'
  · exact (List.forall_iff_forall_mem.mp hostOps1_2_spares_arg3) op hop'

/-- The region finds argument 3 as launched. -/
theorem V_main_arg3 (c : Dev nD) : V m c main_arg3 = m ((c : Thread nD τ).loc main_arg3) :=
  StableHlo.after_of_forall_not_mem (b := Proc.devRef .tc main_arg3) _ _ (fun op hop => by
    rw [List.flatten_cons, List.flatten_nil, List.append_nil] at hop
    exact (List.forall_iff_forall_mem.mp hostOps0_spares_arg3) op hop)

/-- Argument 3 bypasses the region and no later operation writes it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (tail_spares_arg3 (F := F)),
    Pipeline.withArrays_of_ne _ c (V0 m c) _ main_arg3 (by exact (by decide : ∀ w, Pipeline.arrRef spec0 w ≠ main_arg3))]
  exact V_main_arg3 m c

/-- No host operation, before or after the region, writes argument 4: each writes its own result, a different buffer. -/
theorem hostOps0_spares_arg4 : (hostOps0 : List (HloOp τ sig (Elt F))).Forall fun op =>
    Proc.devRef .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_spares_arg4 : (hostOps1 : List (HloOp τ sig (Elt F))).Forall fun op =>
    Proc.devRef .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_spares_arg4 : (hostOps1_1 : List (HloOp τ sig (Elt F))).Forall fun op =>
    Proc.devRef .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_spares_arg4 : (hostOps1_2 : List (HloOp τ sig (Elt F))).Forall fun op =>
    Proc.devRef .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem tail_spares_arg4 : ∀ op ∈ (tailOps : List (List (HloOp τ sig (Elt F)))).flatten, Proc.devRef .tc main_arg4 ∉ op.writes := by
  intro op hop
  obtain ⟨ops, hops, hop'⟩ := List.mem_flatten.mp hop
  simp only [List.mem_cons, List.mem_nil_iff, or_false] at hops
  rcases hops with rfl | rfl | rfl
  · exact (List.forall_iff_forall_mem.mp hostOps1_spares_arg4) op hop'
  · exact (List.forall_iff_forall_mem.mp hostOps1_1_spares_arg4) op hop'
  · exact (List.forall_iff_forall_mem.mp hostOps1_2_spares_arg4) op hop'

/-- The region finds argument 4 as launched. -/
theorem V_main_arg4 (c : Dev nD) : V m c main_arg4 = m ((c : Thread nD τ).loc main_arg4) :=
  StableHlo.after_of_forall_not_mem (b := Proc.devRef .tc main_arg4) _ _ (fun op hop => by
    rw [List.flatten_cons, List.flatten_nil, List.append_nil] at hop
    exact (List.forall_iff_forall_mem.mp hostOps0_spares_arg4) op hop)

/-- Argument 4 bypasses the region and no later operation writes it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (tail_spares_arg4 (F := F)),
    Pipeline.withArrays_of_ne _ c (V0 m c) _ main_arg4 (by exact (by decide : ∀ w, Pipeline.arrRef spec0 w ≠ main_arg4))]
  exact V_main_arg4 m c

/-- No host operation, before or after the region, writes argument 5: each writes its own result, a different buffer. -/
theorem hostOps0_spares_arg5 : (hostOps0 : List (HloOp τ sig (Elt F))).Forall fun op =>
    Proc.devRef .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_spares_arg5 : (hostOps1 : List (HloOp τ sig (Elt F))).Forall fun op =>
    Proc.devRef .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_spares_arg5 : (hostOps1_1 : List (HloOp τ sig (Elt F))).Forall fun op =>
    Proc.devRef .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_spares_arg5 : (hostOps1_2 : List (HloOp τ sig (Elt F))).Forall fun op =>
    Proc.devRef .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem tail_spares_arg5 : ∀ op ∈ (tailOps : List (List (HloOp τ sig (Elt F)))).flatten, Proc.devRef .tc main_arg5 ∉ op.writes := by
  intro op hop
  obtain ⟨ops, hops, hop'⟩ := List.mem_flatten.mp hop
  simp only [List.mem_cons, List.mem_nil_iff, or_false] at hops
  rcases hops with rfl | rfl | rfl
  · exact (List.forall_iff_forall_mem.mp hostOps1_spares_arg5) op hop'
  · exact (List.forall_iff_forall_mem.mp hostOps1_1_spares_arg5) op hop'
  · exact (List.forall_iff_forall_mem.mp hostOps1_2_spares_arg5) op hop'

/-- The region finds argument 5 as launched. -/
theorem V_main_arg5 (c : Dev nD) : V m c main_arg5 = m ((c : Thread nD τ).loc main_arg5) :=
  StableHlo.after_of_forall_not_mem (b := Proc.devRef .tc main_arg5) _ _ (fun op hop => by
    rw [List.flatten_cons, List.flatten_nil, List.append_nil] at hop
    exact (List.forall_iff_forall_mem.mp hostOps0_spares_arg5) op hop)

/-- Argument 5 bypasses the region and no later operation writes it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (tail_spares_arg5 (F := F)),
    Pipeline.withArrays_of_ne _ c (V0 m c) _ main_arg5 (by exact (by decide : ∀ w, Pipeline.arrRef spec0 w ≠ main_arg5))]
  exact V_main_arg5 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's current staging buffer holds its row block at EVERY point, although it is fetched only when the
    row index moves (once every nine points): between fetches the block index stands still and the body leaves the
    buffer as it found it. For any proof data whose array is the region-entry contents and whose body keeps the block. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right operand's current staging buffer holds its column block at every point (it is fetched at each). -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output's buffer -/

/-- The body reads each of its three buffers whole and stores over the whole output buffer. -/
abbrev rLeft : Rect S1000x256 := Rect.unit (s := S1000x256) ![0, 0] S1000x256.size inb_S1000x256_S1000x256_0_0
abbrev rRight : Rect S256x256 := Rect.unit (s := S256x256) ![0, 0] S256x256.size inb_S256x256_S256x256_0_0

/-- The output buffer after the body, from the two input blocks: the one store, whose payload is the product of the
    left block (1000 × 256) by the right block (256 × 256) accumulated into zero. What the buffer held before does not
    enter: the body reads it and drops the value. -/
def blockProduct (x0 : Vec F S1000x256 .f32) (x1 : Vec F S256x256 .f32) : Vec F S1000x256 .f32 :=
  View.canon [⟨rLeft, k0_pay1 (View.ld x0 rLeft) (View.ld x1 rRight)⟩]

/-- The one store covers the whole buffer. -/
theorem cover_out (p0 : Vec F S1000x256 .f32) (y : S1000x256.Idx) :
    ∃ pc ∈ ([⟨rLeft, p0⟩] : List (View.Piece (Elt F) S1000x256 .f32)), y ∈ pc.1.set :=
  View.cover_of_tiled [⟨rLeft, p0⟩] S1000x256.size (by rfl) y

/-! ## The body's triple -/

set_option maxHeartbeats 1000000 in
/-- The body on whole staging buffers — the two inputs at read contents `x0`, `x1`, the output at anything — runs to
    its continuation holding the inputs as they were and the output at `blockProduct x0 x1`. -/
theorem sound_kernel (c : Dev nD) (E : Set ℕ) (i : grid0.Coords)
    (arg2 : Memref sig .tc .vmem S1000x256 .f32) (harg2 : arg2.IsWhole)
    (arg3 : Memref sig .tc .vmem S256x256 .f32) (harg3 : arg3.IsWhole)
    (arg4 : Memref sig .tc .vmem S1000x256 .f32) (harg4 : arg4.IsWhole)
    (x0 : Vec F S1000x256 .f32) (x1 : Vec F S256x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (blockProduct x0 x1)) -∗ K ⟨⟩))
      ⊢ wp frame (wpE (defs₀ (F := F)) Variants.none c none) E (cc0__matmul_block i arg2 harg2 arg3 harg3 arg4 harg4) K := by
  simp only [cc0__matmul_block_eq_skeleton]; unfold cc0__matmul_block_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The region's proof data -/

/-- The proof data of the region on core `c`: the arrays as the region finds them; after the body at point `t` each
    input's buffer at its block and the output's at the product of the two blocks; the invariant that of a body with
    nothing of its own (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockProduct (iblk m c 0 t) (iblk m c 1 t)
  Φ _ := Pipeline.ΦA spec0 c
  q _ := fullShare
  owed _ := 0

/-- Its arrays are the region-entry contents. -/
theorem A_eq (c : Dev nD) (w : Fin cfg0.W) : (dats m 0 c).A w = V m c (Pipeline.arrRef spec0 w) := by
  dsimp only [dats]

/-- What the body leaves, window by window. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) :
    (dats m 0 c).after 2 t = blockProduct (iblk m c 0 t) (iblk m c 1 t) := by dsimp only [dats]

/-- Each input's current staging buffer holds its block at every point. -/
theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d

/-! ## The body obligation, at a generic point -/

/-- What the body is called with at point `t`: the invariant, what the core owes, and each window's current staging
    buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl,
    after_in0, after_in1, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- At the compiled mesh, for any values, from any memory with zero counters: every weakly fair execution of @main on the
    cores terminates without fault, and every final state has each array of the region at what the write-backs compute
    from the proof data and every other unscoped buffer at what the later host operations leave from the region's exit. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame from a frame run: the left operand, a staged input, is read at the run's first clause (an input array is
    never written back) and found as launched; the other five arguments bypass the region, are read at the second
    clause, and no later operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

/-- THE FRAME, at any float interpretation: the program runs, and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.HandFrame

end
-- ==== Proof.IdealFrame.lean ====
/-
  The frame run of the program: @main is a stretch of host operations, ONE grid region, and three more stretches of
  host operations. The region walks a 10 × 9 grid; at point (i, j) it stages row block i of the left operand
  (1000 × 256) and column block j of the right operand (256 × 256), and the body leaves in the output's staging
  buffer the product of the two blocks accumulated into zero, which is written back to block (i, j) of the result.

  This module states what each window's buffer holds around the body at every point, proves the body's triple,
  and concludes by the library's frame run for an @main that continues after its region: the program terminates
  without fault, every windowed array ends at what the write-backs compute, and every buffer that bypasses the
  region ends at what the later host operations leave in it. The six argument arrays are written by no operation
  and by no write-back, so they end as they were launched.
-/
import proofs.«139433_g6408091205734_cont_9to1_m_209_2_alg».proof.Proof.Gen.KernelIdeal.Launch
import proofs.«139433_g6408091205734_cont_9to1_m_209_2_alg».proof.Proof.Gen.KernelIdeal.Skeleton
import proofs.«139433_g6408091205734_cont_9to1_m_209_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around its region -/

/-- What core `c`'s buffers hold when the region is entered: the launch contents after the seven host operations
    that come first (the two rows of the second argument sliced and flattened; the fourth argument transposed, flattened
    and joined with the fifth along the columns into the region's right operand, 256 × 2304). -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- The three stretches of host operations after the region: 26 operations of @main, the three operations of the
    module-local function it calls there (a maximum against a broadcast scalar), and @main's remaining 57. -/
abbrev tailOps : List (List (HloOp τ sig (Elt F))) := [hostOps1, hostOps1_1, hostOps1_2]

/-- No host operation allocates: each writes a buffer the program already names. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 4000000 in
/-- @main is the first stretch, the region, then the three later stretches: holding the unscoped buffers at the launch
    contents it reduces to the region, entered at `V`, continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] tailOps (by simp only [List.Forall]; exact hostOps0_sub)
    (by simp only [List.Forall]; exact hostOps0_fresh) main_chain

/-! ## The later stretches' side conditions -/

/-- The later operations touch unscoped references of the core only; with nothing prefetched, every such reference is
    an array of the region or a buffer that bypasses it. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Each later operation writes its own result buffer only, and no result buffer is an array of the region (the left
    operand, the right operand, the product): stretch by stretch, operation by operation. -/
theorem hostOps1_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

/-- So the later stretches write no array of the region. -/
theorem tail_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-! ## The argument arrays are written by no host operation -/

/-- No host operation, before or after the region, writes argument 0: each writes its own result, a different buffer. -/
theorem hostOps0_spares_arg0 : (hostOps0 : List (HloOp τ sig (Elt F))).Forall fun op =>
    Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_spares_arg0 : (hostOps1 : List (HloOp τ sig (Elt F))).Forall fun op =>
    Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_spares_arg0 : (hostOps1_1 : List (HloOp τ sig (Elt F))).Forall fun op =>
    Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_spares_arg0 : (hostOps1_2 : List (HloOp τ sig (Elt F))).Forall fun op =>
    Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem tail_spares_arg0 : ∀ op ∈ (tailOps : List (List (HloOp τ sig (Elt F)))).flatten, Proc.devRef .tc main_arg0 ∉ op.writes := by
  intro op hop
  obtain ⟨ops, hops, hop'⟩ := List.mem_flatten.mp hop
  simp only [List.mem_cons, List.mem_nil_iff, or_false] at hops
  rcases hops with rfl | rfl | rfl
  · exact (List.forall_iff_forall_mem.mp hostOps1_spares_arg0) op hop'
  · exact (List.forall_iff_forall_mem.mp hostOps1_1_spares_arg0) op hop'
  · exact (List.forall_iff_forall_mem.mp hostOps1_2_spares_arg0) op hop'

/-- The region finds argument 0 as launched. -/
theorem V_main_arg0 (c : Dev nD) : V m c main_arg0 = m ((c : Thread nD τ).loc main_arg0) :=
  StableHlo.after_of_forall_not_mem (b := Proc.devRef .tc main_arg0) _ _ (fun op hop => by
    rw [List.flatten_cons, List.flatten_nil, List.append_nil] at hop
    exact (List.forall_iff_forall_mem.mp hostOps0_spares_arg0) op hop)

/-- Argument 0 is the left operand, an INPUT array of the region: never written back, it leaves the region as it
    entered it (for proof data whose arrays are the region-entry contents), and no later operation writes it. -/
theorem W_main_arg0 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (tail_spares_arg0 (F := F))]
  exact (Pipeline.withArrays_arr (cfgs 0).spec launch0.win.arr_inj c (V0 m c) _ 0).trans
    (((dats 0 c).arrAt_in 0 rfl _).trans ((hA c 0).trans (V_main_arg0 m c)))

/-- No host operation, before or after the region, writes argument 1: each writes its own result, a different buffer. -/
theorem hostOps0_spares_arg1 : (hostOps0 : List (HloOp τ sig (Elt F))).Forall fun op =>
    Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_spares_arg1 : (hostOps1 : List (HloOp τ sig (Elt F))).Forall fun op =>
    Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_spares_arg1 : (hostOps1_1 : List (HloOp τ sig (Elt F))).Forall fun op =>
    Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_spares_arg1 : (hostOps1_2 : List (HloOp τ sig (Elt F))).Forall fun op =>
    Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem tail_spares_arg1 : ∀ op ∈ (tailOps : List (List (HloOp τ sig (Elt F)))).flatten, Proc.devRef .tc main_arg1 ∉ op.writes := by
  intro op hop
  obtain ⟨ops, hops, hop'⟩ := List.mem_flatten.mp hop
  simp only [List.mem_cons, List.mem_nil_iff, or_false] at hops
  rcases hops with rfl | rfl | rfl
  · exact (List.forall_iff_forall_mem.mp hostOps1_spares_arg1) op hop'
  · exact (List.forall_iff_forall_mem.mp hostOps1_1_spares_arg1) op hop'
  · exact (List.forall_iff_forall_mem.mp hostOps1_2_spares_arg1) op hop'

/-- The region finds argument 1 as launched. -/
theorem V_main_arg1 (c : Dev nD) : V m c main_arg1 = m ((c : Thread nD τ).loc main_arg1) :=
  StableHlo.after_of_forall_not_mem (b := Proc.devRef .tc main_arg1) _ _ (fun op hop => by
    rw [List.flatten_cons, List.flatten_nil, List.append_nil] at hop
    exact (List.forall_iff_forall_mem.mp hostOps0_spares_arg1) op hop)

/-- Argument 1 bypasses the region and no later operation writes it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_spares_arg1 (F := F)),
    Pipeline.withArrays_of_ne _ c (V0 m c) _ main_arg1 (by exact (by decide : ∀ w, Pipeline.arrRef spec0 w ≠ main_arg1))]
  exact V_main_arg1 m c

/-- No host operation, before or after the region, writes argument 2: each writes its own result, a different buffer. -/
theorem hostOps0_spares_arg2 : (hostOps0 : List (HloOp τ sig (Elt F))).Forall fun op =>
    Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_spares_arg2 : (hostOps1 : List (HloOp τ sig (Elt F))).Forall fun op =>
    Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_spares_arg2 : (hostOps1_1 : List (HloOp τ sig (Elt F))).Forall fun op =>
    Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_spares_arg2 : (hostOps1_2 : List (HloOp τ sig (Elt F))).Forall fun op =>
    Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem tail_spares_arg2 : ∀ op ∈ (tailOps : List (List (HloOp τ sig (Elt F)))).flatten, Proc.devRef .tc main_arg2 ∉ op.writes := by
  intro op hop
  obtain ⟨ops, hops, hop'⟩ := List.mem_flatten.mp hop
  simp only [List.mem_cons, List.mem_nil_iff, or_false] at hops
  rcases hops with rfl | rfl | rfl
  · exact (List.forall_iff_forall_mem.mp hostOps1_spares_arg2) op hop'
  · exact (List.forall_iff_forall_mem.mp hostOps1_1_spares_arg2) op hop'
  · exact (List.forall_iff_forall_mem.mp hostOps1_2_spares_arg2) op hop'

/-- The region finds argument 2 as launched. -/
theorem V_main_arg2 (c : Dev nD) : V m c main_arg2 = m ((c : Thread nD τ).loc main_arg2) :=
  StableHlo.after_of_forall_not_mem (b := Proc.devRef .tc main_arg2) _ _ (fun op hop => by
    rw [List.flatten_cons, List.flatten_nil, List.append_nil] at hop
    exact (List.forall_iff_forall_mem.mp hostOps0_spares_arg2) op hop)

/-- Argument 2 bypasses the region and no later operation writes it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (tail_spares_arg2 (F := F)),
    Pipeline.withArrays_of_ne _ c (V0 m c) _ main_arg2 (by exact (by decide : ∀ w, Pipeline.arrRef spec0 w ≠ main_arg2))]
  exact V_main_arg2 m c

/-- No host operation, before or after the region, writes argument 3: each writes its own result, a different buffer. -/
theorem hostOps0_spares_arg3 : (hostOps0 : List (HloOp τ sig (Elt F))).Forall fun op =>
    Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_spares_arg3 : (hostOps1 : List (HloOp τ sig (Elt F))).Forall fun op =>
    Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_spares_arg3 : (hostOps1_1 : List (HloOp τ sig (Elt F))).Forall fun op =>
    Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_spares_arg3 : (hostOps1_2 : List (HloOp τ sig (Elt F))).Forall fun op =>
    Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem tail_spares_arg3 : ∀ op ∈ (tailOps : List (List (HloOp τ sig (Elt F)))).flatten, Proc.devRef .tc main_arg3 ∉ op.writes := by
  intro op hop
  obtain ⟨ops, hops, hop'⟩ := List.mem_flatten.mp hop
  simp only [List.mem_cons, List.mem_nil_iff, or_false] at hops
  rcases hops with rfl | rfl | rfl
  · exact (List.forall_iff_forall_mem.mp hostOps1_spares_arg3) op hop'
  · exact (List.forall_iff_forall_mem.mp hostOps1_1_spares_arg3) op hop'
  · exact (List.forall_iff_forall_mem.mp hostOps1_2_spares_arg3) op hop'

/-- The region finds argument 3 as launched. -/
theorem V_main_arg3 (c : Dev nD) : V m c main_arg3 = m ((c : Thread nD τ).loc main_arg3) :=
  StableHlo.after_of_forall_not_mem (b := Proc.devRef .tc main_arg3) _ _ (fun op hop => by
    rw [List.flatten_cons, List.flatten_nil, List.append_nil] at hop
    exact (List.forall_iff_forall_mem.mp hostOps0_spares_arg3) op hop)

/-- Argument 3 bypasses the region and no later operation writes it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (tail_spares_arg3 (F := F)),
    Pipeline.withArrays_of_ne _ c (V0 m c) _ main_arg3 (by exact (by decide : ∀ w, Pipeline.arrRef spec0 w ≠ main_arg3))]
  exact V_main_arg3 m c

/-- No host operation, before or after the region, writes argument 4: each writes its own result, a different buffer. -/
theorem hostOps0_spares_arg4 : (hostOps0 : List (HloOp τ sig (Elt F))).Forall fun op =>
    Proc.devRef .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_spares_arg4 : (hostOps1 : List (HloOp τ sig (Elt F))).Forall fun op =>
    Proc.devRef .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_spares_arg4 : (hostOps1_1 : List (HloOp τ sig (Elt F))).Forall fun op =>
    Proc.devRef .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_spares_arg4 : (hostOps1_2 : List (HloOp τ sig (Elt F))).Forall fun op =>
    Proc.devRef .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem tail_spares_arg4 : ∀ op ∈ (tailOps : List (List (HloOp τ sig (Elt F)))).flatten, Proc.devRef .tc main_arg4 ∉ op.writes := by
  intro op hop
  obtain ⟨ops, hops, hop'⟩ := List.mem_flatten.mp hop
  simp only [List.mem_cons, List.mem_nil_iff, or_false] at hops
  rcases hops with rfl | rfl | rfl
  · exact (List.forall_iff_forall_mem.mp hostOps1_spares_arg4) op hop'
  · exact (List.forall_iff_forall_mem.mp hostOps1_1_spares_arg4) op hop'
  · exact (List.forall_iff_forall_mem.mp hostOps1_2_spares_arg4) op hop'

/-- The region finds argument 4 as launched. -/
theorem V_main_arg4 (c : Dev nD) : V m c main_arg4 = m ((c : Thread nD τ).loc main_arg4) :=
  StableHlo.after_of_forall_not_mem (b := Proc.devRef .tc main_arg4) _ _ (fun op hop => by
    rw [List.flatten_cons, List.flatten_nil, List.append_nil] at hop
    exact (List.forall_iff_forall_mem.mp hostOps0_spares_arg4) op hop)

/-- Argument 4 bypasses the region and no later operation writes it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (tail_spares_arg4 (F := F)),
    Pipeline.withArrays_of_ne _ c (V0 m c) _ main_arg4 (by exact (by decide : ∀ w, Pipeline.arrRef spec0 w ≠ main_arg4))]
  exact V_main_arg4 m c

/-- No host operation, before or after the region, writes argument 5: each writes its own result, a different buffer. -/
theorem hostOps0_spares_arg5 : (hostOps0 : List (HloOp τ sig (Elt F))).Forall fun op =>
    Proc.devRef .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_spares_arg5 : (hostOps1 : List (HloOp τ sig (Elt F))).Forall fun op =>
    Proc.devRef .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_spares_arg5 : (hostOps1_1 : List (HloOp τ sig (Elt F))).Forall fun op =>
    Proc.devRef .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_spares_arg5 : (hostOps1_2 : List (HloOp τ sig (Elt F))).Forall fun op =>
    Proc.devRef .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem tail_spares_arg5 : ∀ op ∈ (tailOps : List (List (HloOp τ sig (Elt F)))).flatten, Proc.devRef .tc main_arg5 ∉ op.writes := by
  intro op hop
  obtain ⟨ops, hops, hop'⟩ := List.mem_flatten.mp hop
  simp only [List.mem_cons, List.mem_nil_iff, or_false] at hops
  rcases hops with rfl | rfl | rfl
  · exact (List.forall_iff_forall_mem.mp hostOps1_spares_arg5) op hop'
  · exact (List.forall_iff_forall_mem.mp hostOps1_1_spares_arg5) op hop'
  · exact (List.forall_iff_forall_mem.mp hostOps1_2_spares_arg5) op hop'

/-- The region finds argument 5 as launched. -/
theorem V_main_arg5 (c : Dev nD) : V m c main_arg5 = m ((c : Thread nD τ).loc main_arg5) :=
  StableHlo.after_of_forall_not_mem (b := Proc.devRef .tc main_arg5) _ _ (fun op hop => by
    rw [List.flatten_cons, List.flatten_nil, List.append_nil] at hop
    exact (List.forall_iff_forall_mem.mp hostOps0_spares_arg5) op hop)

/-- Argument 5 bypasses the region and no later operation writes it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (tail_spares_arg5 (F := F)),
    Pipeline.withArrays_of_ne _ c (V0 m c) _ main_arg5 (by exact (by decide : ∀ w, Pipeline.arrRef spec0 w ≠ main_arg5))]
  exact V_main_arg5 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's current staging buffer holds its row block at EVERY point, although it is fetched only when the
    row index moves (once every nine points): between fetches the block index stands still and the body leaves the
    buffer as it found it. For any proof data whose array is the region-entry contents and whose body keeps the block. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right operand's current staging buffer holds its column block at every point (it is fetched at each). -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output's buffer -/

/-- The body reads each of its three buffers whole and stores over the whole output buffer. -/
abbrev rLeft : Rect S1000x256 := Rect.unit (s := S1000x256) ![0, 0] S1000x256.size inb_S1000x256_S1000x256_0_0
abbrev rRight : Rect S256x256 := Rect.unit (s := S256x256) ![0, 0] S256x256.size inb_S256x256_S256x256_0_0

/-- The output buffer after the body, from the two input blocks: the one store, whose payload is the product of the
    left block (1000 × 256) by the right block (256 × 256) accumulated into zero. What the buffer held before does not
    enter: the body reads it and drops the value. -/
def blockProduct (x0 : Vec F S1000x256 .f32) (x1 : Vec F S256x256 .f32) : Vec F S1000x256 .f32 :=
  View.canon [⟨rLeft, k0_pay1 (View.ld x0 rLeft) (View.ld x1 rRight)⟩]

/-- The one store covers the whole buffer. -/
theorem cover_out (p0 : Vec F S1000x256 .f32) (y : S1000x256.Idx) :
    ∃ pc ∈ ([⟨rLeft, p0⟩] : List (View.Piece (Elt F) S1000x256 .f32)), y ∈ pc.1.set :=
  View.cover_of_tiled [⟨rLeft, p0⟩] S1000x256.size (by rfl) y

/-! ## The body's triple -/

set_option maxHeartbeats 1000000 in
/-- The body on whole staging buffers — the two inputs at read contents `x0`, `x1`, the output at anything — runs to
    its continuation holding the inputs as they were and the output at `blockProduct x0 x1`. -/
theorem sound_kernel (c : Dev nD) (E : Set ℕ) (i : grid0.Coords)
    (arg2 : Memref sig .tc .vmem S1000x256 .f32) (harg2 : arg2.IsWhole)
    (arg3 : Memref sig .tc .vmem S256x256 .f32) (harg3 : arg3.IsWhole)
    (arg4 : Memref sig .tc .vmem S1000x256 .f32) (harg4 : arg4.IsWhole)
    (x0 : Vec F S1000x256 .f32) (x1 : Vec F S256x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (blockProduct x0 x1)) -∗ K ⟨⟩))
      ⊢ wp frame (wpE (defs₀ (F := F)) Variants.none c none) E (cc0__matmul_block i arg2 harg2 arg3 harg3 arg4 harg4) K := by
  simp only [cc0__matmul_block_eq_skeleton]; unfold cc0__matmul_block_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The region's proof data -/

/-- The proof data of the region on core `c`: the arrays as the region finds them; after the body at point `t` each
    input's buffer at its block and the output's at the product of the two blocks; the invariant that of a body with
    nothing of its own (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockProduct (iblk m c 0 t) (iblk m c 1 t)
  Φ _ := Pipeline.ΦA spec0 c
  q _ := fullShare
  owed _ := 0

/-- Its arrays are the region-entry contents. -/
theorem A_eq (c : Dev nD) (w : Fin cfg0.W) : (dats m 0 c).A w = V m c (Pipeline.arrRef spec0 w) := by
  dsimp only [dats]

/-- What the body leaves, window by window. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) :
    (dats m 0 c).after 2 t = blockProduct (iblk m c 0 t) (iblk m c 1 t) := by dsimp only [dats]

/-- Each input's current staging buffer holds its block at every point. -/
theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d

/-! ## The body obligation, at a generic point -/

/-- What the body is called with at point `t`: the invariant, what the core owes, and each window's current staging
    buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl,
    after_in0, after_in1, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- At the compiled mesh, for any values, from any memory with zero counters: every weakly fair execution of @main on the
    cores terminates without fault, and every final state has each array of the region at what the write-backs compute
    from the proof data and every other unscoped buffer at what the later host operations leave from the region's exit. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame from a frame run: the left operand, a staged input, is read at the run's first clause (an input array is
    never written back) and found as launched; the other five arguments bypass the region, are read at the second
    clause, and no later operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

/-- THE FRAME, at any float interpretation: the program runs, and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.HandFrame

end
-- ==== Proof.Frames.lean ====
/-
  The certificate's frame parts and its idealization part, each at the statement the claim conjoins.
  The compiled program and its idealization print the same operations, so one frame argument, generic in the float
  interpretation, serves both: at the bit-level floats for the first, at the extended reals for the second. The
  reference's run ends with its result and its six arguments side by side; its frame keeps the six arguments.
  The idealization rewrote nothing, so it has nothing to restate.
-/
import proofs.«139433_g6408091205734_cont_9to1_m_209_2_alg».proof.Defs
import proofs.«139433_g6408091205734_cont_9to1_m_209_2_alg».proof.Proof.Gen.Pre_finite_inputs
import proofs.«139433_g6408091205734_cont_9to1_m_209_2_alg».proof.Proof.BitsFrame
import proofs.«139433_g6408091205734_cont_9to1_m_209_2_alg».proof.Proof.IdealFrame
import proofs.«139433_g6408091205734_cont_9to1_m_209_2_alg».proof.Proof.RefRun

noncomputable section

open Idealize.ShloMosaic Idealize.ShloMosaic.TcCoe Idealize.SL.Sem

namespace Cert.Proof.Parts

/-- The compiled program runs and keeps its six argument arrays: the frame at the bit-level floats. -/
theorem frame_kernel : Cert.frame_Kernel := fun m ρ _ => Cert.Kernel.HandFrame.frame m ρ

/-- Its idealization runs and keeps its six argument arrays: the same frame at the extended reals. -/
theorem frame_kernelIdeal : Cert.frame_KernelIdeal := fun m ρ _ => Cert.KernelIdeal.HandFrame.frame m ρ

/-- The reference runs and keeps its six argument arrays: the last six clauses of its run's post, which lists the result
    and the two returned arguments first. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization is the program itself: no rewrite to account for. -/
theorem preserves : Cert.preserves_Kernel_KernelIdeal := trivial

end Cert.Proof.Parts

end
-- ==== Proof.KernelResult.lean ====
/-
  The program's result, read off its frame run. After the region the buffers of a core hold: the region's three arrays
  at what the write-backs leave (the two operands as they entered, the product array rewritten block by block), and every
  other buffer at what it held when the region was entered. The later host operations run from that valuation, and the
  program's result buffer ends at what their composition computes from it. This module names that valuation, reads it at
  the buffers the later operations consume, and restates the run with the result and the arguments side by side.
-/
import proofs.«139433_g6408091205734_cont_9to1_m_209_2_alg».proof.Proof.IdealFrame

noncomputable section

namespace Cert.KernelIdeal.Result

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-! ## The buffers at the region's exit -/

/-- What core `c`'s buffers hold when the region is left: each array of the region at what its write-backs leave after
    the last grid point, every other buffer at its region-entry contents. -/
def tailValuation (c : Dev nD) : Valuation τ sig (Elt F) :=
  Pipeline.withArrays spec0 c (HandFrame.V0 m c) fun w => (HandFrame.dats m 0 c).arrAt w cfg0.N

/-- What a buffer holds at the end of the program is what the later host operations compute from the exit valuation. -/
theorem result_eq (c : Dev nD) (b : Ref sig .tc) :
    Pipeline.afterTail₀ cfgs (HandFrame.dats m) 0 (HandFrame.V0 m) HandFrame.tailOps c b
      = (StableHlo.after (List.flatten HandFrame.tailOps) (tailValuation m c) (Proc.devRef .tc b) : Buf (Elt F) ((c.tc : Thread nD τ).loc b)) := by
  unfold Pipeline.afterTail₀ tailValuation
  rfl

/-- At the product array the exit valuation is the write-backs' result. -/
theorem tailValuation_product (c : Dev nD) :
    (tailValuation m c (Proc.devRef .tc main_v7) : Buf (Elt F) ((c.tc : Thread nD τ).loc main_v7))
      = (HandFrame.dats m 0 c).arrAt 2 cfg0.N :=
  Pipeline.withArrays_arr spec0 launch0.win.arr_inj c (HandFrame.V0 m c) (fun w => (HandFrame.dats m 0 c).arrAt w cfg0.N) 2

/-- The two flattened integer rows are no array of the region: the exit valuation has them as the region found them. -/
theorem tailValuation_sources (c : Dev nD) :
    (tailValuation m c (Proc.devRef .tc main_v1) : Buf (Elt F) ((c.tc : Thread nD τ).loc main_v1)) = HandFrame.V m c main_v1 :=
  Pipeline.withArrays_of_ne spec0 c (HandFrame.V0 m c) (fun w => (HandFrame.dats m 0 c).arrAt w cfg0.N) main_v1
    (by exact (by decide : ∀ w, Pipeline.arrRef spec0 w ≠ main_v1))
theorem tailValuation_destinations (c : Dev nD) :
    (tailValuation m c (Proc.devRef .tc main_v3) : Buf (Elt F) ((c.tc : Thread nD τ).loc main_v3)) = HandFrame.V m c main_v3 :=
  Pipeline.withArrays_of_ne spec0 c (HandFrame.V0 m c) (fun w => (HandFrame.dats m 0 c).arrAt w cfg0.N) main_v3
    (by exact (by decide : ∀ w, Pipeline.arrRef spec0 w ≠ main_v3))

/-- The third and the sixth argument are no array of the region and are written by no operation before it: the exit
    valuation has them as launched. -/
theorem tailValuation_types (c : Dev nD) :
    (tailValuation m c (Proc.devRef .tc main_arg2) : Buf (Elt F) ((c.tc : Thread nD τ).loc main_arg2)) = m ((c : Thread nD τ).loc main_arg2) :=
  (Pipeline.withArrays_of_ne spec0 c (HandFrame.V0 m c) (fun w => (HandFrame.dats m 0 c).arrAt w cfg0.N) main_arg2
    (by exact (by decide : ∀ w, Pipeline.arrRef spec0 w ≠ main_arg2))).trans (HandFrame.V_main_arg2 m c)
theorem tailValuation_bias (c : Dev nD) :
    (tailValuation m c (Proc.devRef .tc main_arg5) : Buf (Elt F) ((c.tc : Thread nD τ).loc main_arg5)) = m ((c : Thread nD τ).loc main_arg5) :=
  (Pipeline.withArrays_of_ne spec0 c (HandFrame.V0 m c) (fun w => (HandFrame.dats m 0 c).arrAt w cfg0.N) main_arg5
    (by exact (by decide : ∀ w, Pipeline.arrRef spec0 w ≠ main_arg5))).trans (HandFrame.V_main_arg5 m c)

/-! ## The run, with the result -/

/-- From any memory with zero counters the program runs to the end without fault; its result buffer then holds what the
    later host operations compute from the exit valuation, and all six arguments are as launched (the second and the third,
    which the program also returns, are listed with the result first). The result buffer and the arguments other than the
    left operand bypass the region, so the frame run reads them after the later operations; the left operand is an input
    array of the region, never written back. -/
theorem run_result (ρ : Dev nD → PrngReg) :
    θ_run defs (onTc (τ := τ) (main (F := F))) ⟨m, fun _ => 0, ρ⟩ (fun r => ∀ c : Dev nD,
      r.2.mem ((c.tc : Thread nD τ).loc main_v72) = (StableHlo.after (List.flatten HandFrame.tailOps) (tailValuation m c) (Proc.devRef .tc main_v72) : Buf (Elt F) ((c.tc : Thread nD τ).loc main_v72))
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    have h1 := ((h c).2 main_arg1 (Pipeline.mem_restRefs_of main_arg1 (by decide) (by decide))).trans (HandFrame.W_main_arg1 m (HandFrame.dats m) c)
    have h2 := ((h c).2 main_arg2 (Pipeline.mem_restRefs_of main_arg2 (by decide) (by decide))).trans (HandFrame.W_main_arg2 m (HandFrame.dats m) c)
    ⟨((h c).2 main_v72 (Pipeline.mem_restRefs_of main_v72 (by decide) (by decide))).trans (result_eq m c main_v72),
     h1, h2,
     ((h c).1 0).trans (((HandFrame.dats m 0 c).arrAt_in 0 rfl _).trans ((HandFrame.A_eq m c 0).trans (HandFrame.V_main_arg0 m c))),
     h1, h2,
     ((h c).2 main_arg3 (Pipeline.mem_restRefs_of main_arg3 (by decide) (by decide))).trans (HandFrame.W_main_arg3 m (HandFrame.dats m) c),
     ((h c).2 main_arg4 (Pipeline.mem_restRefs_of main_arg4 (by decide) (by decide))).trans (HandFrame.W_main_arg4 m (HandFrame.dats m) c),
     ((h c).2 main_arg5 (Pipeline.mem_restRefs_of main_arg5 (by decide) (by decide))).trans (HandFrame.W_main_arg5 m (HandFrame.dats m) c)⟩)
    (HandFrame.run_main m ρ)

end Cert.KernelIdeal.Result

end
-- ==== Proof.Spec.lean ====
/-
  The relational graph convolution with mean aggregation, written once as plain formulas over the argument arrays,
  in the two arrangements the two programs compute it in.

  Arrays: node features x (10000 x 256), edge endpoints ei (2 x 160000 words: row 0 the sources, row 1 the
  destinations), edge types et (160000 words), relation weights W (8 x 256 x 256), the root weight (256 x 256) and
  the bias (256). An endpoint word is first normalised the way array indexing does (a word that reads negative has
  the extent added); a gather then reads at the word read signed and clamped into the range, and an accumulating
  scatter adds at the word read signed, dropping a word outside the range. So the in-edges of node i are the edges
  whose normalised destination word reads i.

  * The per-relation arrangement: for each relation r, average over the in-edges of type r the source features,
    (sum of x[src e] over the in-edges of type r) / max(1, their number), and multiply the average by W r; add the
    eight results from left to right, then x i . root, then the bias.
  * The per-edge arrangement: first transform every node by every relation, z n r = x n . W r; each in-edge e
    contributes z (src e) (type e) scaled by 1 / max(1, number of in-edges of its destination with its type); add
    x i . root and the bias.
-/
import Idealize.ShloMosaic.Lib.ValueIdx
import Idealize.ShloMosaic.PureOps.Ideal
import Idealize.ShloMosaic.Lib.IdealHost

noncomputable section

open scoped BigOperators

namespace Cert.Rgcn

open Idealize.ShloMosaic Idealize.ShloMosaic.ValueIdx

abbrev SX : Shape := ⟨2, ![10000, 256]⟩
abbrev SEI : Shape := ⟨2, ![2, 160000]⟩
abbrev SET : Shape := ⟨1, ![160000]⟩
abbrev SW : Shape := ⟨3, ![8, 256, 256]⟩
abbrev SR : Shape := ⟨2, ![256, 256]⟩
abbrev SB : Shape := ⟨1, ![256]⟩

/-- An index word normalised against an extent n: a word that reads negative has n added (with wrap-around). -/
def norm (n w : BitVec 32) : BitVec 32 := Scalar.select (IntOp.cmpi .slt w 0#32) (IntOp.addi w n) w

/-- A word read signed and clamped into [0, n - 1]: where a gather reads. -/
def clampN (n : Nat) (hn : 0 < n) (w : BitVec 32) : Fin n := ⟨min w.toInt.toNat (n - 1), by omega⟩

variable (x : SX.Idx → EReal) (ei : SEI.Idx → BitVec 32) (et : SET.Idx → BitVec 32)
  (W : SW.Idx → EReal) (root : SR.Idx → EReal) (bias : SB.Idx → EReal)

/-- The normalised source, destination and type words of edge e. -/
def srcW (e : Fin 160000) : BitVec 32 := norm 10000#32 (ei (ix2 0 e))
def dstW (e : Fin 160000) : BitVec 32 := norm 10000#32 (ei (ix2 1 e))
def typW (e : Fin 160000) : BitVec 32 := norm 8#32 (et (ix1 e))

/-- The node a gather by the source (destination) word reads, and the relation a gather by the type word reads. -/
def srcN (e : Fin 160000) : Fin 10000 := clampN 10000 (by decide) (srcW ei e)
def dstN (e : Fin 160000) : Fin 10000 := clampN 10000 (by decide) (dstW ei e)
def typN (e : Fin 160000) : Fin 8 := clampN 8 (by decide) (typW et e)

/-- The in-edges of node i: the edges whose normalised destination word, read signed, is i. -/
def inEdges (i : Fin 10000) : Finset (Fin 160000) :=
  Finset.univ.filter fun e => (dstW ei e).toInt = (i.val : Int)

/-- The relation mask of edge e against the relation word r: one when the RAW type word is r, else zero. -/
def mask (r : BitVec 32) (e : Fin 160000) : EReal := (((IntOp.cmpi .eq (et (ix1 e)) r).toNat : ℝ) : EReal)

/-! ## The per-relation arrangement -/

/-- Sum over the in-edges of node i of the masked source features, feature k (accumulated from zero). -/
def relSum (r : BitVec 32) (i : Fin 10000) (k : Fin 256) : EReal :=
  0 + ∑ e ∈ inEdges ei i, x (ix2 (srcN ei e) k) * mask et r e

/-- Number of in-edges of node i of relation r, as a sum of masks (accumulated from zero). -/
def relCount (r : BitVec 32) (i : Fin 10000) : EReal := 0 + ∑ e ∈ inEdges ei i, mask et r e

/-- Relation r's contribution at (i, d): the mean source feature vector times W r. -/
def relTerm (r : Fin 8) (i : Fin 10000) (d : Fin 256) : EReal :=
  ∑ k : Fin 256, Ideal.div (relSum x ei et (BitVec.ofNat 32 r.val) i k) (max 1 (relCount ei et (BitVec.ofNat 32 r.val) i))
    * W (ix3 r k d)

/-- The root term at (i, d). -/
def rootTerm (i : Fin 10000) (d : Fin 256) : EReal := ∑ k : Fin 256, x (ix2 i k) * root (ix2 k d)

/-- The result in the per-relation arrangement, the additions in the order the program makes them. -/
def perRelation (i : Fin 10000) (d : Fin 256) : EReal :=
  ((((((((0 + relTerm x ei et W 0 i d) + relTerm x ei et W 1 i d) + relTerm x ei et W 2 i d) + relTerm x ei et W 3 i d)
    + relTerm x ei et W 4 i d) + relTerm x ei et W 5 i d) + relTerm x ei et W 6 i d) + relTerm x ei et W 7 i d)
    + rootTerm x root i d + bias (ix1 d)

/-! ## The per-edge arrangement -/

/-- Node n transformed by relation r, coordinate d. -/
def transformed (n : Fin 10000) (r : Fin 8) (d : Fin 256) : EReal := ∑ k : Fin 256, x (ix2 n k) * W (ix3 r k d)

/-- Number of edges whose normalised destination word reads n and whose normalised type word reads r (accumulated
    from zero, one per edge). -/
def pairCount (n : Fin 10000) (r : Fin 8) : EReal :=
  0 + ∑ _e ∈ Finset.univ.filter (fun e : Fin 160000 =>
      (dstW ei e).toInt = (n.val : Int) ∧ (typW et e).toInt = (r.val : Int)), (1 : EReal)

/-- The scale of the pair (n, r): one over the count clipped below at one. -/
def pairScale (n : Fin 10000) (r : Fin 8) : EReal := Ideal.div 1 (max 1 (pairCount ei et n r))

/-- The result in the per-edge arrangement. -/
def perEdge (i : Fin 10000) (d : Fin 256) : EReal :=
  (0 + ∑ e ∈ inEdges ei i, transformed x W (srcN ei e) (typN et e) d * pairScale ei et (dstN ei e) (typN et e))
    + rootTerm x root i d + bias (ix1 d)

end Cert.Rgcn

end
-- ==== Proof.KernelLayout.lean ====
/-
  The index arithmetic of the host operations after the matrix product, one layout operation at a time, read at an
  index: the normalised index words, a vector laid as a column, two columns side by side read at either column, the
  wide product array cut into its per-relation part (node, relation, coordinate) and its root part, and the
  broadcasts of a per-edge scalar and of the bias.
-/
import proofs.«139433_g6408091205734_cont_9to1_m_209_2_alg».proof.Proof.Gen.KernelIdeal
import proofs.«139433_g6408091205734_cont_9to1_m_209_2_alg».proof.Proof.Spec
import Idealize.ShloMosaic.Lib.Pipeline.Value
import Idealize.ShloMosaic.Lib.ValueIdx
import Idealize.ShloMosaic.Lib.ValueLayout
import Idealize.ShloMosaic.Lib.IdealHost

noncomputable section

namespace Cert.KernelIdeal.Layout

open Cert.KernelIdeal Idealize.ShloMosaic Idealize.ShloMosaic.ValueIdx
open Cert.KernelIdeal.Facts₀

variable {α : Type}

/-- The normalisation of an index word, as the three elementwise operations compute it. -/
theorem norm_apply (w : IVec S160000 32) (n : BitVec 32) (e : Fin 160000) :
    select (cmpi .slt w (broadcastInDim S160000 ![] bcast_S_S160000 (constantI S_ 32 0#32)))
      (addi w (broadcastInDim S160000 ![] bcast_S_S160000 (constantI S_ 32 n))) w (ix1 e)
      = Cert.Rgcn.norm n (w (ix1 e)) := rfl

/-- A vector laid as a column, read at row e. -/
theorem column_apply (v : S160000.Idx → α) (e : Fin 160000) :
    broadcastInDim S160000x1 ![0] bcast_S160000_S160000x1_0 v (ix2 e 0) = v (ix1 e) := by
  refine broadcastInDim_apply _ _ v (ix2 e 0) (ix1 e) fun a => ?_
  match a with
  | ⟨0, _⟩ => show e.val = if (160000 : Nat) = 1 then 0 else e.val; rw [if_neg (by decide)]

/-- Two columns side by side, read at the first column: the first. -/
theorem pair_apply_fst (A B : S160000x1.Idx → α) (e : Fin 160000) :
    concatenate S160000x2 1 [⟨S160000x1, A⟩, ⟨S160000x1, B⟩] concatenates_S160000x1_S160000x1_S160000x2_d1 (ix2 e 0)
      = A (ix2 e 0) := by
  refine concatenate_apply_piece (t := S160000x2) (1 : Fin 2) [⟨S160000x1, A⟩, ⟨S160000x1, B⟩] _ (ix2 e (0 : Fin 2)) 0 (Nat.zero_lt_succ _) S160000x1 A rfl rfl 0 rfl (ix2 e (0 : Fin 1)) ?_ (by show 0 + 0 = 0; rfl)
  intro b hb
  match b with
  | ⟨0, _⟩ => rfl
  | ⟨1, _⟩ => exact absurd rfl hb

/-- Two columns side by side, read at the second column: the second. -/
theorem pair_apply_snd (A B : S160000x1.Idx → α) (e : Fin 160000) :
    concatenate S160000x2 1 [⟨S160000x1, A⟩, ⟨S160000x1, B⟩] concatenates_S160000x1_S160000x1_S160000x2_d1 (ix2 e 1)
      = B (ix2 e 0) := by
  refine concatenate_apply_piece (t := S160000x2) (1 : Fin 2) [⟨S160000x1, A⟩, ⟨S160000x1, B⟩] _ (ix2 e (1 : Fin 2)) 1 (Nat.succ_lt_succ (Nat.zero_lt_succ _)) S160000x1 B rfl rfl 1 rfl (ix2 e (0 : Fin 1)) ?_ (by show 1 + 0 = 1; rfl)
  intro b hb
  match b with
  | ⟨0, _⟩ => rfl
  | ⟨1, _⟩ => exact absurd rfl hb

/-- The per-relation part of the wide product: entry (n, r, d) is column r * 256 + d of row n. -/
theorem relationPart_apply (z : S10000x2304.Idx → α) (n : Fin 10000) (r : Fin 8) (d : Fin 256) :
    shapeCast S10000x8x256 (extractStridedSlice S10000x2048 ![0, 0] z slices_S10000x2304_S10000x2048_0_0)
      shapeCasts_S10000x2048_S10000x8x256 (ix3 n r d)
      = z (ix2 n ⟨r.val * 256 + d.val, by have := r.isLt; have := d.isLt; omega⟩) := by
  have hlt : r.val * 256 + d.val < 2048 := by have := r.isLt; have := d.isLt; omega
  rw [shapeCast_apply _ _ (ix3 n r d) (ix2 n ⟨r.val * 256 + d.val, hlt⟩) ?_]
  · refine extractStridedSlice_apply _ z _ _ _ fun a => ?_
    match a with
    | ⟨0, _⟩ => show n.val = 0 + n.val; omega
    | ⟨1, _⟩ => show r.val * 256 + d.val = 0 + (r.val * 256 + d.val); omega
  · rw [Shape.rowMajor_val_two, Shape.rowMajor_val_three]
    show n.val * 2048 + (r.val * 256 + d.val) = (n.val * 8 + r.val) * 256 + d.val
    ring

/-- The root part of the wide product: entry (i, d) is column 2048 + d of row i. -/
theorem rootPart_apply (z : S10000x2304.Idx → α) (i : Fin 10000) (d : Fin 256) :
    extractStridedSlice S10000x256 ![0, 2048] z slices_S10000x2304_S10000x256_0_2048 (ix2 i d)
      = z (ix2 i ⟨2048 + d.val, by have := d.isLt; omega⟩) := by
  refine extractStridedSlice_apply _ z _ _ _ fun a => ?_
  match a with
  | ⟨0, _⟩ => show i.val = 0 + i.val; omega
  | ⟨1, _⟩ => rfl

/-- A per-edge scalar spread along the feature axis, read at (e, d). -/
theorem edgeRows_apply (v : S160000.Idx → α) (e : Fin 160000) (d : Fin 256) :
    broadcastInDim S160000x256 ![0, 1] bcast_S160000x1_S160000x256_0_1
      (broadcastInDim S160000x1 ![0] bcast_S160000_S160000x1_0 v) (ix2 e d) = v (ix1 e) := by
  rw [broadcastInDim_apply _ _ _ (ix2 e d) (ix2 e 0) fun a => ?_]
  · exact column_apply v e
  · match a with
    | ⟨0, _⟩ => show e.val = if (160000 : Nat) = 1 then 0 else e.val; rw [if_neg (by decide)]
    | ⟨1, _⟩ => show 0 = if (1 : Nat) = 1 then 0 else d.val; rw [if_pos rfl]

/-- The bias spread over the nodes, read at (i, d). -/
theorem biasRows_apply (b : S256.Idx → α) (i : Fin 10000) (d : Fin 256) :
    broadcastInDim S10000x256 ![0, 1] bcast_S1x256_S10000x256_0_1
      (broadcastInDim S1x256 ![1] bcast_S256_S1x256_1 b) (ix2 i d) = b (ix1 d) := by
  rw [broadcastInDim_apply _ _ _ (ix2 i d) (ix2 (0 : Fin 1) d) fun a => ?_]
  · refine broadcastInDim_apply _ _ b _ (ix1 d) fun a => ?_
    match a with
    | ⟨0, _⟩ => show d.val = if (256 : Nat) = 1 then 0 else d.val; rw [if_neg (by decide)]
  · match a with
    | ⟨0, _⟩ => show 0 = if (1 : Nat) = 1 then 0 else i.val; rw [if_pos rfl]
    | ⟨1, _⟩ => show d.val = if (256 : Nat) = 1 then 0 else d.val; rw [if_neg (by decide)]

end Cert.KernelIdeal.Layout

end
-- ==== Proof.LibGatherScatter.lean ====
import Idealize.ShloMosaic.Lib.ValueIdx
import Idealize.ShloMosaic.PureOps.Ideal
import Idealize.ShloMosaic.PureOps.Ideal.Laws
import Idealize.ShloMosaic.PureOps.Contract

/-!
# A gather and an accumulating scatter along the first axis, read at an index

The operand is an array over nodes (rank 1, or rank 2 with a feature axis); the index array has one 32-bit word per
edge, shaped (edges, 1).

* A gather reads, for edge e, the operand at the word read signed and clamped into the node range
  (and, for a rank-2 operand, at the same feature coordinate).
* An accumulating scatter adds, at node n, every update whose word read signed equals n (and, for rank 2, whose
  feature coordinate is the same); a word outside the node range is dropped.
-/

noncomputable section

open scoped BigOperators

namespace Cert.LibGS

open Idealize.ShloMosaic Idealize.ShloMosaic.ValueIdx

/-! ## Gathers -/

section Gather
variable {α : Type}

/-- Dimension numbers of a gather of a rank-1 operand of extent N by E one-word start indices. -/
abbrev gDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The rank-1 gather at edge e: the operand at the word of e, read signed and clamped into [0, N - 1]. -/
theorem gather1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gDims1 N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (gDims1 N E wf).start (ix1 e) idx 0 + (gDims1 N E wf).batchCoord (ix1 e) 0
    + (gDims1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gDims1 N E wf).startIndexMap from List.mem_singleton.mpr rfl)]
  have hsi : (gDims1 N E wf).siIdx (ix1 e) ⟨List.idxOf (0 : Fin 1) (gDims1 N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Dimension numbers of a gather of rows of a rank-2 operand (N rows of K) by E one-word start indices. -/
abbrev gDims2 (N K E : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- The row gather at (e, j): the operand at (the word of e read signed and clamped into [0, N - 1], j). -/
theorem gather2_apply {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (j : Fin K) :
    Host.gather (gDims2 N K E wf) x idx (ix2 e j)
      = x (ix2 ⟨min (idx (ix2 e 0)).toInt.toNat (N - 1), by omega⟩ j) := by
  unfold Host.gather
  congr 1
  funext a
  refine Fin.ext ?_
  show (gDims2 N K E wf).start (ix2 e j) idx a + (gDims2 N K E wf).batchCoord (ix2 e j) a
    + (gDims2 N K E wf).offCoord (ix2 e j) a = _
  rw [GatherDims.batchCoord_eq_zero _ _ _ List.not_mem_nil]
  have ha : a = (0 : Fin 2) ∨ a = (1 : Fin 2) := by
    rcases a with ⟨v, hv⟩
    have hv2 : v < 2 := hv
    interval_cases v
    · exact Or.inl rfl
    · exact Or.inr rfl
  rcases ha with rfl | rfl
  · rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (gDims2 N K E wf).startIndexMap from List.mem_singleton.mpr rfl)]
    have hsi : (gDims2 N K E wf).siIdx (ix2 e j) ⟨List.idxOf (0 : Fin 2) (gDims2 N K E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have h1 : (1 : Fin 2) ∉ (gDims2 N K E wf).startIndexMap := by
      show (1 : Fin 2) ∉ [(0 : Fin 2)]
      decide
    have h2 : (1 : Fin 2) ∈ (gDims2 N K E wf).sKept := by
      refine (GatherDims.mem_sKept _ _).mpr ⟨?_, List.not_mem_nil⟩
      show (1 : Fin 2) ∉ [(0 : Fin 2)]
      decide
    unfold GatherDims.start
    rw [dif_neg h1]
    unfold GatherDims.offCoord
    rw [dif_pos h2]
    simp only [Nat.zero_add]
    rfl

end Gather

/-! ## Accumulating scatters -/

section Scatter

/-- Dimension numbers of a scatter into a rank-1 operand of extent N of E updates at one-word indices. -/
abbrev sDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update e lands on node n exactly when its word, read signed, is n. -/
theorem resultIdx1_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (sDims1 N E wf).resultIdx? (ix1 e) idx = some (ix1 n) ↔ (idx (ix2 e 0)).toInt = (n.val : Int) := by
  have hstart : ∀ a, (sDims1 N E wf).start (ix1 e) idx a = (idx (ix2 e 0)).toInt := by
    intro a
    obtain rfl : a = 0 := Subsingleton.elim _ _
    unfold ScatterDims.start
    rw [dif_pos (show (0 : Fin 1) ∈ (sDims1 N E wf).scatterDimsToOperandDims from List.mem_singleton.mpr rfl)]
    have hsi : (sDims1 N E wf).siIdx (ix1 e) ⟨List.idxOf (0 : Fin 1) (sDims1 N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hwin : ∀ a, (sDims1 N E wf).window (ix1 e) a = 0 := by
    intro a
    obtain rfl : a = 0 := Subsingleton.elim _ _
    unfold ScatterDims.window
    rw [dif_neg (by simp [ScatterDims.sKept, Shape.kept])]
  unfold ScatterDims.resultIdx?
  split
  · rename_i h
    rw [Option.some.injEq]
    constructor
    · intro hf
      have h0 := congrArg (fun f => ((f 0 : Fin N) : Nat)) hf
      have hb := h 0
      simp only [hstart, hwin] at h0 hb
      simp only [Nat.cast_zero, add_zero] at h0 hb
      have : ((idx (ix2 e 0)).toInt.toNat : Int) = (n.val : Int) := by exact_mod_cast h0
      omega
    · intro hv
      funext a
      obtain rfl : a = 0 := Subsingleton.elim _ _
      refine Fin.ext ?_
      show ((sDims1 N E wf).start (ix1 e) idx 0 + ((sDims1 N E wf).window (ix1 e) 0 : Nat)).toNat = n.val
      rw [hstart, hwin, hv]; simp
  · rename_i h
    constructor
    · intro hf; exact absurd hf (by simp)
    · intro hv
      exfalso; apply h
      intro a
      rw [hstart, hwin, hv]
      obtain rfl : a = 0 := Subsingleton.elim _ _
      have := n.isLt
      constructor
      · simp
      · show ((n.val : Int) + ((0 : Nat) : Int)) < ((N : Nat) : Int)
        omega

/-- The rank-1 accumulating scatter at node n: the operand there plus the updates whose word is n. -/
theorem scatterAdd1_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) (p : Fin E → Prop) [DecidablePred p]
    (hp : ∀ e, p e ↔ (idx (ix2 e 0)).toInt = (n.val : Int)) :
    Ideal.hostScatterAdd (sDims1 N E wf) x idx upd (ix1 n)
      = x (ix1 n) + ∑ e ∈ Finset.univ.filter p, upd (ix1 e) := by
  unfold Ideal.hostScatterAdd
  congr 1
  refine Finset.sum_nbij' (fun j => j 0) (fun e => ix1 e) ?_ ?_ ?_ ?_ ?_
  · intro j hj
    have := (Finset.mem_filter.mp hj).2
    rw [eq_ix1 j] at this
    exact Finset.mem_filter.mpr ⟨Finset.mem_univ _, (hp _).mpr ((resultIdx1_iff wf idx _ n).mp this)⟩
  · intro e he
    exact Finset.mem_filter.mpr ⟨Finset.mem_univ _,
      (resultIdx1_iff wf idx e n).mpr ((hp e).mp (Finset.mem_filter.mp he).2)⟩
  · intro j _; exact (eq_ix1 j).symm
  · intro e _; rfl
  · intro j _; exact congrArg upd (eq_ix1 j)

/-- An axis of a rank-2 array is the first or the second. -/
theorem fin2_cases (a : Fin 2) : a = 0 ∨ a = 1 := by
  rcases a with ⟨v, hv⟩
  interval_cases v
  · exact Or.inl rfl
  · exact Or.inr rfl

/-- Dimension numbers of a scatter of E rows of K into a rank-2 operand (N rows of K) at one-word indices. -/
abbrev sDims2 (N K E : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- Update (e, j') lands on (n, j) exactly when the word of e, read signed, is n and j' = j. -/
theorem resultIdx2_iff {N K E w : Nat} (wf : ScatterDims.WF ⟨2, ![N, K]⟩ ⟨2, ![E, 1]⟩ ⟨2, ![E, K]⟩ [1] [0] [0] 1)
    (idx : IVec ⟨2, ![E, 1]⟩ w) (e : Fin E) (j' : Fin K) (n : Fin N) (j : Fin K) :
    (sDims2 N K E wf).resultIdx? (ix2 e j') idx = some (ix2 n j)
      ↔ (idx (ix2 e 0)).toInt = (n.val : Int) ∧ j' = j := by
  have hstart0 : (sDims2 N K E wf).start (ix2 e j') idx (0 : Fin 2) = (idx (ix2 e 0)).toInt := by
    unfold ScatterDims.start
    rw [dif_pos (show (0 : Fin 2) ∈ (sDims2 N K E wf).scatterDimsToOperandDims from List.mem_singleton.mpr rfl)]
    have hsi : (sDims2 N K E wf).siIdx (ix2 e j') ⟨List.idxOf (0 : Fin 2) (sDims2 N K E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hstart1 : (sDims2 N K E wf).start (ix2 e j') idx (1 : Fin 2) = 0 := by
    unfold ScatterDims.start
    rw [dif_neg (show (1 : Fin 2) ∉ [(0 : Fin 2)] by decide)]
  have hwin0 : (sDims2 N K E wf).window (ix2 e j') (0 : Fin 2) = 0 := by
    unfold ScatterDims.window
    rw [dif_neg (by simp [ScatterDims.sKept, Shape.kept])]
  have hwin1 : (sDims2 N K E wf).window (ix2 e j') (1 : Fin 2) = j'.val := by
    unfold ScatterDims.window
    rw [dif_pos (by simp [ScatterDims.sKept, Shape.kept, List.finRange])]
    rfl
  unfold ScatterDims.resultIdx?
  split
  · rename_i h
    rw [Option.some.injEq]
    constructor
    · intro hf
      have h0 := congrArg (fun f => ((f (0 : Fin 2) : Fin N) : Nat)) hf
      have h1 := congrArg (fun f => ((f (1 : Fin 2) : Fin K) : Nat)) hf
      have hb := h (0 : Fin 2)
      simp only [hstart0, hwin0, hstart1, hwin1] at h0 h1 hb
      simp only [Nat.cast_zero, add_zero, zero_add, Int.toNat_natCast] at h0 h1 hb
      refine ⟨?_, Fin.ext h1⟩
      have : ((idx (ix2 e 0)).toInt.toNat : Int) = (n.val : Int) := by exact_mod_cast h0
      omega
    · rintro ⟨hv, rfl⟩
      funext a
      refine Fin.ext ?_
      rcases fin2_cases a with rfl | rfl
      · show ((sDims2 N K E wf).start (ix2 e j') idx 0 + ((sDims2 N K E wf).window (ix2 e j') 0 : Nat)).toNat = n.val
        rw [hstart0, hwin0, hv]; simp
      · show ((sDims2 N K E wf).start (ix2 e j') idx 1 + ((sDims2 N K E wf).window (ix2 e j') 1 : Nat)).toNat = j'.val
        rw [hstart1, hwin1]; simp
  · rename_i h
    constructor
    · intro hf; exact absurd hf (by simp)
    · rintro ⟨hv, rfl⟩
      exfalso; apply h
      intro a
      rcases fin2_cases a with rfl | rfl
      · rw [hstart0, hwin0, hv]
        have := n.isLt
        constructor
        · simp
        · show ((n.val : Int) + ((0 : Nat) : Int)) < ((N : Nat) : Int)
          omega
      · rw [hstart1, hwin1]
        have := j'.isLt
        constructor
        · simp
        · show ((0 : Int) + ((j'.val : Nat) : Int)) < ((K : Nat) : Int)
          omega

/-- The row accumulating scatter at (n, j): the operand there plus the updates (e, j) whose word is n. -/
theorem scatterAdd2_apply {N K E w : Nat}
    (wf : ScatterDims.WF ⟨2, ![N, K]⟩ ⟨2, ![E, 1]⟩ ⟨2, ![E, K]⟩ [1] [0] [0] 1)
    (x : (⟨2, ![N, K]⟩ : Shape).Idx → EReal) (idx : IVec ⟨2, ![E, 1]⟩ w)
    (upd : (⟨2, ![E, K]⟩ : Shape).Idx → EReal) (n : Fin N) (j : Fin K) (p : Fin E → Prop) [DecidablePred p]
    (hp : ∀ e, p e ↔ (idx (ix2 e 0)).toInt = (n.val : Int)) :
    Ideal.hostScatterAdd (sDims2 N K E wf) x idx upd (ix2 n j)
      = x (ix2 n j) + ∑ e ∈ Finset.univ.filter p, upd (ix2 e j) := by
  unfold Ideal.hostScatterAdd
  congr 1
  have key : ∀ u : (⟨2, ![E, K]⟩ : Shape).Idx, (sDims2 N K E wf).resultIdx? u idx = some (ix2 n j) →
      p (u 0) ∧ u = ix2 (u 0) j := by
    intro u hu
    rw [eq_ix2 u] at hu
    have := (resultIdx2_iff wf idx _ _ n j).mp hu
    refine ⟨(hp _).mpr this.1, ?_⟩
    have h2 := eq_ix2 u
    rw [this.2] at h2
    exact h2
  refine Finset.sum_nbij' (fun u => u 0) (fun e => ix2 e j) ?_ ?_ ?_ ?_ ?_
  · intro u hu
    exact Finset.mem_filter.mpr ⟨Finset.mem_univ _, (key u (Finset.mem_filter.mp hu).2).1⟩
  · intro e he
    exact Finset.mem_filter.mpr ⟨Finset.mem_univ _,
      (resultIdx2_iff wf idx e j n j).mpr ⟨(hp e).mp (Finset.mem_filter.mp he).2, rfl⟩⟩
  · intro u hu; exact (key u (Finset.mem_filter.mp hu).2).2.symm
  · intro e _; rfl
  · intro u hu; exact congrArg upd (key u (Finset.mem_filter.mp hu).2).2

end Scatter

end Cert.LibGS

end
-- ==== Proof.LibPairGatherScatter.lean ====
import Idealize.ShloMosaic.Lib.ValueIdx
import Idealize.ShloMosaic.PureOps.Ideal
import Idealize.ShloMosaic.PureOps.Ideal.Laws
import Idealize.ShloMosaic.PureOps.Contract

/-!
# A gather and an accumulating scatter by PAIRS of index words, read at an index

The index array has two 32-bit words per edge, shaped (edges, 2): the first addresses the first axis of the operand
(nodes), the second its second axis (relations).

* A gather of an (N, R, K) operand reads, for edge e and feature j, the operand at (first word, second word, j), each
  word read signed and clamped into its axis' range; of an (N, R) operand it reads at the two clamped words.
* An accumulating scatter into an (N, R) operand of one update per edge adds, at (n, r), every update whose first word
  read signed is n and whose second word read signed is r; a pair outside the range is dropped.
-/

noncomputable section

open scoped BigOperators

namespace Cert.LibPair

open Idealize.ShloMosaic Idealize.ShloMosaic.ValueIdx

/-- An axis of a rank-2 array is the first or the second. -/
theorem fin2_cases (a : Fin 2) : a = 0 ∨ a = 1 := by
  rcases a with ⟨v, hv⟩
  interval_cases v
  · exact Or.inl rfl
  · exact Or.inr rfl

/-- An axis of a rank-3 array is the first, the second or the third. -/
theorem fin3_cases (a : Fin 3) : a = 0 ∨ a = 1 ∨ a = 2 := by
  rcases a with ⟨v, hv⟩
  interval_cases v
  · exact Or.inl rfl
  · exact Or.inr (Or.inl rfl)
  · exact Or.inr (Or.inr rfl)

/-! ## Gathers -/

section Gather
variable {α : Type}

/-- Dimension numbers of a gather of feature rows of an (N, R, K) operand by E pairs of start words. -/
abbrev gDims3 (N R K E : Nat)
    (wf : GatherDims.WF ⟨3, ![N, R, K]⟩ ⟨2, ![E, 2]⟩ ⟨2, ![E, K]⟩ [1] [0, 1] [] [0, 1] [] 1 ![1, 1, K]) :
    GatherDims ⟨3, ![N, R, K]⟩ ⟨2, ![E, 2]⟩ ⟨2, ![E, K]⟩ where
  offsetDims := [1]
  collapsedSliceDims := [0, 1]
  operandBatchingDims := []
  startIndicesBatchingDims := []
  startIndexMap := [0, 1]
  indexVectorDim := 1
  sliceSizes := ![1, 1, K]
  wf := wf

/-- The pair gather of rows at (e, j): the operand at (first word clamped, second word clamped, j). -/
theorem gather3_apply {N R K E w : Nat} (hN : 0 < N) (hR : 0 < R)
    (wf : GatherDims.WF ⟨3, ![N, R, K]⟩ ⟨2, ![E, 2]⟩ ⟨2, ![E, K]⟩ [1] [0, 1] [] [0, 1] [] 1 ![1, 1, K])
    (x : (⟨3, ![N, R, K]⟩ : Shape).Idx → α) (idx : IVec ⟨2, ![E, 2]⟩ w) (e : Fin E) (j : Fin K) :
    Host.gather (gDims3 N R K E wf) x idx (ix2 e j)
      = x (ix3 ⟨min (idx (ix2 e 0)).toInt.toNat (N - 1), by omega⟩
               ⟨min (idx (ix2 e 1)).toInt.toNat (R - 1), by omega⟩ j) := by
  unfold Host.gather
  congr 1
  funext a
  refine Fin.ext ?_
  show (gDims3 N R K E wf).start (ix2 e j) idx a + (gDims3 N R K E wf).batchCoord (ix2 e j) a
    + (gDims3 N R K E wf).offCoord (ix2 e j) a = _
  rw [GatherDims.batchCoord_eq_zero _ _ _ List.not_mem_nil]
  rcases fin3_cases a with rfl | rfl | rfl
  · rw [GatherDims.offCoord_eq_zero _ _ _
      (fun h => ((GatherDims.mem_sKept _ _).mp h).1 (by show (0 : Fin 3) ∈ [(0 : Fin 3), 1]; decide))]
    simp only [Nat.add_zero]
    unfold GatherDims.start
    rw [dif_pos (show (0 : Fin 3) ∈ (gDims3 N R K E wf).startIndexMap from by show (0 : Fin 3) ∈ [(0 : Fin 3), 1]; decide)]
    have hsi : (gDims3 N R K E wf).siIdx (ix2 e j) ⟨List.idxOf (0 : Fin 3) (gDims3 N R K E wf).startIndexMap,
        List.idxOf_lt_length_iff.2 (by show (0 : Fin 3) ∈ [(0 : Fin 3), 1]; decide)⟩ = ix2 e 0 := by
      funext b; refine Fin.ext ?_
      match b with
      | ⟨0, _⟩ => rfl
      | ⟨1, _⟩ => rfl
    rw [hsi]
    rfl
  · rw [GatherDims.offCoord_eq_zero _ _ _
      (fun h => ((GatherDims.mem_sKept _ _).mp h).1 (by show (1 : Fin 3) ∈ [(0 : Fin 3), 1]; decide))]
    simp only [Nat.add_zero]
    unfold GatherDims.start
    rw [dif_pos (show (1 : Fin 3) ∈ (gDims3 N R K E wf).startIndexMap from by show (1 : Fin 3) ∈ [(0 : Fin 3), 1]; decide)]
    have hsi : (gDims3 N R K E wf).siIdx (ix2 e j) ⟨List.idxOf (1 : Fin 3) (gDims3 N R K E wf).startIndexMap,
        List.idxOf_lt_length_iff.2 (by show (1 : Fin 3) ∈ [(0 : Fin 3), 1]; decide)⟩ = ix2 e 1 := by
      funext b; refine Fin.ext ?_
      match b with
      | ⟨0, _⟩ => rfl
      | ⟨1, _⟩ => rfl
    rw [hsi]
    rfl
  · have h1 : (2 : Fin 3) ∉ (gDims3 N R K E wf).startIndexMap := by
      show (2 : Fin 3) ∉ [(0 : Fin 3), 1]
      decide
    have h2 : (2 : Fin 3) ∈ (gDims3 N R K E wf).sKept := by
      refine (GatherDims.mem_sKept _ _).mpr ⟨?_, List.not_mem_nil⟩
      show (2 : Fin 3) ∉ [(0 : Fin 3), 1]
      decide
    unfold GatherDims.start
    rw [dif_neg h1]
    unfold GatherDims.offCoord
    rw [dif_pos h2]
    simp only [Nat.zero_add]
    rfl

/-- Dimension numbers of a gather of single elements of an (N, R) operand by E pairs of start words. -/
abbrev gDims2 (N R E : Nat)
    (wf : GatherDims.WF ⟨2, ![N, R]⟩ ⟨2, ![E, 2]⟩ ⟨1, ![E]⟩ [] [0, 1] [] [0, 1] [] 1 ![1, 1]) :
    GatherDims ⟨2, ![N, R]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- The pair gather of elements at e: the operand at (first word clamped, second word clamped). -/
theorem gather2_apply {N R E w : Nat} (hN : 0 < N) (hR : 0 < R)
    (wf : GatherDims.WF ⟨2, ![N, R]⟩ ⟨2, ![E, 2]⟩ ⟨1, ![E]⟩ [] [0, 1] [] [0, 1] [] 1 ![1, 1])
    (x : (⟨2, ![N, R]⟩ : Shape).Idx → α) (idx : IVec ⟨2, ![E, 2]⟩ w) (e : Fin E) :
    Host.gather (gDims2 N R E wf) x idx (ix1 e)
      = x (ix2 ⟨min (idx (ix2 e 0)).toInt.toNat (N - 1), by omega⟩
               ⟨min (idx (ix2 e 1)).toInt.toNat (R - 1), by omega⟩) := by
  unfold Host.gather
  congr 1
  funext a
  refine Fin.ext ?_
  show (gDims2 N R E wf).start (ix1 e) idx a + (gDims2 N R E wf).batchCoord (ix1 e) a
    + (gDims2 N R E wf).offCoord (ix1 e) a = _
  rw [GatherDims.batchCoord_eq_zero _ _ _ List.not_mem_nil]
  rcases fin2_cases a with rfl | rfl
  · rw [GatherDims.offCoord_eq_zero _ _ _
      (fun h => ((GatherDims.mem_sKept _ _).mp h).1 (by show (0 : Fin 2) ∈ [(0 : Fin 2), 1]; decide))]
    simp only [Nat.add_zero]
    unfold GatherDims.start
    rw [dif_pos (show (0 : Fin 2) ∈ (gDims2 N R E wf).startIndexMap from by show (0 : Fin 2) ∈ [(0 : Fin 2), 1]; decide)]
    have hsi : (gDims2 N R E wf).siIdx (ix1 e) ⟨List.idxOf (0 : Fin 2) (gDims2 N R E wf).startIndexMap,
        List.idxOf_lt_length_iff.2 (by show (0 : Fin 2) ∈ [(0 : Fin 2), 1]; decide)⟩ = ix2 e 0 := by
      funext b; refine Fin.ext ?_
      match b with
      | ⟨0, _⟩ => rfl
      | ⟨1, _⟩ => rfl
    rw [hsi]
    rfl
  · rw [GatherDims.offCoord_eq_zero _ _ _
      (fun h => ((GatherDims.mem_sKept _ _).mp h).1 (by show (1 : Fin 2) ∈ [(0 : Fin 2), 1]; decide))]
    simp only [Nat.add_zero]
    unfold GatherDims.start
    rw [dif_pos (show (1 : Fin 2) ∈ (gDims2 N R E wf).startIndexMap from by show (1 : Fin 2) ∈ [(0 : Fin 2), 1]; decide)]
    have hsi : (gDims2 N R E wf).siIdx (ix1 e) ⟨List.idxOf (1 : Fin 2) (gDims2 N R E wf).startIndexMap,
        List.idxOf_lt_length_iff.2 (by show (1 : Fin 2) ∈ [(0 : Fin 2), 1]; decide)⟩ = ix2 e 1 := by
      funext b; refine Fin.ext ?_
      match b with
      | ⟨0, _⟩ => rfl
      | ⟨1, _⟩ => rfl
    rw [hsi]
    rfl

end Gather

/-! ## The accumulating scatter -/

section Scatter

/-- Dimension numbers of a scatter into an (N, R) operand of E single updates at pairs of index words. -/
abbrev sDims2 (N R E : Nat) (wf : ScatterDims.WF ⟨2, ![N, R]⟩ ⟨2, ![E, 2]⟩ ⟨1, ![E]⟩ [] [0, 1] [0, 1] 1) :
    ScatterDims ⟨2, ![N, R]⟩ ⟨2, ![E, 2]⟩ ⟨1, ![E]⟩ where
  updateWindowDims := []
  insertedWindowDims := [0, 1]
  scatterDimsToOperandDims := [0, 1]
  indexVectorDim := 1
  wf := wf

/-- Update e lands on (n, r) exactly when its first word read signed is n and its second is r. -/
theorem resultIdx_iff {N R E w : Nat} (wf : ScatterDims.WF ⟨2, ![N, R]⟩ ⟨2, ![E, 2]⟩ ⟨1, ![E]⟩ [] [0, 1] [0, 1] 1)
    (idx : IVec ⟨2, ![E, 2]⟩ w) (e : Fin E) (n : Fin N) (r : Fin R) :
    (sDims2 N R E wf).resultIdx? (ix1 e) idx = some (ix2 n r)
      ↔ (idx (ix2 e 0)).toInt = (n.val : Int) ∧ (idx (ix2 e 1)).toInt = (r.val : Int) := by
  have hstart0 : (sDims2 N R E wf).start (ix1 e) idx (0 : Fin 2) = (idx (ix2 e 0)).toInt := by
    unfold ScatterDims.start
    rw [dif_pos (show (0 : Fin 2) ∈ (sDims2 N R E wf).scatterDimsToOperandDims from by show (0 : Fin 2) ∈ [(0 : Fin 2), 1]; decide)]
    have hsi : (sDims2 N R E wf).siIdx (ix1 e) ⟨List.idxOf (0 : Fin 2) (sDims2 N R E wf).scatterDimsToOperandDims,
        List.idxOf_lt_length_iff.2 (by show (0 : Fin 2) ∈ [(0 : Fin 2), 1]; decide)⟩ = ix2 e 0 := by
      funext b; refine Fin.ext ?_
      match b with
      | ⟨0, _⟩ => rfl
      | ⟨1, _⟩ => rfl
    rw [hsi]
  have hstart1 : (sDims2 N R E wf).start (ix1 e) idx (1 : Fin 2) = (idx (ix2 e 1)).toInt := by
    unfold ScatterDims.start
    rw [dif_pos (show (1 : Fin 2) ∈ (sDims2 N R E wf).scatterDimsToOperandDims from by show (1 : Fin 2) ∈ [(0 : Fin 2), 1]; decide)]
    have hsi : (sDims2 N R E wf).siIdx (ix1 e) ⟨List.idxOf (1 : Fin 2) (sDims2 N R E wf).scatterDimsToOperandDims,
        List.idxOf_lt_length_iff.2 (by show (1 : Fin 2) ∈ [(0 : Fin 2), 1]; decide)⟩ = ix2 e 1 := by
      funext b; refine Fin.ext ?_
      match b with
      | ⟨0, _⟩ => rfl
      | ⟨1, _⟩ => rfl
    rw [hsi]
  have hwin : ∀ a, (sDims2 N R E wf).window (ix1 e) a = 0 := by
    intro a
    unfold ScatterDims.window
    rw [dif_neg]
    rcases fin2_cases a with rfl | rfl <;> simp [ScatterDims.sKept, Shape.kept]
  unfold ScatterDims.resultIdx?
  split
  · rename_i h
    rw [Option.some.injEq]
    constructor
    · intro hf
      have h0 := congrArg (fun f => ((f (0 : Fin 2) : Fin N) : Nat)) hf
      have h1 := congrArg (fun f => ((f (1 : Fin 2) : Fin R) : Nat)) hf
      have hb0 := h (0 : Fin 2)
      have hb1 := h (1 : Fin 2)
      simp only [hstart0, hstart1, hwin] at h0 h1 hb0 hb1
      simp only [Nat.cast_zero, add_zero] at h0 h1 hb0 hb1
      have e0 : ((idx (ix2 e 0)).toInt.toNat : Int) = (n.val : Int) := by exact_mod_cast h0
      have e1 : ((idx (ix2 e 1)).toInt.toNat : Int) = (r.val : Int) := by exact_mod_cast h1
      constructor <;> omega
    · rintro ⟨hv0, hv1⟩
      funext a
      refine Fin.ext ?_
      rcases fin2_cases a with rfl | rfl
      · show ((sDims2 N R E wf).start (ix1 e) idx 0 + ((sDims2 N R E wf).window (ix1 e) 0 : Nat)).toNat = n.val
        rw [hstart0, hwin, hv0]; simp
      · show ((sDims2 N R E wf).start (ix1 e) idx 1 + ((sDims2 N R E wf).window (ix1 e) 1 : Nat)).toNat = r.val
        rw [hstart1, hwin, hv1]; simp
  · rename_i h
    constructor
    · intro hf; exact absurd hf (by simp)
    · rintro ⟨hv0, hv1⟩
      exfalso; apply h
      intro a
      rcases fin2_cases a with rfl | rfl
      · rw [hstart0, hwin, hv0]
        have := n.isLt
        constructor
        · simp
        · show ((n.val : Int) + ((0 : Nat) : Int)) < ((N : Nat) : Int)
          omega
      · rw [hstart1, hwin, hv1]
        have := r.isLt
        constructor
        · simp
        · show ((r.val : Int) + ((0 : Nat) : Int)) < ((R : Nat) : Int)
          omega

/-- The pair accumulating scatter at (n, r): the operand there plus the updates whose pair of words reads (n, r). -/
theorem scatterAdd_apply {N R E w : Nat} (wf : ScatterDims.WF ⟨2, ![N, R]⟩ ⟨2, ![E, 2]⟩ ⟨1, ![E]⟩ [] [0, 1] [0, 1] 1)
    (x : (⟨2, ![N, R]⟩ : Shape).Idx → EReal) (idx : IVec ⟨2, ![E, 2]⟩ w) (upd : (⟨1, ![E]⟩ : Shape).Idx → EReal)
    (n : Fin N) (r : Fin R) (p : Fin E → Prop) [DecidablePred p]
    (hp : ∀ e, p e ↔ (idx (ix2 e 0)).toInt = (n.val : Int) ∧ (idx (ix2 e 1)).toInt = (r.val : Int)) :
    Ideal.hostScatterAdd (sDims2 N R E wf) x idx upd (ix2 n r)
      = x (ix2 n r) + ∑ e ∈ Finset.univ.filter p, upd (ix1 e) := by
  unfold Ideal.hostScatterAdd
  congr 1
  refine Finset.sum_nbij' (fun j => j 0) (fun e => ix1 e) ?_ ?_ ?_ ?_ ?_
  · intro j hj
    have := (Finset.mem_filter.mp hj).2
    rw [eq_ix1 j] at this
    exact Finset.mem_filter.mpr ⟨Finset.mem_univ _, (hp _).mpr ((resultIdx_iff wf idx _ n r).mp this)⟩
  · intro e he
    exact Finset.mem_filter.mpr ⟨Finset.mem_univ _,
      (resultIdx_iff wf idx e n r).mpr ((hp e).mp (Finset.mem_filter.mp he).2)⟩
  · intro j _; exact (eq_ix1 j).symm
  · intro e _; rfl
  · intro j _; exact congrArg upd (eq_ix1 j)

end Scatter

end Cert.LibPair

end
-- ==== Proof.KernelTail.lean ====
/-
  The host operations after the matrix product, as one function of what they read — the product array z, the source,
  destination and type words, and the bias — and that function at an index.

  In words: the destination and type words are normalised and paired; the pairs are counted into a (node, relation)
  table starting from zero, one per edge; the scale of a pair is one over its count clipped below at one. Each edge
  reads the product row of its (clamped) source node at its (clamped) relation and its scale at its (clamped)
  destination and relation; the scaled rows are added into the rows of a zero array at the edges' destination words;
  the root part of the product and the bias are added.
-/
import proofs.«139433_g6408091205734_cont_9to1_m_209_2_alg».proof.Proof.Gen.KernelIdeal.Launch
import proofs.«139433_g6408091205734_cont_9to1_m_209_2_alg».proof.Proof.KernelLayout
import proofs.«139433_g6408091205734_cont_9to1_m_209_2_alg».proof.Proof.LibGatherScatter
import proofs.«139433_g6408091205734_cont_9to1_m_209_2_alg».proof.Proof.LibPairGatherScatter
import Idealize.ShloMosaic.Lib.StableHlo.Run

noncomputable section

open scoped BigOperators

namespace Cert.KernelIdeal.Tail

open Cert.KernelIdeal Idealize.ShloMosaic Idealize.ShloMosaic.ValueIdx Idealize.ShloMosaic.TcCoe Idealize.SL.Sem
open Idealize.ShloMosaic.StableHlo
open Cert.KernelIdeal.Facts₀ Cert.Rgcn

/-! ## The gathers and scatters of this program, read at an index -/

/-- Rows added at the destination words: entry (i, d) is the operand's plus the updates (e, d) of the edges whose word reads i. -/
theorem rowScatter_apply (X : FVec Ideal S10000x256 .f32) (I : IVec S160000x1 32) (U : FVec Ideal S160000x256 .f32)
    (i : Fin 10000) (d : Fin 256) :
    Host.scatterAdd scatter_S10000x256_S160000x1_S160000x256_1_0_0_1 X I U (ix2 i d)
      = X (ix2 i d) + ∑ e ∈ Finset.univ.filter (fun e : Fin 160000 => (I (ix2 e 0)).toInt = (i.val : Int)), U (ix2 e d) :=
  Cert.LibGS.scatterAdd2_apply (N := 10000) (K := 256) (E := 160000)
    scatter_S10000x256_S160000x1_S160000x256_1_0_0_1_wf X I U i d _ (fun _ => Iff.rfl)

/-- Counts added at the (destination, type) pairs: entry (n, r) is the operand's plus the updates of the edges whose pair reads (n, r). -/
theorem pairScatter_apply (X : FVec Ideal S10000x8 .f32) (I : IVec S160000x2 32) (U : FVec Ideal S160000 .f32)
    (n : Fin 10000) (r : Fin 8) :
    Host.scatterAdd scatter_S10000x8_S160000x2_S160000_n_01_01_1 X I U (ix2 n r)
      = X (ix2 n r) + ∑ e ∈ Finset.univ.filter (fun e : Fin 160000 =>
          (I (ix2 e 0)).toInt = (n.val : Int) ∧ (I (ix2 e 1)).toInt = (r.val : Int)), U (ix1 e) :=
  Cert.LibPair.scatterAdd_apply (N := 10000) (R := 8) (E := 160000)
    scatter_S10000x8_S160000x2_S160000_n_01_01_1_wf X I U n r _ (fun _ => Iff.rfl)

/-- A product row read by a (node, relation) pair of words: entry (e, d) is the operand at the clamped pair and d. -/
theorem pairGatherRows_apply {α : Type} (X : S10000x8x256.Idx → α) (I : IVec S160000x2 32) (e : Fin 160000) (d : Fin 256) :
    Host.gather gather_S10000x8x256_S160000x2_S160000x256_1_01_n_n_01_1_11256 X I (ix2 e d)
      = X (ix3 (clampN 10000 (by decide) (I (ix2 e 0))) (clampN 8 (by decide) (I (ix2 e 1))) d) :=
  Cert.LibPair.gather3_apply (N := 10000) (R := 8) (K := 256) (E := 160000) (by decide) (by decide)
    gather_S10000x8x256_S160000x2_S160000x256_1_01_n_n_01_1_11256_wf X I e d

/-- A table entry read by a (node, relation) pair of words: entry e is the operand at the clamped pair. -/
theorem pairGather_apply {α : Type} (X : S10000x8.Idx → α) (I : IVec S160000x2 32) (e : Fin 160000) :
    Host.gather gather_S10000x8_S160000x2_S160000_n_01_n_n_01_1_11 X I (ix1 e)
      = X (ix2 (clampN 10000 (by decide) (I (ix2 e 0))) (clampN 8 (by decide) (I (ix2 e 1)))) :=
  Cert.LibPair.gather2_apply (N := 10000) (R := 8) (E := 160000) (by decide) (by decide)
    gather_S10000x8_S160000x2_S160000_n_01_n_n_01_1_11_wf X I e

/-! ## The tail as one function, piece by piece -/

/-- Two columns of words side by side. -/
def pairCols {α : Type} (A B : S160000x1.Idx → α) : S160000x2.Idx → α :=
  concatenate S160000x2 1 [⟨S160000x1, A⟩, ⟨S160000x1, B⟩] concatenates_S160000x1_S160000x1_S160000x2_d1

theorem pairCols_def {α : Type} (A B : S160000x1.Idx → α) :
    concatenate S160000x2 1 [⟨S160000x1, A⟩, ⟨S160000x1, B⟩] concatenates_S160000x1_S160000x1_S160000x2_d1 = pairCols A B := rfl

theorem pairCols_fst {α : Type} (A B : S160000x1.Idx → α) (e : Fin 160000) : pairCols A B (ix2 e 0) = A (ix2 e 0) :=
  Layout.pair_apply_fst A B e
theorem pairCols_snd {α : Type} (A B : S160000x1.Idx → α) (e : Fin 160000) : pairCols A B (ix2 e 1) = B (ix2 e 0) :=
  Layout.pair_apply_snd A B e

/-- The normalised words of an array of index words against the extent n, laid as a column. -/
def normColumn (n : BitVec 32) (w : IVec S160000 32) : IVec S160000x1 32 :=
  broadcastInDim S160000x1 ![0] bcast_S160000_S160000x1_0
    (select (cmpi .slt w (broadcastInDim S160000 ![] bcast_S_S160000 (constantI S_ 32 0#32)))
      (addi w (broadcastInDim S160000 ![] bcast_S_S160000 (constantI S_ 32 n))) w)

theorem normColumn_apply (n : BitVec 32) (w : IVec S160000 32) (e : Fin 160000) :
    normColumn n w (ix2 e 0) = norm n (w (ix1 e)) := by
  unfold normColumn
  rw [Layout.column_apply, Layout.norm_apply]

/-- The arrays of zeros and ones the tail starts its sums and its scales from. -/
def zerosNodes : FVec Ideal S10000x256 .f32 := broadcastInDim S10000x256 ![] bcast_S_S10000x256 (constant S_ .f32 0x00000000#32)
def zerosPairs : FVec Ideal S10000x8 .f32 := broadcastInDim S10000x8 ![] bcast_S_S10000x8 (constant S_ .f32 0x00000000#32)
def onesPairs : FVec Ideal S10000x8 .f32 := broadcastInDim S10000x8 ![] bcast_S_S10000x8 (constant S_ .f32 0x3F800000#32)
def onesEdges : FVec Ideal S160000 .f32 := broadcastInDim S160000 ![] bcast_S_S160000 (constant S_ .f32 0x3F800000#32)

theorem zerosNodes_apply (j : S10000x256.Idx) : zerosNodes j = 0 := Ideal.ofBits_zero_f32
theorem zerosPairs_apply (j : S10000x8.Idx) : zerosPairs j = 0 := Ideal.ofBits_zero_f32
theorem onesPairs_apply (j : S10000x8.Idx) : onesPairs j = 1 := Ideal.ofBits_one_f32
theorem onesEdges_apply (j : S160000.Idx) : onesEdges j = 1 := Ideal.ofBits_one_f32

/-- The (node, relation) table of pair counts: from zero, one per edge at its (destination, type) pair. -/
def pairCounts (dw tw : IVec S160000 32) : FVec Ideal S10000x8 .f32 :=
  Host.scatterAdd scatter_S10000x8_S160000x2_S160000_n_01_01_1 zerosPairs
    (pairCols (normColumn 10000#32 dw) (normColumn 8#32 tw)) onesEdges

/-- The count of the pair (n, r): from zero, one for every edge whose normalised (destination, type) words read (n, r). -/
theorem pairCounts_apply (dw tw : IVec S160000 32) (n : Fin 10000) (r : Fin 8) :
    pairCounts dw tw (ix2 n r)
      = 0 + ∑ _e ∈ Finset.univ.filter (fun e : Fin 160000 =>
          (norm 10000#32 (dw (ix1 e))).toInt = (n.val : Int) ∧ (norm 8#32 (tw (ix1 e))).toInt = (r.val : Int)), (1 : EReal) := by
  unfold pairCounts
  rw [pairScatter_apply, zerosPairs_apply]
  simp only [pairCols_fst, pairCols_snd, normColumn_apply, onesEdges_apply]

/-- A quotient of two tables read at an entry. -/
theorem quotient_apply (a b : FVec Ideal S10000x8 .f32) (j : S10000x8.Idx) : Host.divf a b j = Ideal.div (a j) (b j) := rfl

/-- The table of scales: one over the count clipped below at one. -/
def pairScales (dw tw : IVec S160000 32) : FVec Ideal S10000x8 .f32 :=
  Host.divf onesPairs (maximumf onesPairs (pairCounts dw tw))

theorem pairScales_apply (dw tw : IVec S160000 32) (n : Fin 10000) (r : Fin 8) :
    pairScales dw tw (ix2 n r) = Ideal.div 1 (max 1 (pairCounts dw tw (ix2 n r))) := by
  unfold pairScales
  rw [quotient_apply, maximumf_apply, onesPairs_apply]

/-- The scale each edge reads: the table at its (clamped destination, clamped type) pair. -/
def edgeScale (dw tw : IVec S160000 32) : FVec Ideal S160000 .f32 :=
  Host.gather gather_S10000x8_S160000x2_S160000_n_01_n_n_01_1_11 (pairScales dw tw)
    (pairCols (normColumn 10000#32 dw) (normColumn 8#32 tw))

theorem edgeScale_apply (dw tw : IVec S160000 32) (e : Fin 160000) :
    edgeScale dw tw (ix1 e)
      = pairScales dw tw (ix2 (clampN 10000 (by decide) (norm 10000#32 (dw (ix1 e)))) (clampN 8 (by decide) (norm 8#32 (tw (ix1 e))))) := by
  unfold edgeScale
  rw [pairGather_apply, pairCols_fst, pairCols_snd, normColumn_apply, normColumn_apply]

/-- A per-edge scalar spread along the feature axis. -/
def spread (v : FVec Ideal S160000 .f32) : FVec Ideal S160000x256 .f32 :=
  broadcastInDim S160000x256 ![0, 1] bcast_S160000x1_S160000x256_0_1 (broadcastInDim S160000x1 ![0] bcast_S160000_S160000x1_0 v)

theorem spread_apply (v : FVec Ideal S160000 .f32) (e : Fin 160000) (d : Fin 256) : spread v (ix2 e d) = v (ix1 e) :=
  Layout.edgeRows_apply v e d

/-- The per-relation part of the product array, as (node, relation, coordinate). -/
def relationRows (z : FVec Ideal S10000x2304 .f32) : FVec Ideal S10000x8x256 .f32 :=
  shapeCast S10000x8x256 (extractStridedSlice S10000x2048 ![0, 0] z slices_S10000x2304_S10000x2048_0_0)
    shapeCasts_S10000x2048_S10000x8x256

/-- What each edge contributes: the product row of its (clamped source, clamped type) pair, scaled. -/
def edgeTerms (z : FVec Ideal S10000x2304 .f32) (sw dw tw : IVec S160000 32) : FVec Ideal S160000x256 .f32 :=
  mulf
    (Host.gather gather_S10000x8x256_S160000x2_S160000x256_1_01_n_n_01_1_11256 (relationRows z)
      (pairCols (normColumn 10000#32 sw) (normColumn 8#32 tw)))
    (spread (edgeScale dw tw))

theorem edgeTerms_apply (z : FVec Ideal S10000x2304 .f32) (sw dw tw : IVec S160000 32) (e : Fin 160000) (d : Fin 256) :
    edgeTerms z sw dw tw (ix2 e d)
      = z (ix2 (clampN 10000 (by decide) (norm 10000#32 (sw (ix1 e))))
          ⟨(clampN 8 (by decide) (norm 8#32 (tw (ix1 e)))).val * 256 + d.val,
            by have := (clampN 8 (by decide) (norm 8#32 (tw (ix1 e)))).isLt; have := d.isLt; omega⟩)
        * pairScales dw tw (ix2 (clampN 10000 (by decide) (norm 10000#32 (dw (ix1 e)))) (clampN 8 (by decide) (norm 8#32 (tw (ix1 e))))) := by
  unfold edgeTerms relationRows
  rw [mulf_apply, pairGatherRows_apply, Layout.relationPart_apply, spread_apply, edgeScale_apply, pairCols_fst, pairCols_snd,
    normColumn_apply, normColumn_apply]

/-- Everything after the matrix product, as a function of the product array, the three word arrays and the bias. -/
def tailFn (z : FVec Ideal S10000x2304 .f32) (sw dw tw : IVec S160000 32) (b : FVec Ideal S256 .f32) : FVec Ideal S10000x256 .f32 :=
  addf
    (addf
      (Host.scatterAdd scatter_S10000x256_S160000x1_S160000x256_1_0_0_1 zerosNodes (normColumn 10000#32 dw) (edgeTerms z sw dw tw))
      (extractStridedSlice S10000x256 ![0, 2048] z slices_S10000x2304_S10000x256_0_2048))
    (broadcastInDim S10000x256 ![0, 1] bcast_S1x256_S10000x256_0_1 (broadcastInDim S1x256 ![1] bcast_S256_S1x256_1 b))

set_option maxHeartbeats 8000000 in
/-- The host operations after the region leave the result buffer at that function of the buffers they read. -/
theorem after_tail (W : Valuation τ sig (Elt Ideal)) :
    (StableHlo.after (List.flatten [Gen.hostOps1 (F := Ideal), Gen.hostOps1_1 (F := Ideal), Gen.hostOps1_2 (F := Ideal)]) W
        (Proc.devRef .tc main_v72) : FVec Ideal S10000x256 .f32)
      = tailFn (W (Proc.devRef .tc main_v7)) (W (Proc.devRef .tc main_v1)) (W (Proc.devRef .tc main_v3))
          (W (Proc.devRef .tc main_arg2)) (W (Proc.devRef .tc main_arg5)) := by
  simp only [Gen.hostOps1, Gen.hostOps1_1, Gen.hostOps1_2, List.flatten_cons, List.flatten_nil, List.append_nil, List.cons_append,
    List.nil_append]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', pairCols_def]
  rfl

/-! ## The tail at an index -/

/-- The tail at (i, d), in plain arithmetic over the product array and the words. -/
def edgeForm (z : S10000x2304.Idx → EReal) (sw dw tw : S160000.Idx → BitVec 32) (b : S256.Idx → EReal)
    (i : Fin 10000) (d : Fin 256) : EReal :=
  (0 + ∑ e ∈ Finset.univ.filter (fun e : Fin 160000 => (norm 10000#32 (dw (ix1 e))).toInt = (i.val : Int)),
      z (ix2 (clampN 10000 (by decide) (norm 10000#32 (sw (ix1 e))))
          ⟨(clampN 8 (by decide) (norm 8#32 (tw (ix1 e)))).val * 256 + d.val,
            by have := (clampN 8 (by decide) (norm 8#32 (tw (ix1 e)))).isLt; have := d.isLt; omega⟩)
        * Ideal.div 1 (max 1 (0 + ∑ _e' ∈ Finset.univ.filter (fun e' : Fin 160000 =>
            (norm 10000#32 (dw (ix1 e'))).toInt = ((clampN 10000 (by decide) (norm 10000#32 (dw (ix1 e)))).val : Int)
              ∧ (norm 8#32 (tw (ix1 e'))).toInt = ((clampN 8 (by decide) (norm 8#32 (tw (ix1 e)))).val : Int)), (1 : EReal))))
    + z (ix2 i ⟨2048 + d.val, by have := d.isLt; omega⟩) + b (ix1 d)

theorem tailFn_apply (z : FVec Ideal S10000x2304 .f32) (sw dw tw : IVec S160000 32) (b : FVec Ideal S256 .f32)
    (i : Fin 10000) (d : Fin 256) : tailFn z sw dw tw b (ix2 i d) = edgeForm z sw dw tw b i d := by
  unfold tailFn edgeForm
  rw [addf_apply, addf_apply, Layout.rootPart_apply, Layout.biasRows_apply, rowScatter_apply, zerosNodes_apply]
  simp only [edgeTerms_apply, normColumn_apply, pairScales_apply, pairCounts_apply]

/-- With the product array the transformed features and the root term, and the words the edge arrays' rows, the tail is
    the per-edge arrangement of the convolution. -/
theorem edgeForm_eq_perEdge (z : S10000x2304.Idx → EReal) (sw dw tw : S160000.Idx → BitVec 32) (b : S256.Idx → EReal)
    (x : SX.Idx → EReal) (ei : SEI.Idx → BitVec 32) (et : SET.Idx → BitVec 32) (W : SW.Idx → EReal)
    (root : SR.Idx → EReal) (bias : SB.Idx → EReal)
    (hrel : ∀ (n : Fin 10000) (r : Fin 8) (d : Fin 256),
      z (ix2 n ⟨r.val * 256 + d.val, by have := r.isLt; have := d.isLt; omega⟩) = transformed x W n r d)
    (hroot : ∀ (i : Fin 10000) (d : Fin 256), z (ix2 i ⟨2048 + d.val, by have := d.isLt; omega⟩) = rootTerm x root i d)
    (hs : ∀ e : Fin 160000, sw (ix1 e) = ei (ix2 0 e)) (hd : ∀ e : Fin 160000, dw (ix1 e) = ei (ix2 1 e))
    (ht : tw = et) (hb : b = bias) (i : Fin 10000) (d : Fin 256) :
    edgeForm z sw dw tw b i d = perEdge x ei et W root bias i d := by
  subst ht; subst hb
  unfold edgeForm perEdge pairScale pairCount inEdges srcN dstN typN srcW dstW typW
  simp only [hrel, hroot, hs, hd]

end Cert.KernelIdeal.Tail

end
-- ==== Proof.KernelProduct.lean ====
/-
  The kernel's matrix product, read as one array.

  The region walks a 10 x 9 grid. At point (a, b) the body multiplies row block a of the left operand x
  (rows 1000 a .. 1000 a + 999, all 256 columns) by column block b of the right operand (all 256 rows, columns
  256 b .. 256 b + 255), accumulating into zero, and the result is written back to block (a, b) of the output.
  Entry (p, s) of a block product is the sum over k of (left block)(p, k) * (right block)(k, s); read through the two
  blocks' positions this is the sum over k of x (1000 a + p, k) * right (k, 256 b + s). The ninety output blocks tile
  the 10000 x 2304 output, so every entry (n, q) of it ends at the sum over k of x (n, k) * right (k, q).

  The right operand is built before the region: the eight relation weights side by side (relation r in columns
  256 r .. 256 r + 255, as the weights transposed to (row, relation, column) and flattened), then the root weight in
  columns 2048 .. 2303. So column 256 r + d of the product is x times relation r's weight, and column 2048 + d is x
  times the root weight.
-/
import Mathlib
import Idealize.ShloMosaic.Lib.Pipeline.Value
import Idealize.ShloMosaic.Lib.ValueIdx
import Idealize.ShloMosaic.PureOps.Ideal.Laws
import proofs.«139433_g6408091205734_cont_9to1_m_209_2_alg».proof.Proof.IdealFrame
import proofs.«139433_g6408091205734_cont_9to1_m_209_2_alg».proof.Proof.Spec

set_option maxRecDepth 16384

noncomputable section

open scoped BigOperators

namespace Cert.KernelIdeal.Product

open Cert.KernelIdeal Cert.KernelIdeal.Gen Idealize.ShloMosaic Idealize.ShloMosaic.TcCoe Idealize.SL.Sem
open Idealize.ShloMosaic.ValueIdx
open Idealize.ShloMosaic.Pipeline (Dat)

/-! ## The body's payload at an entry -/

theorem lhs0 (j : S1000x256.Idx) (q : dot_S1000x256_S256x256_S1000x256_1_0_0_1_n_n.contr.Idx) :
    (dot_S1000x256_S256x256_S1000x256_1_0_0_1_n_n.lhsIdx j q 0).val = (j 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhs1 (j : S1000x256.Idx) (q : dot_S1000x256_S256x256_S1000x256_1_0_0_1_n_n.contr.Idx) :
    (dot_S1000x256_S256x256_S1000x256_1_0_0_1_n_n.lhsIdx j q 1).val = (q ⟨0, by decide⟩).val :=
  dot_S1000x256_S256x256_S1000x256_1_0_0_1_n_n.lhsIdx_val_of_single rfl j q
theorem rhs0 (j : S1000x256.Idx) (q : dot_S1000x256_S256x256_S1000x256_1_0_0_1_n_n.contr.Idx) :
    (dot_S1000x256_S256x256_S1000x256_1_0_0_1_n_n.rhsIdx j q 0).val = (q ⟨0, by decide⟩).val :=
  dot_S1000x256_S256x256_S1000x256_1_0_0_1_n_n.rhsIdx_val_of_single rfl j q
theorem rhs1 (j : S1000x256.Idx) (q : dot_S1000x256_S256x256_S1000x256_1_0_0_1_n_n.contr.Idx) :
    (dot_S1000x256_S256x256_S1000x256_1_0_0_1_n_n.rhsIdx j q 1).val = (j 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- Entry (p, s) of the body's payload: row p of the left block times column s of the right block. -/
theorem payload_entry (x0 : Vec Ideal S1000x256 .f32) (x1 : Vec Ideal S256x256 .f32) (p : Fin 1000) (s : Fin 256) :
    k0_pay1 x0 x1 (ix2 p s) = ∑ k : Fin 256, x0 (ix2 p k) * x1 (ix2 k s) := by
  unfold k0_pay1
  rw [shapeCast_self]
  refine (Ideal.matmul_constant_zero_apply dot_S1000x256_S256x256_S1000x256_1_0_0_1_n_n none x0 x1 (ix2 p s)).trans ?_
  rw [← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 p s) ((contrEquiv1 dot_S1000x256_S256x256_S1000x256_1_0_0_1_n_n 256 rfl rfl).symm k) = ix2 p k := funext fun a => Fin.ext (by
    match a with
    | ⟨0, _⟩ => exact lhs0 _ _
    | ⟨1, _⟩ => exact (lhs1 _ _).trans hk)
  have er : dot_S1000x256_S256x256_S1000x256_1_0_0_1_n_n.rhsIdx (ix2 p s) ((contrEquiv1 dot_S1000x256_S256x256_S1000x256_1_0_0_1_n_n 256 rfl rfl).symm k) = ix2 k s := funext fun a => Fin.ext (by
    match a with
    | ⟨0, _⟩ => exact (rhs0 _ _).trans hk
    | ⟨1, _⟩ => exact rhs1 _ _)
  rw [el, er]

/-! ## The product as one array -/

/-- The product of a 10000 x 256 array by a 256 x 2304 array, entry by entry. -/
def productArray (x : S10000x256.Idx → EReal) (wall : S256x2304.Idx → EReal) : S10000x2304.Idx → EReal :=
  fun j => ∑ k : Fin 256, x (ix2 (⟨(j 0).val, (j 0).isLt⟩ : Fin 10000) k) * wall (ix2 k (⟨(j 1).val, (j 1).isLt⟩ : Fin 2304))

/-- A block product is a block of the product: when the left block is rows 1000 b0 .. of x and the right block is
    columns 256 b1 .. of the right operand, entry j of the block product is the product array's entry at the
    position of j inside block (b0, b1). -/
theorem block_entry (x0 : Vec Ideal S1000x256 .f32) (x1 : Vec Ideal S256x256 .f32)
    (X : S10000x256.Idx → EReal) (Wl : S256x2304.Idx → EReal) (b0 b1 : Nat)
    (h0 : ∀ (p : Fin 1000) (k : Fin 256) (n : Fin 10000), n.val = b0 * 1000 + p.val → x0 (ix2 p k) = X (ix2 n k))
    (h1 : ∀ (k : Fin 256) (s : Fin 256) (q : Fin 2304), q.val = b1 * 256 + s.val → x1 (ix2 k s) = Wl (ix2 k q))
    (j : S1000x256.Idx) (i : S10000x2304.Idx) (hi0 : (i 0).val = b0 * 1000 + (j 0).val)
    (hi1 : (i 1).val = b1 * 256 + (j 1).val) :
    k0_pay1 x0 x1 j = productArray X Wl i := by
  obtain ⟨p, s, rfl⟩ : ∃ (p : Fin 1000) (s : Fin 256), j = ix2 p s := ⟨j 0, j 1, eq_ix2 j⟩
  rw [payload_entry]
  unfold productArray
  refine Finset.sum_congr rfl fun k _ => ?_
  rw [h0 p k ⟨(i 0).val, (i 0).isLt⟩ hi0, h1 k s ⟨(i 1).val, (i 1).isLt⟩ hi1]

/-! ## From blocks to the array -/

section array

variable (m : (ℓ : Loc nD τ sig) → Buf (Elt Ideal) ℓ)

theorem hz : (![0, 0] : Fin 2 → Nat) = fun _ => 0 := funext fun a => by fin_cases a <;> rfl

/-- The index maps over the grid: the left operand's row block is the output's, its column block is 0; the right
    operand's row block is 0, its column block is the output's; the output's block indices stay below 10 and 9. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 9 ∧ win0_2.index t (1 : Fin 2) ≤ 8 :=
  (by decide +kernel : ∀ t : Fin grid0.N, _)

/-- Every block of the output is some point's. -/
theorem idx_onto : ∀ (q0 : Fin 10) (q1 : Fin 9), ∃ t : Fin cfg0.N, win0_2.index t = ![q0.val, q1.val] :=
  (by decide +kernel : ∀ (q0 : Fin 10) (q1 : Fin 9), ∃ t : Fin grid0.N, win0_2.index t = ![q0.val, q1.val])

/-- What point t writes back is block t of the product of the two operands as the region finds them. -/
theorem flushed_eq (c : Dev nD) (t : Fin cfg0.N) :
    (HandFrame.dats m 0 c).flushed 2 t = ((cfg0.win 2).blk t).view.read (Elt Ideal)
      (productArray (HandFrame.V m c main_arg0) (HandFrame.V m c main_v6)) := by
  show (cfg0.win 2).cut (grid0.coords t) ((HandFrame.dats m 0 c).after 2 t) = _
  rw [HandFrame.after_out]
  unfold HandFrame.blockProduct
  rw [View.canon_unit_zero hz]
  simp only [View.ld_unit_zero (S := S1000x256) hz, View.ld_unit_zero (S := S256x256) hz]
  obtain ⟨e0, e1, e2, e3, e4, e5⟩ := idx_facts t
  funext j
  show k0_pay1 (HandFrame.iblk m c 0 t) (HandFrame.iblk m c 1 t) j
    = productArray (HandFrame.V m c main_arg0) (HandFrame.V m c main_v6) (((cfg0.win 2).blk t).view.emb j)
  refine block_entry _ _ _ _ (win0_2.index t (0 : Fin 2)) (win0_2.index t (1 : Fin 2)) ?_ ?_ j _ ?_ ?_
  · intro p k n hn
    show HandFrame.V m c main_arg0 (((cfg0.win 0).blk t).view.emb (ix2 p k)) = HandFrame.V m c main_arg0 (ix2 n k)
    refine congrArg _ (funext fun a => Fin.ext ?_)
    match a with
    | ⟨0, _⟩ => show win0_0.index t (0 : Fin 2) * 1000 + 1 * p.val = n.val; omega
    | ⟨1, _⟩ => show win0_0.index t (1 : Fin 2) * 256 + 1 * k.val = k.val; omega
  · intro k s q hq
    show HandFrame.V m c main_v6 (((cfg0.win 1).blk t).view.emb (ix2 k s)) = HandFrame.V m c main_v6 (ix2 k q)
    refine congrArg _ (funext fun a => Fin.ext ?_)
    match a with
    | ⟨0, _⟩ => show win0_1.index t (0 : Fin 2) * 256 + 1 * k.val = k.val; omega
    | ⟨1, _⟩ => show win0_1.index t (1 : Fin 2) * 256 + 1 * s.val = q.val; omega
  · show win0_2.index t (0 : Fin 2) * 1000 + 1 * (j 0).val = win0_2.index t (0 : Fin 2) * 1000 + (j 0).val
    omega
  · show win0_2.index t (1 : Fin 2) * 256 + 1 * (j 1).val = win0_2.index t (1 : Fin 2) * 256 + (j 1).val
    omega

/-- An index of the output is in point t's block iff each coordinate is in the block's range on its axis. -/
theorem mem_blk (t : Fin cfg0.N) (i : S10000x2304.Idx) :
    i ∈ ((cfg0.win 2).blk t).view.set ↔ ∀ a : Fin 2, win0_2.index t a * S1000x256.size a ≤ (i a).val
      ∧ (i a).val < win0_2.index t a * S1000x256.size a + S1000x256.size a := by
  show i ∈ ((View.whole main_v7).slice (win0_2.rect t)).set ↔ _
  rw [View.set_slice_whole, Rect.mem_set_unit]
  exact Iff.rfl

/-- The ninety blocks tile the output: entry (n, q) is in the block of row block n / 1000, column block q / 256. -/
theorem covered (i : S10000x2304.Idx) :
    ∃ t : Fin cfg0.N, (cfg0.win 2).flush t = true ∧ i ∈ ((cfg0.win 2).blk t).view.set := by
  have hi0 : (i 0).val < 10000 := (i 0).isLt
  have hi1 : (i 1).val < 2304 := (i 1).isLt
  obtain ⟨t, ht⟩ := idx_onto ⟨(i 0).val / 1000, by omega⟩ ⟨(i 1).val / 256, by omega⟩
  have q0 : win0_2.index t (0 : Fin 2) = (i 0).val / 1000 := congrFun ht 0
  have q1 : win0_2.index t (1 : Fin 2) = (i 1).val / 256 := congrFun ht 1
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 256 ≤ (i 1).val ∧ (i 1).val < win0_2.index t (1 : Fin 2) * 256 + 256; omega

/-- The output array after the region is the product array. -/
theorem product_array (c : Dev nD) :
    (HandFrame.dats m 0 c).arrAt 2 cfg0.N = productArray (HandFrame.V m c main_arg0) (HandFrame.V m c main_v6) :=
  (HandFrame.dats m 0 c).arrAt_eq_of_cover 2 _ (fun t _ => flushed_eq m c t) covered

/-! ## The arrays, typed

  The launch contents of the arguments, and what the region finds or leaves in the buffers it reads and writes, as
  arrays over literal shapes with extended-real or word entries. -/

/-- The node features x as launched (10000 x 256). -/
abbrev xArr (c : Dev nD) : S10000x256.Idx → EReal := m ((c : Thread nD τ).loc main_arg0)
/-- The edge endpoint words as launched (2 x 160000). -/
abbrev edgeArr (c : Dev nD) : S2x160000.Idx → BitVec 32 := m ((c : Thread nD τ).loc main_arg1)
/-- The relation weights as launched (8 x 256 x 256). -/
abbrev weightArr (c : Dev nD) : S8x256x256.Idx → EReal := m ((c : Thread nD τ).loc main_arg3)
/-- The root weight as launched (256 x 256). -/
abbrev rootArr (c : Dev nD) : S256x256.Idx → EReal := m ((c : Thread nD τ).loc main_arg4)
/-- The right operand as the region finds it (256 x 2304). -/
abbrev wallArr (c : Dev nD) : S256x2304.Idx → EReal := HandFrame.V m c main_v6
/-- The source words and the destination words as the region finds them (160000 each). -/
abbrev srcArr (c : Dev nD) : S160000.Idx → BitVec 32 := HandFrame.V m c main_v1
abbrev dstArr (c : Dev nD) : S160000.Idx → BitVec 32 := HandFrame.V m c main_v3
/-- The output after the region (10000 x 2304). -/
abbrev productArr (c : Dev nD) : S10000x2304.Idx → EReal := (HandFrame.dats m 0 c).arrAt 2 cfg0.N

/-- Entry (n, q) of the output after the region: row n of x times column q of the right operand. -/
theorem product_entry (c : Dev nD) (n : Fin 10000) (q : Fin 2304) :
    productArr m c (ix2 n q) = ∑ k : Fin 256, xArr m c (ix2 n k) * wallArr m c (ix2 k q) := by
  have h := congrFun (product_array m c) (ix2 n q)
  rw [HandFrame.V_main_arg0] at h
  exact h

end array

/-! ## What the region finds in the buffers the host writes before it -/

section host

open Idealize.ShloMosaic.StableHlo

variable (m : (ℓ : Loc nD τ sig) → Buf (Elt Ideal) ℓ) (c : Dev nD)

/-- The source words: row 0 of the endpoint words, flattened. -/
theorem srcArr_term : srcArr m c
    = shapeCast S160000 (extractStridedSlice S1x160000 ![0, 0] (edgeArr m c) slices_S2x160000_S1x160000_0_0)
        shapeCasts_S1x160000_S160000 := by
  show (HandFrame.V m c main_v1 : S160000.Idx → BitVec 32) = _
  dsimp only [HandFrame.V, HandFrame.V0]
  simp only [hostOps0, List.flatten_cons, List.flatten_nil, List.append_nil]
  after_results
  rfl

/-- The destination words: row 1 of the endpoint words, flattened. -/
theorem dstArr_term : dstArr m c
    = shapeCast S160000 (extractStridedSlice S1x160000 ![1, 0] (edgeArr m c) slices_S2x160000_S1x160000_1_0)
        shapeCasts_S1x160000_S160000 := by
  show (HandFrame.V m c main_v3 : S160000.Idx → BitVec 32) = _
  dsimp only [HandFrame.V, HandFrame.V0]
  simp only [hostOps0, List.flatten_cons, List.flatten_nil, List.append_nil]
  after_results
  rfl

/-- The right operand: the relation weights transposed to (row, relation, column) and flattened to 256 x 2048, joined
    along the columns with the root weight. -/
theorem wallArr_term : wallArr m c
    = concatenate S256x2304 1 [⟨S256x2048, shapeCast S256x2048 (transpose S256x8x256 [1, 0, 2] (weightArr m c)
        transposes_S8x256x256_S256x8x256_1_0_2) shapeCasts_S256x8x256_S256x2048⟩, ⟨S256x256, rootArr m c⟩]
        concatenates_S256x2048_S256x256_S256x2304_d1 := by
  show (HandFrame.V m c main_v6 : S256x2304.Idx → EReal) = _
  dsimp only [HandFrame.V, HandFrame.V0]
  simp only [hostOps0, List.flatten_cons, List.flatten_nil, List.append_nil]
  after_results
  rfl

/-- A row of a 2 x 160000 array, flattened, read at e. -/
theorem row_flat_apply (X : S2x160000.Idx → BitVec 32) (ρ : Fin 2) (off : Fin 2 → Nat) (h : S2x160000.Slices off S1x160000)
    (ho0 : off 0 = ρ.val) (ho1 : off 1 = 0) (e : Fin 160000) :
    shapeCast S160000 (extractStridedSlice S1x160000 off X h) shapeCasts_S1x160000_S160000 (ix1 e) = X (ix2 ρ e) := by
  refine (shapeCast_apply _ shapeCasts_S1x160000_S160000 (ix1 e) (ix2 (0 : Fin 1) e) ?_).trans ?_
  · rw [Shape.rowMajor_val_two, Shape.rowMajor_val_one]
    show 0 * 160000 + e.val = e.val
    omega
  · refine extractStridedSlice_apply _ _ h (ix2 (0 : Fin 1) e) (ix2 ρ e) fun a => ?_
    match a with
    | ⟨0, _⟩ => show ρ.val = off 0 + 0; omega
    | ⟨1, _⟩ => show e.val = off 1 + e.val; omega

/-- The source word of edge e is entry (0, e) of the endpoint words. -/
theorem source_words (e : Fin 160000) : srcArr m c (ix1 e) = edgeArr m c (ix2 0 e) := by
  rw [srcArr_term]
  exact row_flat_apply (edgeArr m c) 0 ![0, 0] slices_S2x160000_S1x160000_0_0 rfl rfl e

/-- The destination word of edge e is entry (1, e) of the endpoint words. -/
theorem destination_words (e : Fin 160000) : dstArr m c (ix1 e) = edgeArr m c (ix2 1 e) := by
  rw [dstArr_term]
  exact row_flat_apply (edgeArr m c) 1 ![1, 0] slices_S2x160000_S1x160000_1_0 rfl rfl e

/-- The weights transposed and flattened, read at (k, 256 r + d): entry (r, k, d) of the weights. -/
theorem weights_flat_apply (Wt : S8x256x256.Idx → EReal) (k : Fin 256) (r : Fin 8) (d : Fin 256) (q : Fin 2048)
    (hq : q.val = r.val * 256 + d.val) :
    shapeCast S256x2048 (transpose S256x8x256 [1, 0, 2] Wt transposes_S8x256x256_S256x8x256_1_0_2)
      shapeCasts_S256x8x256_S256x2048 (ix2 k q) = Wt (ix3 r k d) := by
  refine (shapeCast_apply _ shapeCasts_S256x8x256_S256x2048 (ix2 k q) (ix3 k r d) ?_).trans ?_
  · rw [Shape.rowMajor_val_three, Shape.rowMajor_val_two]
    show (k.val * 8 + r.val) * 256 + d.val = k.val * 2048 + q.val
    omega
  · refine transpose_apply [1, 0, 2] Wt transposes_S8x256x256_S256x8x256_1_0_2 (ix3 k r d) (ix3 r k d) fun b => ?_
    match b with
    | ⟨0, _⟩ => rfl
    | ⟨1, _⟩ => rfl
    | ⟨2, _⟩ => rfl

/-- Two arrays joined along the columns, read in the left one's columns. -/
theorem join_left (A : S256x2048.Idx → EReal) (B : S256x256.Idx → EReal) (k : Fin 256) (q : Fin 2304) (q' : Fin 2048)
    (hq : q.val = q'.val) :
    concatenate S256x2304 1 [⟨S256x2048, A⟩, ⟨S256x256, B⟩] concatenates_S256x2048_S256x256_S256x2304_d1 (ix2 k q)
      = A (ix2 k q') := by
  refine concatenate_apply_piece (t := S256x2304) (1 : Fin 2) [⟨S256x2048, A⟩, ⟨S256x256, B⟩]
    concatenates_S256x2048_S256x256_S256x2304_d1 (ix2 k q) 0 (by simp) S256x2048 A rfl rfl 0 rfl (ix2 k q') ?_ ?_
  · intro b hb
    match b with
    | ⟨0, _⟩ => rfl
    | ⟨1, _⟩ => exact absurd rfl hb
  · show 0 + q'.val = q.val
    omega

/-- Two arrays joined along the columns, read in the right one's columns. -/
theorem join_right (A : S256x2048.Idx → EReal) (B : S256x256.Idx → EReal) (k : Fin 256) (q : Fin 2304) (d : Fin 256)
    (hq : q.val = 2048 + d.val) :
    concatenate S256x2304 1 [⟨S256x2048, A⟩, ⟨S256x256, B⟩] concatenates_S256x2048_S256x256_S256x2304_d1 (ix2 k q)
      = B (ix2 k d) := by
  refine concatenate_apply_piece (t := S256x2304) (1 : Fin 2) [⟨S256x2048, A⟩, ⟨S256x256, B⟩]
    concatenates_S256x2048_S256x256_S256x2304_d1 (ix2 k q) 1 (by simp) S256x256 B rfl rfl 2048 rfl (ix2 k d) ?_ ?_
  · intro b hb
    match b with
    | ⟨0, _⟩ => rfl
    | ⟨1, _⟩ => exact absurd rfl hb
  · show 2048 + d.val = q.val
    omega

/-- Column 256 r + d of the right operand is column d of relation r's weight. -/
theorem wall_relation (k : Fin 256) (r : Fin 8) (d : Fin 256) :
    wallArr m c (ix2 k ⟨r.val * 256 + d.val, by have := r.isLt; have := d.isLt; omega⟩) = weightArr m c (ix3 r k d) := by
  rw [wallArr_term]
  refine (join_left _ _ k _ ⟨r.val * 256 + d.val, by have := r.isLt; have := d.isLt; omega⟩ rfl).trans ?_
  exact weights_flat_apply _ k r d _ rfl

/-- Column 2048 + d of the right operand is column d of the root weight. -/
theorem wall_root (k : Fin 256) (d : Fin 256) :
    wallArr m c (ix2 k ⟨2048 + d.val, by have := d.isLt; omega⟩) = rootArr m c (ix2 k d) := by
  rw [wallArr_term]
  exact join_right _ _ k _ d rfl

end host

/-! ## The product against the specification -/

section spec

variable (m : (ℓ : Loc nD τ sig) → Buf (Elt Ideal) ℓ) (c : Dev nD)

/-- Column 256 r + d of the output is the node features transformed by relation r. -/
theorem product_relation (n : Fin 10000) (r : Fin 8) (d : Fin 256) :
    productArr m c (ix2 n ⟨r.val * 256 + d.val, by have := r.isLt; have := d.isLt; omega⟩)
      = Cert.Rgcn.transformed (xArr m c) (weightArr m c) n r d := by
  rw [product_entry]
  unfold Cert.Rgcn.transformed
  exact Finset.sum_congr rfl fun k _ => by rw [wall_relation]

/-- Column 2048 + d of the output is the root term. -/
theorem product_root (i : Fin 10000) (d : Fin 256) :
    productArr m c (ix2 i ⟨2048 + d.val, by have := d.isLt; omega⟩)
      = Cert.Rgcn.rootTerm (xArr m c) (rootArr m c) i d := by
  rw [product_entry]
  unfold Cert.Rgcn.rootTerm
  exact Finset.sum_congr rfl fun k _ => by rw [wall_root]

end spec

end Cert.KernelIdeal.Product

end
-- ==== Proof.RefValue.lean ====
import proofs.«139433_g6408091205734_cont_9to1_m_209_2_alg».proof.Proof.RefRead
import proofs.«139433_g6408091205734_cont_9to1_m_209_2_alg».proof.Proof.Spec
import proofs.«139433_g6408091205734_cont_9to1_m_209_2_alg».proof.Proof.LibGatherScatter

/-!
# The reference program's result, index by index, is the per-relation formula

The reference handles the eight relations one after the other with the same thirty-seven operations. For relation r:

* the relation mask of an edge is one when its raw type word equals r, else zero;
* the source words are normalised (a word that reads negative has the number of nodes added) and a row gather
  reads the node features at the word read signed and clamped into the node range;
* the gathered rows are multiplied by the mask, and an accumulating row scatter adds them, starting from zero, at
  the normalised destination word read signed: at node i this is the sum over the in-edges of i;
* a second accumulating scatter adds the masks themselves: the number of in-edges of i of relation r;
* the count is clipped below at one, the sums are divided by it, and the quotient row is multiplied by the
  relation's weight matrix;
* the product is added to the running sum, which starts from zero.

After the eight relations the root product and the bias are added. Each step is read at an index; the two scatters
and the gather are read through general lemmas about a gather and an accumulating scatter along the first axis.
-/

noncomputable section

open scoped BigOperators

namespace Cert.Rgcn.RefValue

open Idealize.ShloMosaic Idealize.ShloMosaic.ValueIdx Cert.ReferenceIdeal Cert.ReferenceIdeal.Gen
  Cert.ReferenceIdeal.Read Cert.Rgcn

/-! ## The gather and the two scatters over variables -/

/-- The dimension numbers of the program's row scatter are the general lemma's record at 10000 nodes, 256 features
    and 160000 edges. -/
theorem sdims2_eq : scatter_S10000x256_S160000x1_S160000x256_1_0_0_1
    = Cert.LibGS.sDims2 10000 256 160000 scatter_S10000x256_S160000x1_S160000x256_1_0_0_1_wf := rfl
/-- The dimension numbers of the program's rank-1 scatter are the general lemma's record at 10000 nodes and 160000
    edges. -/
theorem sdims1_eq : scatter_S10000_S160000x1_S160000_n_0_0_1
    = Cert.LibGS.sDims1 10000 160000 scatter_S10000_S160000x1_S160000_n_0_0_1_wf := rfl

/-- A row gather of the node features by index words that are the normalised source words reads, at edge e and
    feature k, the features of the source node of e. -/
theorem gather_src (x : SX.Idx → EReal) (ei : SEI.Idx → BitVec 32)
    (idx : S160000x1.Idx → BitVec 32) (hidx : ∀ e : Fin 160000, idx (ix2 e 0) = srcW ei e)
    (e : Fin 160000) (k : Fin 256) :
    Host.gather gather_S10000x256_S160000x1_S160000x256_1_0_n_n_0_1_1256 x idx (ix2 e k)
      = x (ix2 (srcN ei e) k) := by
  have h := Cert.LibGS.gather2_apply (N := 10000) (K := 256) (E := 160000) (by decide)
    gather_S10000x256_S160000x1_S160000x256_1_0_n_n_0_1_1256_wf x idx e k
  refine h.trans (congrArg (fun n => x (ix2 n k)) (Fin.ext ?_))
  show min (idx (ix2 e 0)).toInt.toNat (10000 - 1) = min (srcW ei e).toInt.toNat (10000 - 1)
  rw [hidx]

/-- An accumulating row scatter into zeros, at the normalised destination words, of the masked source features:
    at node i and feature k it is the sum over the in-edges of i. -/
theorem scatter_sum (x : SX.Idx → EReal) (ei : SEI.Idx → BitVec 32) (et : SET.Idx → BitVec 32) (r : BitVec 32)
    (z : FVec Ideal S10000x256 .f32) (hz : ∀ (i : Fin 10000) (k : Fin 256), z (ix2 i k) = 0)
    (idx : S160000x1.Idx → BitVec 32) (hidx : ∀ e : Fin 160000, idx (ix2 e 0) = dstW ei e)
    (upd : FVec Ideal S160000x256 .f32)
    (hupd : ∀ (e : Fin 160000) (k : Fin 256), upd (ix2 e k) = x (ix2 (srcN ei e) k) * mask et r e)
    (i : Fin 10000) (k : Fin 256) :
    Host.scatterAdd scatter_S10000x256_S160000x1_S160000x256_1_0_0_1 z idx upd (ix2 i k)
      = relSum x ei et r i k := by
  have h := Cert.LibGS.scatterAdd2_apply (N := 10000) (K := 256) (E := 160000)
    scatter_S10000x256_S160000x1_S160000x256_1_0_0_1_wf z idx upd i k
    (fun e => (dstW ei e).toInt = (i.val : Int)) (fun e => by rw [hidx])
  unfold Host.scatterAdd
  rw [Ideal.hostScatterAdd_def, sdims2_eq, h]
  unfold relSum inEdges
  rw [hz i k, Finset.sum_congr rfl fun e _ => hupd e k]

/-- An accumulating scatter into zeros, at the normalised destination words, of the masks: at node i it is the
    number of in-edges of i of the relation, as a sum of masks. -/
theorem scatter_count (ei : SEI.Idx → BitVec 32) (et : SET.Idx → BitVec 32) (r : BitVec 32)
    (z : FVec Ideal S10000 .f32) (hz : ∀ i : Fin 10000, z (ix1 i) = 0)
    (idx : S160000x1.Idx → BitVec 32) (hidx : ∀ e : Fin 160000, idx (ix2 e 0) = dstW ei e)
    (upd : FVec Ideal S160000 .f32) (hupd : ∀ e : Fin 160000, upd (ix1 e) = mask et r e)
    (i : Fin 10000) :
    Host.scatterAdd scatter_S10000_S160000x1_S160000_n_0_0_1 z idx upd (ix1 i) = relCount ei et r i := by
  have h := Cert.LibGS.scatterAdd1_apply (N := 10000) (E := 160000)
    scatter_S10000_S160000x1_S160000_n_0_0_1_wf z idx upd i
    (fun e => (dstW ei e).toInt = (i.val : Int)) (fun e => by rw [hidx])
  unfold Host.scatterAdd
  rw [Ideal.hostScatterAdd_def, sdims1_eq, h]
  unfold relCount inEdges
  rw [hz i, Finset.sum_congr rfl fun e _ => hupd e]

/-! ## The raw endpoint words -/

/-- Row 0 of the endpoint array, flattened: the raw source word of edge e. -/
theorem word_src (ei : SEI.Idx → BitVec 32) (e : Fin 160000) :
    val_main_v1 (F := Ideal) ei (ix1 e) = ei (ix2 0 e) := by
  have hi : idx_main_v0 (idx_main_v1 (ix1 e)) = ix2 (0 : Fin 2) e := funext fun a => Fin.ext (by
    have he := e.isLt
    match a with
    | ⟨0, _⟩ => rfl
    | ⟨1, _⟩ => show e.val % 160000 = e.val; omega)
  rw [val_main_v1_apply, val_main_v0_apply, hi]

/-- Row 1 of the endpoint array, flattened: the raw destination word of edge e. -/
theorem word_dst (ei : SEI.Idx → BitVec 32) (e : Fin 160000) :
    val_main_v3 (F := Ideal) ei (ix1 e) = ei (ix2 1 e) := by
  have hi : idx_main_v2 (idx_main_v3 (ix1 e)) = ix2 (1 : Fin 2) e := funext fun a => Fin.ext (by
    have he := e.isLt
    match a with
    | ⟨0, _⟩ => rfl
    | ⟨1, _⟩ => show e.val % 160000 = e.val; omega)
  rw [val_main_v3_apply, val_main_v2_apply, hi]

/-! ## Relation 0 -/

/-- The mask of relation 0: one on the edges whose raw type word is 0. -/
theorem mask_0 (et : SET.Idx → BitVec 32) (e : Fin 160000) :
    val_main_v7 (F := Ideal) et (ix1 e) = mask et (BitVec.ofNat 32 (0 : Fin 8).val) e := by
  rw [val_main_v7_apply, val_main_v6_apply, val_main_v5_apply, val_main_c_apply]
  rfl

/-- The gather's index words are the normalised source words. -/
theorem src_0 (ei : SEI.Idx → BitVec 32) (e : Fin 160000) :
    val_main_v13 (F := Ideal) ei (ix2 e 0) = srcW ei e := by
  have hi : idx_main_v13 (ix2 e (0 : Fin 1)) = ix1 e := funext fun a => Fin.ext (by match a with | ⟨0, _⟩ => rfl)
  rw [val_main_v13_apply, hi, val_main_v12_apply, val_main_v9_apply, val_main_v11_apply, val_main_v8_apply, val_main_c_0_apply, val_main_v10_apply, val_main_c_1_apply, word_src]
  rfl

/-- The first scatter's index words are the normalised destination words. -/
theorem dsta_0 (ei : SEI.Idx → BitVec 32) (e : Fin 160000) :
    val_main_v24 (F := Ideal) ei (ix2 e 0) = dstW ei e := by
  have hi : idx_main_v24 (ix2 e (0 : Fin 1)) = ix1 e := funext fun a => Fin.ext (by match a with | ⟨0, _⟩ => rfl)
  rw [val_main_v24_apply, hi, val_main_v23_apply, val_main_v20_apply, val_main_v22_apply, val_main_v19_apply, val_main_c_3_apply, val_main_v21_apply, val_main_c_4_apply, word_dst]
  rfl

/-- So are the second scatter's. -/
theorem dstb_0 (ei : SEI.Idx → BitVec 32) (e : Fin 160000) :
    val_main_v32 (F := Ideal) ei (ix2 e 0) = dstW ei e := by
  have hi : idx_main_v32 (ix2 e (0 : Fin 1)) = ix1 e := funext fun a => Fin.ext (by match a with | ⟨0, _⟩ => rfl)
  rw [val_main_v32_apply, hi, val_main_v31_apply, val_main_v28_apply, val_main_v30_apply, val_main_v27_apply, val_main_c_6_apply, val_main_v29_apply, val_main_c_7_apply, word_dst]
  rfl

/-- The gathered rows: the features of each edge's source node. -/
theorem gath_0 (x : SX.Idx → EReal) (ei : SEI.Idx → BitVec 32) (e : Fin 160000) (k : Fin 256) :
    val_main_v14 (F := Ideal) x ei (ix2 e k) = x (ix2 (srcN ei e) k) := by
  unfold val_main_v14
  exact gather_src x ei _ (src_0 ei) e k

/-- The masked rows. -/
theorem prod_0 (x : SX.Idx → EReal) (ei : SEI.Idx → BitVec 32) (et : SET.Idx → BitVec 32)
    (e : Fin 160000) (k : Fin 256) :
    val_main_v17 (F := Ideal) x ei et (ix2 e k) = x (ix2 (srcN ei e) k) * mask et (BitVec.ofNat 32 (0 : Fin 8).val) e := by
  have hi : idx_main_v15 (idx_main_v16 (ix2 e k)) = ix1 e := funext fun a => Fin.ext (by match a with | ⟨0, _⟩ => rfl)
  rw [val_main_v17_apply, gath_0, val_main_v16_apply, val_main_v15_apply, hi, mask_0]
  rfl

/-- The array of zeros the row scatter accumulates onto. -/
theorem zeroa_0 (i : Fin 10000) (k : Fin 256) : val_main_v18 (F := Ideal) (ix2 i k) = 0 := by
  rw [val_main_v18_apply, val_main_cst_2_apply]
  exact Ideal.ofBits_zero_f32

/-- The array of zeros the count scatter accumulates onto. -/
theorem zerob_0 (i : Fin 10000) : val_main_v26 (F := Ideal) (ix1 i) = 0 := by
  rw [val_main_v26_apply, val_main_cst_5_apply]
  exact Ideal.ofBits_zero_f32

/-- The scattered sums: over the in-edges of node i, the masked source features. -/
theorem sum_0 (x : SX.Idx → EReal) (ei : SEI.Idx → BitVec 32) (et : SET.Idx → BitVec 32)
    (i : Fin 10000) (k : Fin 256) :
    val_main_v25 (F := Ideal) x ei et (ix2 i k) = relSum x ei et (BitVec.ofNat 32 (0 : Fin 8).val) i k := by
  unfold val_main_v25
  exact scatter_sum x ei et _ _ zeroa_0 _ (dsta_0 ei) _ (prod_0 x ei et) i k

/-- The scattered masks: the number of in-edges of node i of relation 0. -/
theorem cnt_0 (ei : SEI.Idx → BitVec 32) (et : SET.Idx → BitVec 32) (i : Fin 10000) :
    val_main_v33 (F := Ideal) ei et (ix1 i) = relCount ei et (BitVec.ofNat 32 (0 : Fin 8).val) i := by
  unfold val_main_v33
  exact scatter_count ei et _ _ zerob_0 _ (dstb_0 ei) _ (mask_0 et) i

/-- The count clipped below at one. -/
theorem clip_0 (ei : SEI.Idx → BitVec 32) (et : SET.Idx → BitVec 32) (i : Fin 10000) :
    val_main_v34 (F := Ideal) ei et (ix1 i) = max 1 (relCount ei et (BitVec.ofNat 32 (0 : Fin 8).val) i) := by
  rw [val_main_v34_apply, cnt_0, val_main_call0_v1_apply, val_main_call0_v0_apply, val_main_cst_8_apply]
  simp only [Ideal.maximumf_def, Ideal.ofBits_def, Ideal.ofBits_one_f32]

/-- The mean of the source features over the in-edges of relation 0. -/
theorem quot_0 (x : SX.Idx → EReal) (ei : SEI.Idx → BitVec 32) (et : SET.Idx → BitVec 32)
    (i : Fin 10000) (k : Fin 256) :
    val_main_v37 (F := Ideal) x ei et (ix2 i k)
      = Ideal.div (relSum x ei et (BitVec.ofNat 32 (0 : Fin 8).val) i k) (max 1 (relCount ei et (BitVec.ofNat 32 (0 : Fin 8).val) i)) := by
  have hi : idx_main_v35 (idx_main_v36 (ix2 i k)) = ix1 i := funext fun a => Fin.ext (by match a with | ⟨0, _⟩ => rfl)
  rw [val_main_v37_apply, sum_0, val_main_v36_apply, val_main_v35_apply, hi, clip_0]
  rfl

/-- The weight matrix of relation 0. -/
theorem wsl_0 (W : SW.Idx → EReal) (k d : Fin 256) :
    val_main_v39 (F := Ideal) W (ix2 k d) = W (ix3 (0 : Fin 8) k d) := by
  have hi : idx_main_v38 (idx_main_v39 (ix2 k d)) = ix3 (0 : Fin 8) k d := funext fun a => Fin.ext (by
    have hk := k.isLt
    have hd := d.isLt
    match a with
    | ⟨0, _⟩ => rfl
    | ⟨1, _⟩ => show (k.val * 256 + d.val) / 256 % 256 = k.val; omega
    | ⟨2, _⟩ => show (k.val * 256 + d.val) % 256 = d.val; omega)
  rw [val_main_v39_apply, val_main_v38_apply, hi]

/-- The contribution of relation 0: the mean row times the relation's weight matrix. -/
theorem term_0 (x : SX.Idx → EReal) (ei : SEI.Idx → BitVec 32) (et : SET.Idx → BitVec 32)
    (W : SW.Idx → EReal) (i : Fin 10000) (d : Fin 256) :
    val_main_v40 (F := Ideal) x ei et W (ix2 i d) = relTerm x ei et W 0 i d := by
  rw [val_main_v40_apply]
  unfold relTerm
  refine Finset.sum_congr rfl fun k _ => ?_
  have hl : lidx_main_v40 (ix2 i d) k = ix2 i k :=
    funext fun a => Fin.ext (by match a with | ⟨0, _⟩ => rfl | ⟨1, _⟩ => rfl)
  have hr : ridx_main_v40 (ix2 i d) k = ix2 k d :=
    funext fun a => Fin.ext (by match a with | ⟨0, _⟩ => rfl | ⟨1, _⟩ => rfl)
  rw [hl, hr, quot_0, wsl_0]

/-- The running sum after relation 0. -/
theorem acc_0 (x : SX.Idx → EReal) (ei : SEI.Idx → BitVec 32) (et : SET.Idx → BitVec 32)
    (W : SW.Idx → EReal) (i : Fin 10000) (d : Fin 256) :
    val_main_v41 (F := Ideal) x ei et W (ix2 i d) = (0 + relTerm x ei et W 0 i d) := by
  rw [val_main_v41_apply, val_main_v4_apply, val_main_cst_apply, term_0]
  rw [Ideal.addf_def, Ideal.ofBits_def, Ideal.ofBits_zero_f32]

/-! ## Relation 1 -/

/-- The mask of relation 1: one on the edges whose raw type word is 1. -/
theorem mask_1 (et : SET.Idx → BitVec 32) (e : Fin 160000) :
    val_main_v44 (F := Ideal) et (ix1 e) = mask et (BitVec.ofNat 32 (1 : Fin 8).val) e := by
  rw [val_main_v44_apply, val_main_v43_apply, val_main_v42_apply, val_main_c_9_apply]
  rfl

/-- The gather's index words are the normalised source words. -/
theorem src_1 (ei : SEI.Idx → BitVec 32) (e : Fin 160000) :
    val_main_v50 (F := Ideal) ei (ix2 e 0) = srcW ei e := by
  have hi : idx_main_v50 (ix2 e (0 : Fin 1)) = ix1 e := funext fun a => Fin.ext (by match a with | ⟨0, _⟩ => rfl)
  rw [val_main_v50_apply, hi, val_main_v49_apply, val_main_v46_apply, val_main_v48_apply, val_main_v45_apply, val_main_c_10_apply, val_main_v47_apply, val_main_c_11_apply, word_src]
  rfl

/-- The first scatter's index words are the normalised destination words. -/
theorem dsta_1 (ei : SEI.Idx → BitVec 32) (e : Fin 160000) :
    val_main_v61 (F := Ideal) ei (ix2 e 0) = dstW ei e := by
  have hi : idx_main_v61 (ix2 e (0 : Fin 1)) = ix1 e := funext fun a => Fin.ext (by match a with | ⟨0, _⟩ => rfl)
  rw [val_main_v61_apply, hi, val_main_v60_apply, val_main_v57_apply, val_main_v59_apply, val_main_v56_apply, val_main_c_13_apply, val_main_v58_apply, val_main_c_14_apply, word_dst]
  rfl

/-- So are the second scatter's. -/
theorem dstb_1 (ei : SEI.Idx → BitVec 32) (e : Fin 160000) :
    val_main_v69 (F := Ideal) ei (ix2 e 0) = dstW ei e := by
  have hi : idx_main_v69 (ix2 e (0 : Fin 1)) = ix1 e := funext fun a => Fin.ext (by match a with | ⟨0, _⟩ => rfl)
  rw [val_main_v69_apply, hi, val_main_v68_apply, val_main_v65_apply, val_main_v67_apply, val_main_v64_apply, val_main_c_16_apply, val_main_v66_apply, val_main_c_17_apply, word_dst]
  rfl

/-- The gathered rows: the features of each edge's source node. -/
theorem gath_1 (x : SX.Idx → EReal) (ei : SEI.Idx → BitVec 32) (e : Fin 160000) (k : Fin 256) :
    val_main_v51 (F := Ideal) x ei (ix2 e k) = x (ix2 (srcN ei e) k) := by
  unfold val_main_v51
  exact gather_src x ei _ (src_1 ei) e k

/-- The masked rows. -/
theorem prod_1 (x : SX.Idx → EReal) (ei : SEI.Idx → BitVec 32) (et : SET.Idx → BitVec 32)
    (e : Fin 160000) (k : Fin 256) :
    val_main_v54 (F := Ideal) x ei et (ix2 e k) = x (ix2 (srcN ei e) k) * mask et (BitVec.ofNat 32 (1 : Fin 8).val) e := by
  have hi : idx_main_v52 (idx_main_v53 (ix2 e k)) = ix1 e := funext fun a => Fin.ext (by match a with | ⟨0, _⟩ => rfl)
  rw [val_main_v54_apply, gath_1, val_main_v53_apply, val_main_v52_apply, hi, mask_1]
  rfl

/-- The array of zeros the row scatter accumulates onto. -/
theorem zeroa_1 (i : Fin 10000) (k : Fin 256) : val_main_v55 (F := Ideal) (ix2 i k) = 0 := by
  rw [val_main_v55_apply, val_main_cst_12_apply]
  exact Ideal.ofBits_zero_f32

/-- The array of zeros the count scatter accumulates onto. -/
theorem zerob_1 (i : Fin 10000) : val_main_v63 (F := Ideal) (ix1 i) = 0 := by
  rw [val_main_v63_apply, val_main_cst_15_apply]
  exact Ideal.ofBits_zero_f32

/-- The scattered sums: over the in-edges of node i, the masked source features. -/
theorem sum_1 (x : SX.Idx → EReal) (ei : SEI.Idx → BitVec 32) (et : SET.Idx → BitVec 32)
    (i : Fin 10000) (k : Fin 256) :
    val_main_v62 (F := Ideal) x ei et (ix2 i k) = relSum x ei et (BitVec.ofNat 32 (1 : Fin 8).val) i k := by
  unfold val_main_v62
  exact scatter_sum x ei et _ _ zeroa_1 _ (dsta_1 ei) _ (prod_1 x ei et) i k

/-- The scattered masks: the number of in-edges of node i of relation 1. -/
theorem cnt_1 (ei : SEI.Idx → BitVec 32) (et : SET.Idx → BitVec 32) (i : Fin 10000) :
    val_main_v70 (F := Ideal) ei et (ix1 i) = relCount ei et (BitVec.ofNat 32 (1 : Fin 8).val) i := by
  unfold val_main_v70
  exact scatter_count ei et _ _ zerob_1 _ (dstb_1 ei) _ (mask_1 et) i

/-- The count clipped below at one. -/
theorem clip_1 (ei : SEI.Idx → BitVec 32) (et : SET.Idx → BitVec 32) (i : Fin 10000) :
    val_main_v71 (F := Ideal) ei et (ix1 i) = max 1 (relCount ei et (BitVec.ofNat 32 (1 : Fin 8).val) i) := by
  rw [val_main_v71_apply, cnt_1, val_main_call1_v1_apply, val_main_call1_v0_apply, val_main_cst_18_apply]
  simp only [Ideal.maximumf_def, Ideal.ofBits_def, Ideal.ofBits_one_f32]

/-- The mean of the source features over the in-edges of relation 1. -/
theorem quot_1 (x : SX.Idx → EReal) (ei : SEI.Idx → BitVec 32) (et : SET.Idx → BitVec 32)
    (i : Fin 10000) (k : Fin 256) :
    val_main_v74 (F := Ideal) x ei et (ix2 i k)
      = Ideal.div (relSum x ei et (BitVec.ofNat 32 (1 : Fin 8).val) i k) (max 1 (relCount ei et (BitVec.ofNat 32 (1 : Fin 8).val) i)) := by
  have hi : idx_main_v72 (idx_main_v73 (ix2 i k)) = ix1 i := funext fun a => Fin.ext (by match a with | ⟨0, _⟩ => rfl)
  rw [val_main_v74_apply, sum_1, val_main_v73_apply, val_main_v72_apply, hi, clip_1]
  rfl

/-- The weight matrix of relation 1. -/
theorem wsl_1 (W : SW.Idx → EReal) (k d : Fin 256) :
    val_main_v76 (F := Ideal) W (ix2 k d) = W (ix3 (1 : Fin 8) k d) := by
  have hi : idx_main_v75 (idx_main_v76 (ix2 k d)) = ix3 (1 : Fin 8) k d := funext fun a => Fin.ext (by
    have hk := k.isLt
    have hd := d.isLt
    match a with
    | ⟨0, _⟩ => rfl
    | ⟨1, _⟩ => show (k.val * 256 + d.val) / 256 % 256 = k.val; omega
    | ⟨2, _⟩ => show (k.val * 256 + d.val) % 256 = d.val; omega)
  rw [val_main_v76_apply, val_main_v75_apply, hi]

/-- The contribution of relation 1: the mean row times the relation's weight matrix. -/
theorem term_1 (x : SX.Idx → EReal) (ei : SEI.Idx → BitVec 32) (et : SET.Idx → BitVec 32)
    (W : SW.Idx → EReal) (i : Fin 10000) (d : Fin 256) :
    val_main_v77 (F := Ideal) x ei et W (ix2 i d) = relTerm x ei et W 1 i d := by
  rw [val_main_v77_apply]
  unfold relTerm
  refine Finset.sum_congr rfl fun k _ => ?_
  have hl : lidx_main_v77 (ix2 i d) k = ix2 i k :=
    funext fun a => Fin.ext (by match a with | ⟨0, _⟩ => rfl | ⟨1, _⟩ => rfl)
  have hr : ridx_main_v77 (ix2 i d) k = ix2 k d :=
    funext fun a => Fin.ext (by match a with | ⟨0, _⟩ => rfl | ⟨1, _⟩ => rfl)
  rw [hl, hr, quot_1, wsl_1]

/-- The running sum after relation 1. -/
theorem acc_1 (x : SX.Idx → EReal) (ei : SEI.Idx → BitVec 32) (et : SET.Idx → BitVec 32)
    (W : SW.Idx → EReal) (i : Fin 10000) (d : Fin 256) :
    val_main_v78 (F := Ideal) x ei et W (ix2 i d) = ((0 + relTerm x ei et W 0 i d) + relTerm x ei et W 1 i d) := by
  rw [val_main_v78_apply, acc_0, term_1]
  rfl

/-! ## Relation 2 -/

/-- The mask of relation 2: one on the edges whose raw type word is 2. -/
theorem mask_2 (et : SET.Idx → BitVec 32) (e : Fin 160000) :
    val_main_v81 (F := Ideal) et (ix1 e) = mask et (BitVec.ofNat 32 (2 : Fin 8).val) e := by
  rw [val_main_v81_apply, val_main_v80_apply, val_main_v79_apply, val_main_c_19_apply]
  rfl

/-- The gather's index words are the normalised source words. -/
theorem src_2 (ei : SEI.Idx → BitVec 32) (e : Fin 160000) :
    val_main_v87 (F := Ideal) ei (ix2 e 0) = srcW ei e := by
  have hi : idx_main_v87 (ix2 e (0 : Fin 1)) = ix1 e := funext fun a => Fin.ext (by match a with | ⟨0, _⟩ => rfl)
  rw [val_main_v87_apply, hi, val_main_v86_apply, val_main_v83_apply, val_main_v85_apply, val_main_v82_apply, val_main_c_20_apply, val_main_v84_apply, val_main_c_21_apply, word_src]
  rfl

/-- The first scatter's index words are the normalised destination words. -/
theorem dsta_2 (ei : SEI.Idx → BitVec 32) (e : Fin 160000) :
    val_main_v98 (F := Ideal) ei (ix2 e 0) = dstW ei e := by
  have hi : idx_main_v98 (ix2 e (0 : Fin 1)) = ix1 e := funext fun a => Fin.ext (by match a with | ⟨0, _⟩ => rfl)
  rw [val_main_v98_apply, hi, val_main_v97_apply, val_main_v94_apply, val_main_v96_apply, val_main_v93_apply, val_main_c_23_apply, val_main_v95_apply, val_main_c_24_apply, word_dst]
  rfl

/-- So are the second scatter's. -/
theorem dstb_2 (ei : SEI.Idx → BitVec 32) (e : Fin 160000) :
    val_main_v106 (F := Ideal) ei (ix2 e 0) = dstW ei e := by
  have hi : idx_main_v106 (ix2 e (0 : Fin 1)) = ix1 e := funext fun a => Fin.ext (by match a with | ⟨0, _⟩ => rfl)
  rw [val_main_v106_apply, hi, val_main_v105_apply, val_main_v102_apply, val_main_v104_apply, val_main_v101_apply, val_main_c_26_apply, val_main_v103_apply, val_main_c_27_apply, word_dst]
  rfl

/-- The gathered rows: the features of each edge's source node. -/
theorem gath_2 (x : SX.Idx → EReal) (ei : SEI.Idx → BitVec 32) (e : Fin 160000) (k : Fin 256) :
    val_main_v88 (F := Ideal) x ei (ix2 e k) = x (ix2 (srcN ei e) k) := by
  unfold val_main_v88
  exact gather_src x ei _ (src_2 ei) e k

/-- The masked rows. -/
theorem prod_2 (x : SX.Idx → EReal) (ei : SEI.Idx → BitVec 32) (et : SET.Idx → BitVec 32)
    (e : Fin 160000) (k : Fin 256) :
    val_main_v91 (F := Ideal) x ei et (ix2 e k) = x (ix2 (srcN ei e) k) * mask et (BitVec.ofNat 32 (2 : Fin 8).val) e := by
  have hi : idx_main_v89 (idx_main_v90 (ix2 e k)) = ix1 e := funext fun a => Fin.ext (by match a with | ⟨0, _⟩ => rfl)
  rw [val_main_v91_apply, gath_2, val_main_v90_apply, val_main_v89_apply, hi, mask_2]
  rfl

/-- The array of zeros the row scatter accumulates onto. -/
theorem zeroa_2 (i : Fin 10000) (k : Fin 256) : val_main_v92 (F := Ideal) (ix2 i k) = 0 := by
  rw [val_main_v92_apply, val_main_cst_22_apply]
  exact Ideal.ofBits_zero_f32

/-- The array of zeros the count scatter accumulates onto. -/
theorem zerob_2 (i : Fin 10000) : val_main_v100 (F := Ideal) (ix1 i) = 0 := by
  rw [val_main_v100_apply, val_main_cst_25_apply]
  exact Ideal.ofBits_zero_f32

/-- The scattered sums: over the in-edges of node i, the masked source features. -/
theorem sum_2 (x : SX.Idx → EReal) (ei : SEI.Idx → BitVec 32) (et : SET.Idx → BitVec 32)
    (i : Fin 10000) (k : Fin 256) :
    val_main_v99 (F := Ideal) x ei et (ix2 i k) = relSum x ei et (BitVec.ofNat 32 (2 : Fin 8).val) i k := by
  unfold val_main_v99
  exact scatter_sum x ei et _ _ zeroa_2 _ (dsta_2 ei) _ (prod_2 x ei et) i k

/-- The scattered masks: the number of in-edges of node i of relation 2. -/
theorem cnt_2 (ei : SEI.Idx → BitVec 32) (et : SET.Idx → BitVec 32) (i : Fin 10000) :
    val_main_v107 (F := Ideal) ei et (ix1 i) = relCount ei et (BitVec.ofNat 32 (2 : Fin 8).val) i := by
  unfold val_main_v107
  exact scatter_count ei et _ _ zerob_2 _ (dstb_2 ei) _ (mask_2 et) i

/-- The count clipped below at one. -/
theorem clip_2 (ei : SEI.Idx → BitVec 32) (et : SET.Idx → BitVec 32) (i : Fin 10000) :
    val_main_v108 (F := Ideal) ei et (ix1 i) = max 1 (relCount ei et (BitVec.ofNat 32 (2 : Fin 8).val) i) := by
  rw [val_main_v108_apply, cnt_2, val_main_call2_v1_apply, val_main_call2_v0_apply, val_main_cst_28_apply]
  simp only [Ideal.maximumf_def, Ideal.ofBits_def, Ideal.ofBits_one_f32]

/-- The mean of the source features over the in-edges of relation 2. -/
theorem quot_2 (x : SX.Idx → EReal) (ei : SEI.Idx → BitVec 32) (et : SET.Idx → BitVec 32)
    (i : Fin 10000) (k : Fin 256) :
    val_main_v111 (F := Ideal) x ei et (ix2 i k)
      = Ideal.div (relSum x ei et (BitVec.ofNat 32 (2 : Fin 8).val) i k) (max 1 (relCount ei et (BitVec.ofNat 32 (2 : Fin 8).val) i)) := by
  have hi : idx_main_v109 (idx_main_v110 (ix2 i k)) = ix1 i := funext fun a => Fin.ext (by match a with | ⟨0, _⟩ => rfl)
  rw [val_main_v111_apply, sum_2, val_main_v110_apply, val_main_v109_apply, hi, clip_2]
  rfl

/-- The weight matrix of relation 2. -/
theorem wsl_2 (W : SW.Idx → EReal) (k d : Fin 256) :
    val_main_v113 (F := Ideal) W (ix2 k d) = W (ix3 (2 : Fin 8) k d) := by
  have hi : idx_main_v112 (idx_main_v113 (ix2 k d)) = ix3 (2 : Fin 8) k d := funext fun a => Fin.ext (by
    have hk := k.isLt
    have hd := d.isLt
    match a with
    | ⟨0, _⟩ => rfl
    | ⟨1, _⟩ => show (k.val * 256 + d.val) / 256 % 256 = k.val; omega
    | ⟨2, _⟩ => show (k.val * 256 + d.val) % 256 = d.val; omega)
  rw [val_main_v113_apply, val_main_v112_apply, hi]

/-- The contribution of relation 2: the mean row times the relation's weight matrix. -/
theorem term_2 (x : SX.Idx → EReal) (ei : SEI.Idx → BitVec 32) (et : SET.Idx → BitVec 32)
    (W : SW.Idx → EReal) (i : Fin 10000) (d : Fin 256) :
    val_main_v114 (F := Ideal) x ei et W (ix2 i d) = relTerm x ei et W 2 i d := by
  rw [val_main_v114_apply]
  unfold relTerm
  refine Finset.sum_congr rfl fun k _ => ?_
  have hl : lidx_main_v114 (ix2 i d) k = ix2 i k :=
    funext fun a => Fin.ext (by match a with | ⟨0, _⟩ => rfl | ⟨1, _⟩ => rfl)
  have hr : ridx_main_v114 (ix2 i d) k = ix2 k d :=
    funext fun a => Fin.ext (by match a with | ⟨0, _⟩ => rfl | ⟨1, _⟩ => rfl)
  rw [hl, hr, quot_2, wsl_2]

/-- The running sum after relation 2. -/
theorem acc_2 (x : SX.Idx → EReal) (ei : SEI.Idx → BitVec 32) (et : SET.Idx → BitVec 32)
    (W : SW.Idx → EReal) (i : Fin 10000) (d : Fin 256) :
    val_main_v115 (F := Ideal) x ei et W (ix2 i d) = (((0 + relTerm x ei et W 0 i d) + relTerm x ei et W 1 i d) + relTerm x ei et W 2 i d) := by
  rw [val_main_v115_apply, acc_1, term_2]
  rfl

/-! ## Relation 3 -/

/-- The mask of relation 3: one on the edges whose raw type word is 3. -/
theorem mask_3 (et : SET.Idx → BitVec 32) (e : Fin 160000) :
    val_main_v118 (F := Ideal) et (ix1 e) = mask et (BitVec.ofNat 32 (3 : Fin 8).val) e := by
  rw [val_main_v118_apply, val_main_v117_apply, val_main_v116_apply, val_main_c_29_apply]
  rfl

/-- The gather's index words are the normalised source words. -/
theorem src_3 (ei : SEI.Idx → BitVec 32) (e : Fin 160000) :
    val_main_v124 (F := Ideal) ei (ix2 e 0) = srcW ei e := by
  have hi : idx_main_v124 (ix2 e (0 : Fin 1)) = ix1 e := funext fun a => Fin.ext (by match a with | ⟨0, _⟩ => rfl)
  rw [val_main_v124_apply, hi, val_main_v123_apply, val_main_v120_apply, val_main_v122_apply, val_main_v119_apply, val_main_c_30_apply, val_main_v121_apply, val_main_c_31_apply, word_src]
  rfl

/-- The first scatter's index words are the normalised destination words. -/
theorem dsta_3 (ei : SEI.Idx → BitVec 32) (e : Fin 160000) :
    val_main_v135 (F := Ideal) ei (ix2 e 0) = dstW ei e := by
  have hi : idx_main_v135 (ix2 e (0 : Fin 1)) = ix1 e := funext fun a => Fin.ext (by match a with | ⟨0, _⟩ => rfl)
  rw [val_main_v135_apply, hi, val_main_v134_apply, val_main_v131_apply, val_main_v133_apply, val_main_v130_apply, val_main_c_33_apply, val_main_v132_apply, val_main_c_34_apply, word_dst]
  rfl

/-- So are the second scatter's. -/
theorem dstb_3 (ei : SEI.Idx → BitVec 32) (e : Fin 160000) :
    val_main_v143 (F := Ideal) ei (ix2 e 0) = dstW ei e := by
  have hi : idx_main_v143 (ix2 e (0 : Fin 1)) = ix1 e := funext fun a => Fin.ext (by match a with | ⟨0, _⟩ => rfl)
  rw [val_main_v143_apply, hi, val_main_v142_apply, val_main_v139_apply, val_main_v141_apply, val_main_v138_apply, val_main_c_36_apply, val_main_v140_apply, val_main_c_37_apply, word_dst]
  rfl

/-- The gathered rows: the features of each edge's source node. -/
theorem gath_3 (x : SX.Idx → EReal) (ei : SEI.Idx → BitVec 32) (e : Fin 160000) (k : Fin 256) :
    val_main_v125 (F := Ideal) x ei (ix2 e k) = x (ix2 (srcN ei e) k) := by
  unfold val_main_v125
  exact gather_src x ei _ (src_3 ei) e k

/-- The masked rows. -/
theorem prod_3 (x : SX.Idx → EReal) (ei : SEI.Idx → BitVec 32) (et : SET.Idx → BitVec 32)
    (e : Fin 160000) (k : Fin 256) :
    val_main_v128 (F := Ideal) x ei et (ix2 e k) = x (ix2 (srcN ei e) k) * mask et (BitVec.ofNat 32 (3 : Fin 8).val) e := by
  have hi : idx_main_v126 (idx_main_v127 (ix2 e k)) = ix1 e := funext fun a => Fin.ext (by match a with | ⟨0, _⟩ => rfl)
  rw [val_main_v128_apply, gath_3, val_main_v127_apply, val_main_v126_apply, hi, mask_3]
  rfl

/-- The array of zeros the row scatter accumulates onto. -/
theorem zeroa_3 (i : Fin 10000) (k : Fin 256) : val_main_v129 (F := Ideal) (ix2 i k) = 0 := by
  rw [val_main_v129_apply, val_main_cst_32_apply]
  exact Ideal.ofBits_zero_f32

/-- The array of zeros the count scatter accumulates onto. -/
theorem zerob_3 (i : Fin 10000) : val_main_v137 (F := Ideal) (ix1 i) = 0 := by
  rw [val_main_v137_apply, val_main_cst_35_apply]
  exact Ideal.ofBits_zero_f32

/-- The scattered sums: over the in-edges of node i, the masked source features. -/
theorem sum_3 (x : SX.Idx → EReal) (ei : SEI.Idx → BitVec 32) (et : SET.Idx → BitVec 32)
    (i : Fin 10000) (k : Fin 256) :
    val_main_v136 (F := Ideal) x ei et (ix2 i k) = relSum x ei et (BitVec.ofNat 32 (3 : Fin 8).val) i k := by
  unfold val_main_v136
  exact scatter_sum x ei et _ _ zeroa_3 _ (dsta_3 ei) _ (prod_3 x ei et) i k

/-- The scattered masks: the number of in-edges of node i of relation 3. -/
theorem cnt_3 (ei : SEI.Idx → BitVec 32) (et : SET.Idx → BitVec 32) (i : Fin 10000) :
    val_main_v144 (F := Ideal) ei et (ix1 i) = relCount ei et (BitVec.ofNat 32 (3 : Fin 8).val) i := by
  unfold val_main_v144
  exact scatter_count ei et _ _ zerob_3 _ (dstb_3 ei) _ (mask_3 et) i

/-- The count clipped below at one. -/
theorem clip_3 (ei : SEI.Idx → BitVec 32) (et : SET.Idx → BitVec 32) (i : Fin 10000) :
    val_main_v145 (F := Ideal) ei et (ix1 i) = max 1 (relCount ei et (BitVec.ofNat 32 (3 : Fin 8).val) i) := by
  rw [val_main_v145_apply, cnt_3, val_main_call3_v1_apply, val_main_call3_v0_apply, val_main_cst_38_apply]
  simp only [Ideal.maximumf_def, Ideal.ofBits_def, Ideal.ofBits_one_f32]

/-- The mean of the source features over the in-edges of relation 3. -/
theorem quot_3 (x : SX.Idx → EReal) (ei : SEI.Idx → BitVec 32) (et : SET.Idx → BitVec 32)
    (i : Fin 10000) (k : Fin 256) :
    val_main_v148 (F := Ideal) x ei et (ix2 i k)
      = Ideal.div (relSum x ei et (BitVec.ofNat 32 (3 : Fin 8).val) i k) (max 1 (relCount ei et (BitVec.ofNat 32 (3 : Fin 8).val) i)) := by
  have hi : idx_main_v146 (idx_main_v147 (ix2 i k)) = ix1 i := funext fun a => Fin.ext (by match a with | ⟨0, _⟩ => rfl)
  rw [val_main_v148_apply, sum_3, val_main_v147_apply, val_main_v146_apply, hi, clip_3]
  rfl

/-- The weight matrix of relation 3. -/
theorem wsl_3 (W : SW.Idx → EReal) (k d : Fin 256) :
    val_main_v150 (F := Ideal) W (ix2 k d) = W (ix3 (3 : Fin 8) k d) := by
  have hi : idx_main_v149 (idx_main_v150 (ix2 k d)) = ix3 (3 : Fin 8) k d := funext fun a => Fin.ext (by
    have hk := k.isLt
    have hd := d.isLt
    match a with
    | ⟨0, _⟩ => rfl
    | ⟨1, _⟩ => show (k.val * 256 + d.val) / 256 % 256 = k.val; omega
    | ⟨2, _⟩ => show (k.val * 256 + d.val) % 256 = d.val; omega)
  rw [val_main_v150_apply, val_main_v149_apply, hi]

/-- The contribution of relation 3: the mean row times the relation's weight matrix. -/
theorem term_3 (x : SX.Idx → EReal) (ei : SEI.Idx → BitVec 32) (et : SET.Idx → BitVec 32)
    (W : SW.Idx → EReal) (i : Fin 10000) (d : Fin 256) :
    val_main_v151 (F := Ideal) x ei et W (ix2 i d) = relTerm x ei et W 3 i d := by
  rw [val_main_v151_apply]
  unfold relTerm
  refine Finset.sum_congr rfl fun k _ => ?_
  have hl : lidx_main_v151 (ix2 i d) k = ix2 i k :=
    funext fun a => Fin.ext (by match a with | ⟨0, _⟩ => rfl | ⟨1, _⟩ => rfl)
  have hr : ridx_main_v151 (ix2 i d) k = ix2 k d :=
    funext fun a => Fin.ext (by match a with | ⟨0, _⟩ => rfl | ⟨1, _⟩ => rfl)
  rw [hl, hr, quot_3, wsl_3]

/-- The running sum after relation 3. -/
theorem acc_3 (x : SX.Idx → EReal) (ei : SEI.Idx → BitVec 32) (et : SET.Idx → BitVec 32)
    (W : SW.Idx → EReal) (i : Fin 10000) (d : Fin 256) :
    val_main_v152 (F := Ideal) x ei et W (ix2 i d) = ((((0 + relTerm x ei et W 0 i d) + relTerm x ei et W 1 i d) + relTerm x ei et W 2 i d) + relTerm x ei et W 3 i d) := by
  rw [val_main_v152_apply, acc_2, term_3]
  rfl

/-! ## Relation 4 -/

/-- The mask of relation 4: one on the edges whose raw type word is 4. -/
theorem mask_4 (et : SET.Idx → BitVec 32) (e : Fin 160000) :
    val_main_v155 (F := Ideal) et (ix1 e) = mask et (BitVec.ofNat 32 (4 : Fin 8).val) e := by
  rw [val_main_v155_apply, val_main_v154_apply, val_main_v153_apply, val_main_c_39_apply]
  rfl

/-- The gather's index words are the normalised source words. -/
theorem src_4 (ei : SEI.Idx → BitVec 32) (e : Fin 160000) :
    val_main_v161 (F := Ideal) ei (ix2 e 0) = srcW ei e := by
  have hi : idx_main_v161 (ix2 e (0 : Fin 1)) = ix1 e := funext fun a => Fin.ext (by match a with | ⟨0, _⟩ => rfl)
  rw [val_main_v161_apply, hi, val_main_v160_apply, val_main_v157_apply, val_main_v159_apply, val_main_v156_apply, val_main_c_40_apply, val_main_v158_apply, val_main_c_41_apply, word_src]
  rfl

/-- The first scatter's index words are the normalised destination words. -/
theorem dsta_4 (ei : SEI.Idx → BitVec 32) (e : Fin 160000) :
    val_main_v172 (F := Ideal) ei (ix2 e 0) = dstW ei e := by
  have hi : idx_main_v172 (ix2 e (0 : Fin 1)) = ix1 e := funext fun a => Fin.ext (by match a with | ⟨0, _⟩ => rfl)
  rw [val_main_v172_apply, hi, val_main_v171_apply, val_main_v168_apply, val_main_v170_apply, val_main_v167_apply, val_main_c_43_apply, val_main_v169_apply, val_main_c_44_apply, word_dst]
  rfl

/-- So are the second scatter's. -/
theorem dstb_4 (ei : SEI.Idx → BitVec 32) (e : Fin 160000) :
    val_main_v180 (F := Ideal) ei (ix2 e 0) = dstW ei e := by
  have hi : idx_main_v180 (ix2 e (0 : Fin 1)) = ix1 e := funext fun a => Fin.ext (by match a with | ⟨0, _⟩ => rfl)
  rw [val_main_v180_apply, hi, val_main_v179_apply, val_main_v176_apply, val_main_v178_apply, val_main_v175_apply, val_main_c_46_apply, val_main_v177_apply, val_main_c_47_apply, word_dst]
  rfl

/-- The gathered rows: the features of each edge's source node. -/
theorem gath_4 (x : SX.Idx → EReal) (ei : SEI.Idx → BitVec 32) (e : Fin 160000) (k : Fin 256) :
    val_main_v162 (F := Ideal) x ei (ix2 e k) = x (ix2 (srcN ei e) k) := by
  unfold val_main_v162
  exact gather_src x ei _ (src_4 ei) e k

/-- The masked rows. -/
theorem prod_4 (x : SX.Idx → EReal) (ei : SEI.Idx → BitVec 32) (et : SET.Idx → BitVec 32)
    (e : Fin 160000) (k : Fin 256) :
    val_main_v165 (F := Ideal) x ei et (ix2 e k) = x (ix2 (srcN ei e) k) * mask et (BitVec.ofNat 32 (4 : Fin 8).val) e := by
  have hi : idx_main_v163 (idx_main_v164 (ix2 e k)) = ix1 e := funext fun a => Fin.ext (by match a with | ⟨0, _⟩ => rfl)
  rw [val_main_v165_apply, gath_4, val_main_v164_apply, val_main_v163_apply, hi, mask_4]
  rfl

/-- The array of zeros the row scatter accumulates onto. -/
theorem zeroa_4 (i : Fin 10000) (k : Fin 256) : val_main_v166 (F := Ideal) (ix2 i k) = 0 := by
  rw [val_main_v166_apply, val_main_cst_42_apply]
  exact Ideal.ofBits_zero_f32

/-- The array of zeros the count scatter accumulates onto. -/
theorem zerob_4 (i : Fin 10000) : val_main_v174 (F := Ideal) (ix1 i) = 0 := by
  rw [val_main_v174_apply, val_main_cst_45_apply]
  exact Ideal.ofBits_zero_f32

/-- The scattered sums: over the in-edges of node i, the masked source features. -/
theorem sum_4 (x : SX.Idx → EReal) (ei : SEI.Idx → BitVec 32) (et : SET.Idx → BitVec 32)
    (i : Fin 10000) (k : Fin 256) :
    val_main_v173 (F := Ideal) x ei et (ix2 i k) = relSum x ei et (BitVec.ofNat 32 (4 : Fin 8).val) i k := by
  unfold val_main_v173
  exact scatter_sum x ei et _ _ zeroa_4 _ (dsta_4 ei) _ (prod_4 x ei et) i k

/-- The scattered masks: the number of in-edges of node i of relation 4. -/
theorem cnt_4 (ei : SEI.Idx → BitVec 32) (et : SET.Idx → BitVec 32) (i : Fin 10000) :
    val_main_v181 (F := Ideal) ei et (ix1 i) = relCount ei et (BitVec.ofNat 32 (4 : Fin 8).val) i := by
  unfold val_main_v181
  exact scatter_count ei et _ _ zerob_4 _ (dstb_4 ei) _ (mask_4 et) i

/-- The count clipped below at one. -/
theorem clip_4 (ei : SEI.Idx → BitVec 32) (et : SET.Idx → BitVec 32) (i : Fin 10000) :
    val_main_v182 (F := Ideal) ei et (ix1 i) = max 1 (relCount ei et (BitVec.ofNat 32 (4 : Fin 8).val) i) := by
  rw [val_main_v182_apply, cnt_4, val_main_call4_v1_apply, val_main_call4_v0_apply, val_main_cst_48_apply]
  simp only [Ideal.maximumf_def, Ideal.ofBits_def, Ideal.ofBits_one_f32]

/-- The mean of the source features over the in-edges of relation 4. -/
theorem quot_4 (x : SX.Idx → EReal) (ei : SEI.Idx → BitVec 32) (et : SET.Idx → BitVec 32)
    (i : Fin 10000) (k : Fin 256) :
    val_main_v185 (F := Ideal) x ei et (ix2 i k)
      = Ideal.div (relSum x ei et (BitVec.ofNat 32 (4 : Fin 8).val) i k) (max 1 (relCount ei et (BitVec.ofNat 32 (4 : Fin 8).val) i)) := by
  have hi : idx_main_v183 (idx_main_v184 (ix2 i k)) = ix1 i := funext fun a => Fin.ext (by match a with | ⟨0, _⟩ => rfl)
  rw [val_main_v185_apply, sum_4, val_main_v184_apply, val_main_v183_apply, hi, clip_4]
  rfl

/-- The weight matrix of relation 4. -/
theorem wsl_4 (W : SW.Idx → EReal) (k d : Fin 256) :
    val_main_v187 (F := Ideal) W (ix2 k d) = W (ix3 (4 : Fin 8) k d) := by
  have hi : idx_main_v186 (idx_main_v187 (ix2 k d)) = ix3 (4 : Fin 8) k d := funext fun a => Fin.ext (by
    have hk := k.isLt
    have hd := d.isLt
    match a with
    | ⟨0, _⟩ => rfl
    | ⟨1, _⟩ => show (k.val * 256 + d.val) / 256 % 256 = k.val; omega
    | ⟨2, _⟩ => show (k.val * 256 + d.val) % 256 = d.val; omega)
  rw [val_main_v187_apply, val_main_v186_apply, hi]

/-- The contribution of relation 4: the mean row times the relation's weight matrix. -/
theorem term_4 (x : SX.Idx → EReal) (ei : SEI.Idx → BitVec 32) (et : SET.Idx → BitVec 32)
    (W : SW.Idx → EReal) (i : Fin 10000) (d : Fin 256) :
    val_main_v188 (F := Ideal) x ei et W (ix2 i d) = relTerm x ei et W 4 i d := by
  rw [val_main_v188_apply]
  unfold relTerm
  refine Finset.sum_congr rfl fun k _ => ?_
  have hl : lidx_main_v188 (ix2 i d) k = ix2 i k :=
    funext fun a => Fin.ext (by match a with | ⟨0, _⟩ => rfl | ⟨1, _⟩ => rfl)
  have hr : ridx_main_v188 (ix2 i d) k = ix2 k d :=
    funext fun a => Fin.ext (by match a with | ⟨0, _⟩ => rfl | ⟨1, _⟩ => rfl)
  rw [hl, hr, quot_4, wsl_4]

/-- The running sum after relation 4. -/
theorem acc_4 (x : SX.Idx → EReal) (ei : SEI.Idx → BitVec 32) (et : SET.Idx → BitVec 32)
    (W : SW.Idx → EReal) (i : Fin 10000) (d : Fin 256) :
    val_main_v189 (F := Ideal) x ei et W (ix2 i d) = (((((0 + relTerm x ei et W 0 i d) + relTerm x ei et W 1 i d) + relTerm x ei et W 2 i d) + relTerm x ei et W 3 i d) + relTerm x ei et W 4 i d) := by
  rw [val_main_v189_apply, acc_3, term_4]
  rfl

/-! ## Relation 5 -/

/-- The mask of relation 5: one on the edges whose raw type word is 5. -/
theorem mask_5 (et : SET.Idx → BitVec 32) (e : Fin 160000) :
    val_main_v192 (F := Ideal) et (ix1 e) = mask et (BitVec.ofNat 32 (5 : Fin 8).val) e := by
  rw [val_main_v192_apply, val_main_v191_apply, val_main_v190_apply, val_main_c_49_apply]
  rfl

/-- The gather's index words are the normalised source words. -/
theorem src_5 (ei : SEI.Idx → BitVec 32) (e : Fin 160000) :
    val_main_v198 (F := Ideal) ei (ix2 e 0) = srcW ei e := by
  have hi : idx_main_v198 (ix2 e (0 : Fin 1)) = ix1 e := funext fun a => Fin.ext (by match a with | ⟨0, _⟩ => rfl)
  rw [val_main_v198_apply, hi, val_main_v197_apply, val_main_v194_apply, val_main_v196_apply, val_main_v193_apply, val_main_c_50_apply, val_main_v195_apply, val_main_c_51_apply, word_src]
  rfl

/-- The first scatter's index words are the normalised destination words. -/
theorem dsta_5 (ei : SEI.Idx → BitVec 32) (e : Fin 160000) :
    val_main_v209 (F := Ideal) ei (ix2 e 0) = dstW ei e := by
  have hi : idx_main_v209 (ix2 e (0 : Fin 1)) = ix1 e := funext fun a => Fin.ext (by match a with | ⟨0, _⟩ => rfl)
  rw [val_main_v209_apply, hi, val_main_v208_apply, val_main_v205_apply, val_main_v207_apply, val_main_v204_apply, val_main_c_53_apply, val_main_v206_apply, val_main_c_54_apply, word_dst]
  rfl

/-- So are the second scatter's. -/
theorem dstb_5 (ei : SEI.Idx → BitVec 32) (e : Fin 160000) :
    val_main_v217 (F := Ideal) ei (ix2 e 0) = dstW ei e := by
  have hi : idx_main_v217 (ix2 e (0 : Fin 1)) = ix1 e := funext fun a => Fin.ext (by match a with | ⟨0, _⟩ => rfl)
  rw [val_main_v217_apply, hi, val_main_v216_apply, val_main_v213_apply, val_main_v215_apply, val_main_v212_apply, val_main_c_56_apply, val_main_v214_apply, val_main_c_57_apply, word_dst]
  rfl

/-- The gathered rows: the features of each edge's source node. -/
theorem gath_5 (x : SX.Idx → EReal) (ei : SEI.Idx → BitVec 32) (e : Fin 160000) (k : Fin 256) :
    val_main_v199 (F := Ideal) x ei (ix2 e k) = x (ix2 (srcN ei e) k) := by
  unfold val_main_v199
  exact gather_src x ei _ (src_5 ei) e k

/-- The masked rows. -/
theorem prod_5 (x : SX.Idx → EReal) (ei : SEI.Idx → BitVec 32) (et : SET.Idx → BitVec 32)
    (e : Fin 160000) (k : Fin 256) :
    val_main_v202 (F := Ideal) x ei et (ix2 e k) = x (ix2 (srcN ei e) k) * mask et (BitVec.ofNat 32 (5 : Fin 8).val) e := by
  have hi : idx_main_v200 (idx_main_v201 (ix2 e k)) = ix1 e := funext fun a => Fin.ext (by match a with | ⟨0, _⟩ => rfl)
  rw [val_main_v202_apply, gath_5, val_main_v201_apply, val_main_v200_apply, hi, mask_5]
  rfl

/-- The array of zeros the row scatter accumulates onto. -/
theorem zeroa_5 (i : Fin 10000) (k : Fin 256) : val_main_v203 (F := Ideal) (ix2 i k) = 0 := by
  rw [val_main_v203_apply, val_main_cst_52_apply]
  exact Ideal.ofBits_zero_f32

/-- The array of zeros the count scatter accumulates onto. -/
theorem zerob_5 (i : Fin 10000) : val_main_v211 (F := Ideal) (ix1 i) = 0 := by
  rw [val_main_v211_apply, val_main_cst_55_apply]
  exact Ideal.ofBits_zero_f32

/-- The scattered sums: over the in-edges of node i, the masked source features. -/
theorem sum_5 (x : SX.Idx → EReal) (ei : SEI.Idx → BitVec 32) (et : SET.Idx → BitVec 32)
    (i : Fin 10000) (k : Fin 256) :
    val_main_v210 (F := Ideal) x ei et (ix2 i k) = relSum x ei et (BitVec.ofNat 32 (5 : Fin 8).val) i k := by
  unfold val_main_v210
  exact scatter_sum x ei et _ _ zeroa_5 _ (dsta_5 ei) _ (prod_5 x ei et) i k

/-- The scattered masks: the number of in-edges of node i of relation 5. -/
theorem cnt_5 (ei : SEI.Idx → BitVec 32) (et : SET.Idx → BitVec 32) (i : Fin 10000) :
    val_main_v218 (F := Ideal) ei et (ix1 i) = relCount ei et (BitVec.ofNat 32 (5 : Fin 8).val) i := by
  unfold val_main_v218
  exact scatter_count ei et _ _ zerob_5 _ (dstb_5 ei) _ (mask_5 et) i

/-- The count clipped below at one. -/
theorem clip_5 (ei : SEI.Idx → BitVec 32) (et : SET.Idx → BitVec 32) (i : Fin 10000) :
    val_main_v219 (F := Ideal) ei et (ix1 i) = max 1 (relCount ei et (BitVec.ofNat 32 (5 : Fin 8).val) i) := by
  rw [val_main_v219_apply, cnt_5, val_main_call5_v1_apply, val_main_call5_v0_apply, val_main_cst_58_apply]
  simp only [Ideal.maximumf_def, Ideal.ofBits_def, Ideal.ofBits_one_f32]

/-- The mean of the source features over the in-edges of relation 5. -/
theorem quot_5 (x : SX.Idx → EReal) (ei : SEI.Idx → BitVec 32) (et : SET.Idx → BitVec 32)
    (i : Fin 10000) (k : Fin 256) :
    val_main_v222 (F := Ideal) x ei et (ix2 i k)
      = Ideal.div (relSum x ei et (BitVec.ofNat 32 (5 : Fin 8).val) i k) (max 1 (relCount ei et (BitVec.ofNat 32 (5 : Fin 8).val) i)) := by
  have hi : idx_main_v220 (idx_main_v221 (ix2 i k)) = ix1 i := funext fun a => Fin.ext (by match a with | ⟨0, _⟩ => rfl)
  rw [val_main_v222_apply, sum_5, val_main_v221_apply, val_main_v220_apply, hi, clip_5]
  rfl

/-- The weight matrix of relation 5. -/
theorem wsl_5 (W : SW.Idx → EReal) (k d : Fin 256) :
    val_main_v224 (F := Ideal) W (ix2 k d) = W (ix3 (5 : Fin 8) k d) := by
  have hi : idx_main_v223 (idx_main_v224 (ix2 k d)) = ix3 (5 : Fin 8) k d := funext fun a => Fin.ext (by
    have hk := k.isLt
    have hd := d.isLt
    match a with
    | ⟨0, _⟩ => rfl
    | ⟨1, _⟩ => show (k.val * 256 + d.val) / 256 % 256 = k.val; omega
    | ⟨2, _⟩ => show (k.val * 256 + d.val) % 256 = d.val; omega)
  rw [val_main_v224_apply, val_main_v223_apply, hi]

/-- The contribution of relation 5: the mean row times the relation's weight matrix. -/
theorem term_5 (x : SX.Idx → EReal) (ei : SEI.Idx → BitVec 32) (et : SET.Idx → BitVec 32)
    (W : SW.Idx → EReal) (i : Fin 10000) (d : Fin 256) :
    val_main_v225 (F := Ideal) x ei et W (ix2 i d) = relTerm x ei et W 5 i d := by
  rw [val_main_v225_apply]
  unfold relTerm
  refine Finset.sum_congr rfl fun k _ => ?_
  have hl : lidx_main_v225 (ix2 i d) k = ix2 i k :=
    funext fun a => Fin.ext (by match a with | ⟨0, _⟩ => rfl | ⟨1, _⟩ => rfl)
  have hr : ridx_main_v225 (ix2 i d) k = ix2 k d :=
    funext fun a => Fin.ext (by match a with | ⟨0, _⟩ => rfl | ⟨1, _⟩ => rfl)
  rw [hl, hr, quot_5, wsl_5]

/-- The running sum after relation 5. -/
theorem acc_5 (x : SX.Idx → EReal) (ei : SEI.Idx → BitVec 32) (et : SET.Idx → BitVec 32)
    (W : SW.Idx → EReal) (i : Fin 10000) (d : Fin 256) :
    val_main_v226 (F := Ideal) x ei et W (ix2 i d) = ((((((0 + relTerm x ei et W 0 i d) + relTerm x ei et W 1 i d) + relTerm x ei et W 2 i d) + relTerm x ei et W 3 i d) + relTerm x ei et W 4 i d) + relTerm x ei et W 5 i d) := by
  rw [val_main_v226_apply, acc_4, term_5]
  rfl

/-! ## Relation 6 -/

/-- The mask of relation 6: one on the edges whose raw type word is 6. -/
theorem mask_6 (et : SET.Idx → BitVec 32) (e : Fin 160000) :
    val_main_v229 (F := Ideal) et (ix1 e) = mask et (BitVec.ofNat 32 (6 : Fin 8).val) e := by
  rw [val_main_v229_apply, val_main_v228_apply, val_main_v227_apply, val_main_c_59_apply]
  rfl

/-- The gather's index words are the normalised source words. -/
theorem src_6 (ei : SEI.Idx → BitVec 32) (e : Fin 160000) :
    val_main_v235 (F := Ideal) ei (ix2 e 0) = srcW ei e := by
  have hi : idx_main_v235 (ix2 e (0 : Fin 1)) = ix1 e := funext fun a => Fin.ext (by match a with | ⟨0, _⟩ => rfl)
  rw [val_main_v235_apply, hi, val_main_v234_apply, val_main_v231_apply, val_main_v233_apply, val_main_v230_apply, val_main_c_60_apply, val_main_v232_apply, val_main_c_61_apply, word_src]
  rfl

/-- The first scatter's index words are the normalised destination words. -/
theorem dsta_6 (ei : SEI.Idx → BitVec 32) (e : Fin 160000) :
    val_main_v246 (F := Ideal) ei (ix2 e 0) = dstW ei e := by
  have hi : idx_main_v246 (ix2 e (0 : Fin 1)) = ix1 e := funext fun a => Fin.ext (by match a with | ⟨0, _⟩ => rfl)
  rw [val_main_v246_apply, hi, val_main_v245_apply, val_main_v242_apply, val_main_v244_apply, val_main_v241_apply, val_main_c_63_apply, val_main_v243_apply, val_main_c_64_apply, word_dst]
  rfl

/-- So are the second scatter's. -/
theorem dstb_6 (ei : SEI.Idx → BitVec 32) (e : Fin 160000) :
    val_main_v254 (F := Ideal) ei (ix2 e 0) = dstW ei e := by
  have hi : idx_main_v254 (ix2 e (0 : Fin 1)) = ix1 e := funext fun a => Fin.ext (by match a with | ⟨0, _⟩ => rfl)
  rw [val_main_v254_apply, hi, val_main_v253_apply, val_main_v250_apply, val_main_v252_apply, val_main_v249_apply, val_main_c_66_apply, val_main_v251_apply, val_main_c_67_apply, word_dst]
  rfl

/-- The gathered rows: the features of each edge's source node. -/
theorem gath_6 (x : SX.Idx → EReal) (ei : SEI.Idx → BitVec 32) (e : Fin 160000) (k : Fin 256) :
    val_main_v236 (F := Ideal) x ei (ix2 e k) = x (ix2 (srcN ei e) k) := by
  unfold val_main_v236
  exact gather_src x ei _ (src_6 ei) e k

/-- The masked rows. -/
theorem prod_6 (x : SX.Idx → EReal) (ei : SEI.Idx → BitVec 32) (et : SET.Idx → BitVec 32)
    (e : Fin 160000) (k : Fin 256) :
    val_main_v239 (F := Ideal) x ei et (ix2 e k) = x (ix2 (srcN ei e) k) * mask et (BitVec.ofNat 32 (6 : Fin 8).val) e := by
  have hi : idx_main_v237 (idx_main_v238 (ix2 e k)) = ix1 e := funext fun a => Fin.ext (by match a with | ⟨0, _⟩ => rfl)
  rw [val_main_v239_apply, gath_6, val_main_v238_apply, val_main_v237_apply, hi, mask_6]
  rfl

/-- The array of zeros the row scatter accumulates onto. -/
theorem zeroa_6 (i : Fin 10000) (k : Fin 256) : val_main_v240 (F := Ideal) (ix2 i k) = 0 := by
  rw [val_main_v240_apply, val_main_cst_62_apply]
  exact Ideal.ofBits_zero_f32

/-- The array of zeros the count scatter accumulates onto. -/
theorem zerob_6 (i : Fin 10000) : val_main_v248 (F := Ideal) (ix1 i) = 0 := by
  rw [val_main_v248_apply, val_main_cst_65_apply]
  exact Ideal.ofBits_zero_f32

/-- The scattered sums: over the in-edges of node i, the masked source features. -/
theorem sum_6 (x : SX.Idx → EReal) (ei : SEI.Idx → BitVec 32) (et : SET.Idx → BitVec 32)
    (i : Fin 10000) (k : Fin 256) :
    val_main_v247 (F := Ideal) x ei et (ix2 i k) = relSum x ei et (BitVec.ofNat 32 (6 : Fin 8).val) i k := by
  unfold val_main_v247
  exact scatter_sum x ei et _ _ zeroa_6 _ (dsta_6 ei) _ (prod_6 x ei et) i k

/-- The scattered masks: the number of in-edges of node i of relation 6. -/
theorem cnt_6 (ei : SEI.Idx → BitVec 32) (et : SET.Idx → BitVec 32) (i : Fin 10000) :
    val_main_v255 (F := Ideal) ei et (ix1 i) = relCount ei et (BitVec.ofNat 32 (6 : Fin 8).val) i := by
  unfold val_main_v255
  exact scatter_count ei et _ _ zerob_6 _ (dstb_6 ei) _ (mask_6 et) i

/-- The count clipped below at one. -/
theorem clip_6 (ei : SEI.Idx → BitVec 32) (et : SET.Idx → BitVec 32) (i : Fin 10000) :
    val_main_v256 (F := Ideal) ei et (ix1 i) = max 1 (relCount ei et (BitVec.ofNat 32 (6 : Fin 8).val) i) := by
  rw [val_main_v256_apply, cnt_6, val_main_call6_v1_apply, val_main_call6_v0_apply, val_main_cst_68_apply]
  simp only [Ideal.maximumf_def, Ideal.ofBits_def, Ideal.ofBits_one_f32]

/-- The mean of the source features over the in-edges of relation 6. -/
theorem quot_6 (x : SX.Idx → EReal) (ei : SEI.Idx → BitVec 32) (et : SET.Idx → BitVec 32)
    (i : Fin 10000) (k : Fin 256) :
    val_main_v259 (F := Ideal) x ei et (ix2 i k)
      = Ideal.div (relSum x ei et (BitVec.ofNat 32 (6 : Fin 8).val) i k) (max 1 (relCount ei et (BitVec.ofNat 32 (6 : Fin 8).val) i)) := by
  have hi : idx_main_v257 (idx_main_v258 (ix2 i k)) = ix1 i := funext fun a => Fin.ext (by match a with | ⟨0, _⟩ => rfl)
  rw [val_main_v259_apply, sum_6, val_main_v258_apply, val_main_v257_apply, hi, clip_6]
  rfl

/-- The weight matrix of relation 6. -/
theorem wsl_6 (W : SW.Idx → EReal) (k d : Fin 256) :
    val_main_v261 (F := Ideal) W (ix2 k d) = W (ix3 (6 : Fin 8) k d) := by
  have hi : idx_main_v260 (idx_main_v261 (ix2 k d)) = ix3 (6 : Fin 8) k d := funext fun a => Fin.ext (by
    have hk := k.isLt
    have hd := d.isLt
    match a with
    | ⟨0, _⟩ => rfl
    | ⟨1, _⟩ => show (k.val * 256 + d.val) / 256 % 256 = k.val; omega
    | ⟨2, _⟩ => show (k.val * 256 + d.val) % 256 = d.val; omega)
  rw [val_main_v261_apply, val_main_v260_apply, hi]

/-- The contribution of relation 6: the mean row times the relation's weight matrix. -/
theorem term_6 (x : SX.Idx → EReal) (ei : SEI.Idx → BitVec 32) (et : SET.Idx → BitVec 32)
    (W : SW.Idx → EReal) (i : Fin 10000) (d : Fin 256) :
    val_main_v262 (F := Ideal) x ei et W (ix2 i d) = relTerm x ei et W 6 i d := by
  rw [val_main_v262_apply]
  unfold relTerm
  refine Finset.sum_congr rfl fun k _ => ?_
  have hl : lidx_main_v262 (ix2 i d) k = ix2 i k :=
    funext fun a => Fin.ext (by match a with | ⟨0, _⟩ => rfl | ⟨1, _⟩ => rfl)
  have hr : ridx_main_v262 (ix2 i d) k = ix2 k d :=
    funext fun a => Fin.ext (by match a with | ⟨0, _⟩ => rfl | ⟨1, _⟩ => rfl)
  rw [hl, hr, quot_6, wsl_6]

/-- The running sum after relation 6. -/
theorem acc_6 (x : SX.Idx → EReal) (ei : SEI.Idx → BitVec 32) (et : SET.Idx → BitVec 32)
    (W : SW.Idx → EReal) (i : Fin 10000) (d : Fin 256) :
    val_main_v263 (F := Ideal) x ei et W (ix2 i d) = (((((((0 + relTerm x ei et W 0 i d) + relTerm x ei et W 1 i d) + relTerm x ei et W 2 i d) + relTerm x ei et W 3 i d) + relTerm x ei et W 4 i d) + relTerm x ei et W 5 i d) + relTerm x ei et W 6 i d) := by
  rw [val_main_v263_apply, acc_5, term_6]
  rfl

/-! ## Relation 7 -/

/-- The mask of relation 7: one on the edges whose raw type word is 7. -/
theorem mask_7 (et : SET.Idx → BitVec 32) (e : Fin 160000) :
    val_main_v266 (F := Ideal) et (ix1 e) = mask et (BitVec.ofNat 32 (7 : Fin 8).val) e := by
  rw [val_main_v266_apply, val_main_v265_apply, val_main_v264_apply, val_main_c_69_apply]
  rfl

/-- The gather's index words are the normalised source words. -/
theorem src_7 (ei : SEI.Idx → BitVec 32) (e : Fin 160000) :
    val_main_v272 (F := Ideal) ei (ix2 e 0) = srcW ei e := by
  have hi : idx_main_v272 (ix2 e (0 : Fin 1)) = ix1 e := funext fun a => Fin.ext (by match a with | ⟨0, _⟩ => rfl)
  rw [val_main_v272_apply, hi, val_main_v271_apply, val_main_v268_apply, val_main_v270_apply, val_main_v267_apply, val_main_c_70_apply, val_main_v269_apply, val_main_c_71_apply, word_src]
  rfl

/-- The first scatter's index words are the normalised destination words. -/
theorem dsta_7 (ei : SEI.Idx → BitVec 32) (e : Fin 160000) :
    val_main_v283 (F := Ideal) ei (ix2 e 0) = dstW ei e := by
  have hi : idx_main_v283 (ix2 e (0 : Fin 1)) = ix1 e := funext fun a => Fin.ext (by match a with | ⟨0, _⟩ => rfl)
  rw [val_main_v283_apply, hi, val_main_v282_apply, val_main_v279_apply, val_main_v281_apply, val_main_v278_apply, val_main_c_73_apply, val_main_v280_apply, val_main_c_74_apply, word_dst]
  rfl

/-- So are the second scatter's. -/
theorem dstb_7 (ei : SEI.Idx → BitVec 32) (e : Fin 160000) :
    val_main_v291 (F := Ideal) ei (ix2 e 0) = dstW ei e := by
  have hi : idx_main_v291 (ix2 e (0 : Fin 1)) = ix1 e := funext fun a => Fin.ext (by match a with | ⟨0, _⟩ => rfl)
  rw [val_main_v291_apply, hi, val_main_v290_apply, val_main_v287_apply, val_main_v289_apply, val_main_v286_apply, val_main_c_76_apply, val_main_v288_apply, val_main_c_77_apply, word_dst]
  rfl

/-- The gathered rows: the features of each edge's source node. -/
theorem gath_7 (x : SX.Idx → EReal) (ei : SEI.Idx → BitVec 32) (e : Fin 160000) (k : Fin 256) :
    val_main_v273 (F := Ideal) x ei (ix2 e k) = x (ix2 (srcN ei e) k) := by
  unfold val_main_v273
  exact gather_src x ei _ (src_7 ei) e k

/-- The masked rows. -/
theorem prod_7 (x : SX.Idx → EReal) (ei : SEI.Idx → BitVec 32) (et : SET.Idx → BitVec 32)
    (e : Fin 160000) (k : Fin 256) :
    val_main_v276 (F := Ideal) x ei et (ix2 e k) = x (ix2 (srcN ei e) k) * mask et (BitVec.ofNat 32 (7 : Fin 8).val) e := by
  have hi : idx_main_v274 (idx_main_v275 (ix2 e k)) = ix1 e := funext fun a => Fin.ext (by match a with | ⟨0, _⟩ => rfl)
  rw [val_main_v276_apply, gath_7, val_main_v275_apply, val_main_v274_apply, hi, mask_7]
  rfl

/-- The array of zeros the row scatter accumulates onto. -/
theorem zeroa_7 (i : Fin 10000) (k : Fin 256) : val_main_v277 (F := Ideal) (ix2 i k) = 0 := by
  rw [val_main_v277_apply, val_main_cst_72_apply]
  exact Ideal.ofBits_zero_f32

/-- The array of zeros the count scatter accumulates onto. -/
theorem zerob_7 (i : Fin 10000) : val_main_v285 (F := Ideal) (ix1 i) = 0 := by
  rw [val_main_v285_apply, val_main_cst_75_apply]
  exact Ideal.ofBits_zero_f32

/-- The scattered sums: over the in-edges of node i, the masked source features. -/
theorem sum_7 (x : SX.Idx → EReal) (ei : SEI.Idx → BitVec 32) (et : SET.Idx → BitVec 32)
    (i : Fin 10000) (k : Fin 256) :
    val_main_v284 (F := Ideal) x ei et (ix2 i k) = relSum x ei et (BitVec.ofNat 32 (7 : Fin 8).val) i k := by
  unfold val_main_v284
  exact scatter_sum x ei et _ _ zeroa_7 _ (dsta_7 ei) _ (prod_7 x ei et) i k

/-- The scattered masks: the number of in-edges of node i of relation 7. -/
theorem cnt_7 (ei : SEI.Idx → BitVec 32) (et : SET.Idx → BitVec 32) (i : Fin 10000) :
    val_main_v292 (F := Ideal) ei et (ix1 i) = relCount ei et (BitVec.ofNat 32 (7 : Fin 8).val) i := by
  unfold val_main_v292
  exact scatter_count ei et _ _ zerob_7 _ (dstb_7 ei) _ (mask_7 et) i

/-- The count clipped below at one. -/
theorem clip_7 (ei : SEI.Idx → BitVec 32) (et : SET.Idx → BitVec 32) (i : Fin 10000) :
    val_main_v293 (F := Ideal) ei et (ix1 i) = max 1 (relCount ei et (BitVec.ofNat 32 (7 : Fin 8).val) i) := by
  rw [val_main_v293_apply, cnt_7, val_main_call7_v1_apply, val_main_call7_v0_apply, val_main_cst_78_apply]
  simp only [Ideal.maximumf_def, Ideal.ofBits_def, Ideal.ofBits_one_f32]

/-- The mean of the source features over the in-edges of relation 7. -/
theorem quot_7 (x : SX.Idx → EReal) (ei : SEI.Idx → BitVec 32) (et : SET.Idx → BitVec 32)
    (i : Fin 10000) (k : Fin 256) :
    val_main_v296 (F := Ideal) x ei et (ix2 i k)
      = Ideal.div (relSum x ei et (BitVec.ofNat 32 (7 : Fin 8).val) i k) (max 1 (relCount ei et (BitVec.ofNat 32 (7 : Fin 8).val) i)) := by
  have hi : idx_main_v294 (idx_main_v295 (ix2 i k)) = ix1 i := funext fun a => Fin.ext (by match a with | ⟨0, _⟩ => rfl)
  rw [val_main_v296_apply, sum_7, val_main_v295_apply, val_main_v294_apply, hi, clip_7]
  rfl

/-- The weight matrix of relation 7. -/
theorem wsl_7 (W : SW.Idx → EReal) (k d : Fin 256) :
    val_main_v298 (F := Ideal) W (ix2 k d) = W (ix3 (7 : Fin 8) k d) := by
  have hi : idx_main_v297 (idx_main_v298 (ix2 k d)) = ix3 (7 : Fin 8) k d := funext fun a => Fin.ext (by
    have hk := k.isLt
    have hd := d.isLt
    match a with
    | ⟨0, _⟩ => rfl
    | ⟨1, _⟩ => show (k.val * 256 + d.val) / 256 % 256 = k.val; omega
    | ⟨2, _⟩ => show (k.val * 256 + d.val) % 256 = d.val; omega)
  rw [val_main_v298_apply, val_main_v297_apply, hi]

/-- The contribution of relation 7: the mean row times the relation's weight matrix. -/
theorem term_7 (x : SX.Idx → EReal) (ei : SEI.Idx → BitVec 32) (et : SET.Idx → BitVec 32)
    (W : SW.Idx → EReal) (i : Fin 10000) (d : Fin 256) :
    val_main_v299 (F := Ideal) x ei et W (ix2 i d) = relTerm x ei et W 7 i d := by
  rw [val_main_v299_apply]
  unfold relTerm
  refine Finset.sum_congr rfl fun k _ => ?_
  have hl : lidx_main_v299 (ix2 i d) k = ix2 i k :=
    funext fun a => Fin.ext (by match a with | ⟨0, _⟩ => rfl | ⟨1, _⟩ => rfl)
  have hr : ridx_main_v299 (ix2 i d) k = ix2 k d :=
    funext fun a => Fin.ext (by match a with | ⟨0, _⟩ => rfl | ⟨1, _⟩ => rfl)
  rw [hl, hr, quot_7, wsl_7]

/-- The running sum after relation 7. -/
theorem acc_7 (x : SX.Idx → EReal) (ei : SEI.Idx → BitVec 32) (et : SET.Idx → BitVec 32)
    (W : SW.Idx → EReal) (i : Fin 10000) (d : Fin 256) :
    val_main_v300 (F := Ideal) x ei et W (ix2 i d) = ((((((((0 + relTerm x ei et W 0 i d) + relTerm x ei et W 1 i d) + relTerm x ei et W 2 i d) + relTerm x ei et W 3 i d) + relTerm x ei et W 4 i d) + relTerm x ei et W 5 i d) + relTerm x ei et W 6 i d) + relTerm x ei et W 7 i d) := by
  rw [val_main_v300_apply, acc_6, term_7]
  rfl

/-! ## The result -/

/-- The product of the node features with the root weight. -/
theorem root_term (x : SX.Idx → EReal) (root : SR.Idx → EReal) (i : Fin 10000) (d : Fin 256) :
    val_main_v301 (F := Ideal) x root (ix2 i d) = rootTerm x root i d := by
  rw [val_main_v301_apply]
  unfold rootTerm
  refine Finset.sum_congr rfl fun k _ => ?_
  have hl : lidx_main_v301 (ix2 i d) k = ix2 i k :=
    funext fun a => Fin.ext (by match a with | ⟨0, _⟩ => rfl | ⟨1, _⟩ => rfl)
  have hr : ridx_main_v301 (ix2 i d) k = ix2 k d :=
    funext fun a => Fin.ext (by match a with | ⟨0, _⟩ => rfl | ⟨1, _⟩ => rfl)
  rw [hl, hr]

/-- The bias, repeated along the nodes. -/
theorem bias_row (bias : SB.Idx → EReal) (i : Fin 10000) (d : Fin 256) :
    val_main_v304 (F := Ideal) bias (ix2 i d) = bias (ix1 d) := by
  have hi : idx_main_v303 (idx_main_v304 (ix2 i d)) = ix1 d :=
    funext fun a => Fin.ext (by match a with | ⟨0, _⟩ => rfl)
  rw [val_main_v304_apply, val_main_v303_apply, hi]

/-- The reference program's result at node i and coordinate d is the per-relation formula: the eight relation
    contributions added from left to right onto zero, then the root term, then the bias. -/
theorem reference_value (x : SX.Idx → EReal) (ei : SEI.Idx → BitVec 32) (et : SET.Idx → BitVec 32)
    (W : SW.Idx → EReal) (root : SR.Idx → EReal) (bias : SB.Idx → EReal) (i : Fin 10000) (d : Fin 256) :
    Cert.ReferenceIdeal.Read.val_main_v305 (F := Ideal) x ei et W root bias (ValueIdx.ix2 i d)
      = Cert.Rgcn.perRelation x ei et W root bias i d := by
  rw [val_main_v305_apply, val_main_v302_apply, acc_7, root_term, bias_row]
  rfl

end Cert.Rgcn.RefValue

end
-- ==== Proof.Algebra.lean ====
/-
  The two arrangements of the relational graph convolution agree when every type word names one of the eight
  relations and the node features and relation weights are real numbers.

  Fix a node i and an output coordinate d. Write E for the in-edges of i, t e for the relation of edge e, a e k for
  feature k of the source of e, w r k for entry (k, d) of the weight of relation r, and s r for one over the number of
  in-edges of relation r (clipped below at one). The per-relation arrangement is

      sum over r, sum over k,  ((sum over e in E of a e k * [t e = r]) * s r) * w r k ,

  and the per-edge arrangement is

      sum over e in E,  (sum over k of a e k * w (t e) k) * s (t e) .

  Moving the factors s r and w r k inside the sum over E, exchanging the three sums, and then summing the indicator
  [t e = r] over r (which selects r = t e) turns the first into the second. This is a rearrangement of a finite sum
  of products, so it is valid over the reals; it needs distributivity, which fails at the infinities, and that is why
  the features and weights are assumed real. The root term and the bias are the same on both sides.
-/
import Mathlib
import Idealize.ShloMosaic.Lib.Affine
import proofs.«139433_g6408091205734_cont_9to1_m_209_2_alg».proof.Proof.Spec

noncomputable section

open scoped BigOperators

namespace Cert.Rgcn

open Idealize.ShloMosaic Idealize.ShloMosaic.ValueIdx

namespace Algebra

/-! ## The identity over the reals -/

/-- Averaging per relation and then weighting equals weighting per edge and then scaling: with an indicator
    mu e r of "edge e has relation r", any per-relation scale s and any weights w. -/
theorem sum_relations_eq_sum_edges {ι R K : Type*} [Fintype R] [DecidableEq R] [Fintype K]
    (E : Finset ι) (a : ι → K → ℝ) (t : ι → R) (mu : ι → R → ℝ) (s : R → ℝ) (w : R → K → ℝ)
    (hmu : ∀ e r, mu e r = if t e = r then 1 else 0) :
    ∑ r, ∑ k, ((∑ e ∈ E, a e k * mu e r) * s r) * w r k
      = ∑ e ∈ E, (∑ k, a e k * w (t e) k) * s (t e) := by
  have inner : ∀ r k, ((∑ e ∈ E, a e k * mu e r) * s r) * w r k
      = ∑ e ∈ E, if t e = r then a e k * w r k * s r else 0 := by
    intro r k
    rw [Finset.sum_mul, Finset.sum_mul]
    refine Finset.sum_congr rfl fun e _ => ?_
    rw [hmu]
    split_ifs <;> ring
  calc ∑ r, ∑ k, ((∑ e ∈ E, a e k * mu e r) * s r) * w r k
      = ∑ r, ∑ k, ∑ e ∈ E, if t e = r then a e k * w r k * s r else 0 :=
        Finset.sum_congr rfl fun r _ => Finset.sum_congr rfl fun k _ => inner r k
    _ = ∑ r, ∑ e ∈ E, ∑ k, if t e = r then a e k * w r k * s r else 0 :=
        Finset.sum_congr rfl fun r _ => Finset.sum_comm
    _ = ∑ e ∈ E, ∑ r, ∑ k, if t e = r then a e k * w r k * s r else 0 := Finset.sum_comm
    _ = ∑ e ∈ E, ∑ k, ∑ r, if t e = r then a e k * w r k * s r else 0 :=
        Finset.sum_congr rfl fun e _ => Finset.sum_comm
    _ = ∑ e ∈ E, ∑ k, a e k * w (t e) k * s (t e) :=
        Finset.sum_congr rfl fun e _ => Finset.sum_congr rfl fun k _ => by
          rw [Finset.sum_ite_eq]; simp
    _ = ∑ e ∈ E, (∑ k, a e k * w (t e) k) * s (t e) :=
        Finset.sum_congr rfl fun e _ => (Finset.sum_mul _ _ _).symm

/-- A finite sum of reals, read as an extended real, is the sum of the terms read as extended reals. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The words under the range hypothesis

  When a type word reads a number in 0..7 the normalisation leaves it alone, the clamp leaves it alone, and the
  relation it names is that number; so the raw word equals the word of relation r exactly when the edge has
  relation r, and the same holds for the normalised word read signed. A destination word that reads i (a node, so
  in range) is clamped to i. -/

/-- A word that reads non-negative is left alone by the normalisation. -/
theorem norm_of_nonneg (n w : BitVec 32) (h : 0 ≤ w.toInt) : norm n w = w := by
  unfold norm Scalar.select
  rw [if_neg]
  intro hc
  have h1 : w.toInt < (0#32 : BitVec 32).toInt := IntOp.cmpi_slt.1 hc
  simp at h1
  omega

/-- A word that reads non-negative equals the word of a small number r exactly when it reads r. -/
theorem word_eq_ofNat_iff (w : BitVec 32) (h0 : 0 ≤ w.toInt) (r : Nat) (hr : r < 8) :
    w = BitVec.ofNat 32 r ↔ w.toInt = (r : Int) := by
  have hcond := BitVec.toInt_eq_toNat_cond w
  have hlt := w.isLt
  constructor
  · intro h
    have : w.toNat = r := by rw [h, BitVec.toNat_ofNat]; omega
    split_ifs at hcond <;> omega
  · intro h
    apply BitVec.eq_of_toNat_eq
    rw [BitVec.toNat_ofNat]
    split_ifs at hcond <;> omega

section words

variable (ei : SEI.Idx → BitVec 32) (et : SET.Idx → BitVec 32)
  (ht : ∀ e : Fin 160000, 0 ≤ (et (ix1 e)).toInt ∧ (et (ix1 e)).toInt < 8)

include ht in
/-- The normalised type word is the raw type word. -/
theorem typW_eq (e : Fin 160000) : typW et e = et (ix1 e) := norm_of_nonneg _ _ (ht e).1

include ht in
/-- The relation of an edge is the number its type word reads. -/
theorem typN_val (e : Fin 160000) : ((typN et e).val : Int) = (et (ix1 e)).toInt := by
  have h := ht e
  show ((min (typW et e).toInt.toNat (8 - 1) : Nat) : Int) = _
  rw [typW_eq et ht e]
  omega

include ht in
/-- The normalised type word reads r exactly when the edge has relation r. -/
theorem typW_toInt_iff (e : Fin 160000) (r : Fin 8) : (typW et e).toInt = (r.val : Int) ↔ typN et e = r := by
  rw [typW_eq et ht e, ← typN_val et ht e, Int.natCast_inj, Fin.val_inj]

include ht in
/-- The relation mask against the word of relation r is the indicator of "the edge has relation r". -/
theorem mask_eq (e : Fin 160000) (r : Fin 8) :
    mask et (BitVec.ofNat 32 r.val) e = (((if typN et e = r then 1 else 0 : ℝ)) : EReal) := by
  unfold mask
  have hiff : IntOp.cmpi .eq (et (ix1 e)) (BitVec.ofNat 32 r.val) = 1#1 ↔ typN et e = r := by
    rw [IntOp.cmpi_eq, word_eq_ofNat_iff _ (ht e).1 _ r.isLt, ← typN_val et ht e, Int.natCast_inj, Fin.val_inj]
  by_cases h : typN et e = r
  · rw [if_pos h, hiff.2 h]; simp
  · rw [if_neg h]
    rcases BitVec.eq_zero_or_eq_one (IntOp.cmpi .eq (et (ix1 e)) (BitVec.ofNat 32 r.val)) with h0 | h1
    · rw [h0]; simp
    · exact absurd (hiff.1 h1) h

/-- The destination node of an in-edge of i is i. -/
theorem dstN_of_mem {i : Fin 10000} {e : Fin 160000} (he : e ∈ inEdges ei i) : dstN ei e = i := by
  have h : (dstW ei e).toInt = (i.val : Int) := (Finset.mem_filter.1 he).2
  apply Fin.ext
  show min (dstW ei e).toInt.toNat (10000 - 1) = i.val
  have := i.isLt
  omega

include ht in
/-- The edges counted for the pair (i, r) are the in-edges of i that have relation r. -/
theorem pairEdges_eq (i : Fin 10000) (r : Fin 8) :
    Finset.univ.filter (fun e : Fin 160000 => (dstW ei e).toInt = (i.val : Int) ∧ (typW et e).toInt = (r.val : Int))
      = (inEdges ei i).filter (fun e => typN et e = r) := by
  unfold inEdges
  rw [Finset.filter_filter]
  refine Finset.filter_congr fun e _ => ?_
  rw [typW_toInt_iff et ht e r]

end words

/-! ## The two arrangements as real sums

  With real features xr and real weights Wr every quantity of the two arrangements is the extended-real reading of
  a real number: the masked feature sums, the counts (the two ways of counting give the same number, the number of
  in-edges of i with relation r), the scale 1 / max 1 count (a division by a real that is at least one, hence a
  product with its reciprocal), the transformed features, and finally the two sums themselves. -/

/-- One clipped below a real is not zero. -/
theorem max_one_ne_zero (c : ℝ) : max 1 c ≠ 0 := (lt_of_lt_of_le one_pos (le_max_left 1 c)).ne'

/-- Dividing a real by a real count clipped below at one is multiplying by the reciprocal. -/
theorem div_max_one_coe (a c : ℝ) :
    Ideal.div (a : EReal) (max 1 (c : EReal)) = ((a * (1 / max 1 c) : ℝ) : EReal) := by
  have hm : max (1 : EReal) (c : EReal) = ((max 1 c : ℝ) : EReal) := by
    rw [EReal.coe_strictMono.monotone.map_max, EReal.coe_one]
  rw [hm, Ideal.div_coe (max_one_ne_zero c), EReal.coe_mul]

section reals

variable (xr : SX.Idx → ℝ) (ei : SEI.Idx → BitVec 32) (et : SET.Idx → BitVec 32) (Wr : SW.Idx → ℝ)
  (ht : ∀ e : Fin 160000, 0 ≤ (et (ix1 e)).toInt ∧ (et (ix1 e)).toInt < 8)

/-- The indicator of "edge e has relation r". -/
def ind (r : Fin 8) (e : Fin 160000) : ℝ := if typN et e = r then 1 else 0

/-- The number of in-edges of node i with relation r. -/
def cnt (i : Fin 10000) (r : Fin 8) : ℝ := ∑ e ∈ inEdges ei i, ind et r e

/-- The scale of the pair (i, r): one over the count clipped below at one. -/
def scl (i : Fin 10000) (r : Fin 8) : ℝ := 1 / max 1 (cnt ei et i r)

include ht in
/-- The per-relation count is the number of in-edges of that relation. -/
theorem relCount_coe (r : Fin 8) (i : Fin 10000) :
    relCount ei et (BitVec.ofNat 32 r.val) i = ((cnt ei et i r : ℝ) : EReal) := by
  unfold relCount cnt ind
  rw [zero_add, coe_finset_sum]
  exact Finset.sum_congr rfl fun e _ => mask_eq et ht e r

include ht in
/-- The masked feature sum is a real sum. -/
theorem relSum_coe (r : Fin 8) (i : Fin 10000) (k : Fin 256) :
    relSum (fun j => (xr j : EReal)) ei et (BitVec.ofNat 32 r.val) i k
      = ((∑ e ∈ inEdges ei i, xr (ix2 (srcN ei e) k) * ind et r e : ℝ) : EReal) := by
  unfold relSum ind
  rw [zero_add, coe_finset_sum]
  refine Finset.sum_congr rfl fun e _ => ?_
  rw [mask_eq et ht e r]
  exact (EReal.coe_mul _ _).symm

include ht in
/-- Relation r's contribution is a real sum. -/
theorem relTerm_coe (r : Fin 8) (i : Fin 10000) (d : Fin 256) :
    relTerm (fun j => (xr j : EReal)) ei et (fun j => (Wr j : EReal)) r i d
      = ((∑ k : Fin 256, ((∑ e ∈ inEdges ei i, xr (ix2 (srcN ei e) k) * ind et r e) * scl ei et i r)
          * Wr (ix3 r k d) : ℝ) : EReal) := by
  unfold relTerm scl
  rw [coe_finset_sum]
  refine Finset.sum_congr rfl fun k _ => ?_
  rw [relSum_coe xr ei et ht r i k, relCount_coe ei et ht r i, div_max_one_coe]
  exact (EReal.coe_mul _ _).symm

include ht in
/-- The per-pair count is the same number. -/
theorem pairCount_coe (i : Fin 10000) (r : Fin 8) : pairCount ei et i r = ((cnt ei et i r : ℝ) : EReal) := by
  unfold pairCount cnt ind
  rw [zero_add, pairEdges_eq ei et ht i r, coe_finset_sum, Finset.sum_filter]
  refine Finset.sum_congr rfl fun e _ => ?_
  split_ifs <;> simp

include ht in
/-- The per-pair scale is the real scale. -/
theorem pairScale_coe (i : Fin 10000) (r : Fin 8) : pairScale ei et i r = ((scl ei et i r : ℝ) : EReal) := by
  have h := div_max_one_coe 1 (cnt ei et i r)
  rw [EReal.coe_one, one_mul] at h
  unfold pairScale scl
  rw [pairCount_coe ei et ht i r]
  exact h

/-- A transformed feature is a real sum. -/
theorem transformed_coe (n : Fin 10000) (r : Fin 8) (d : Fin 256) :
    transformed (fun j => (xr j : EReal)) (fun j => (Wr j : EReal)) n r d
      = ((∑ k : Fin 256, xr (ix2 n k) * Wr (ix3 r k d) : ℝ) : EReal) := by
  unfold transformed
  rw [coe_finset_sum]
  exact Finset.sum_congr rfl fun k _ => (EReal.coe_mul _ _).symm

include ht in
/-- The per-edge sum is a real sum; each in-edge of i is scaled by the scale of (i, its relation). -/
theorem edgeSum_coe (i : Fin 10000) (d : Fin 256) :
    (0 + ∑ e ∈ inEdges ei i,
        transformed (fun j => (xr j : EReal)) (fun j => (Wr j : EReal)) (srcN ei e) (typN et e) d
          * pairScale ei et (dstN ei e) (typN et e))
      = ((∑ e ∈ inEdges ei i, (∑ k : Fin 256, xr (ix2 (srcN ei e) k) * Wr (ix3 (typN et e) k d))
          * scl ei et i (typN et e) : ℝ) : EReal) := by
  rw [zero_add, coe_finset_sum]
  refine Finset.sum_congr rfl fun e he => ?_
  rw [dstN_of_mem ei he, transformed_coe, pairScale_coe ei et ht]
  exact (EReal.coe_mul _ _).symm

include ht in
/-- The eight relation contributions, added from left to right starting from zero, are a real double sum. -/
theorem relationSum_coe (i : Fin 10000) (d : Fin 256) :
    ((((((((0 + relTerm (fun j => (xr j : EReal)) ei et (fun j => (Wr j : EReal)) 0 i d)
        + relTerm (fun j => (xr j : EReal)) ei et (fun j => (Wr j : EReal)) 1 i d)
        + relTerm (fun j => (xr j : EReal)) ei et (fun j => (Wr j : EReal)) 2 i d)
        + relTerm (fun j => (xr j : EReal)) ei et (fun j => (Wr j : EReal)) 3 i d)
        + relTerm (fun j => (xr j : EReal)) ei et (fun j => (Wr j : EReal)) 4 i d)
        + relTerm (fun j => (xr j : EReal)) ei et (fun j => (Wr j : EReal)) 5 i d)
        + relTerm (fun j => (xr j : EReal)) ei et (fun j => (Wr j : EReal)) 6 i d)
        + relTerm (fun j => (xr j : EReal)) ei et (fun j => (Wr j : EReal)) 7 i d)
      = ((∑ r : Fin 8, ∑ k : Fin 256,
          ((∑ e ∈ inEdges ei i, xr (ix2 (srcN ei e) k) * ind et r e) * scl ei et i r) * Wr (ix3 r k d) : ℝ) : EReal) := by
  rw [Fin.sum_univ_eight]
  simp only [EReal.coe_add]
  rw [relTerm_coe xr ei et Wr ht 0 i d, relTerm_coe xr ei et Wr ht 1 i d, relTerm_coe xr ei et Wr ht 2 i d,
    relTerm_coe xr ei et Wr ht 3 i d, relTerm_coe xr ei et Wr ht 4 i d, relTerm_coe xr ei et Wr ht 5 i d,
    relTerm_coe xr ei et Wr ht 6 i d, relTerm_coe xr ei et Wr ht 7 i d, zero_add]

end reals

end Algebra

open Algebra

/-! ## The two arrangements agree -/

/-- With real features and relation weights and every type word in 0..7, the per-relation and the per-edge
    arrangements give the same extended real at every (i, d). -/
theorem perRelation_eq_perEdge (x : SX.Idx → EReal) (ei : SEI.Idx → BitVec 32) (et : SET.Idx → BitVec 32)
    (W : SW.Idx → EReal) (root : SR.Idx → EReal) (bias : SB.Idx → EReal)
    (hx : ∀ j, ∃ r : ℝ, x j = (r : EReal)) (hW : ∀ j, ∃ r : ℝ, W j = (r : EReal))
    (ht : ∀ e : Fin 160000, 0 ≤ (et (ValueIdx.ix1 e)).toInt ∧ (et (ValueIdx.ix1 e)).toInt < 8)
    (i : Fin 10000) (d : Fin 256) :
    perRelation x ei et W root bias i d = perEdge x ei et W root bias i d := by
  choose xr hxr using hx
  choose Wr hWr using hW
  obtain rfl : x = fun j => (xr j : EReal) := funext hxr
  obtain rfl : W = fun j => (Wr j : EReal) := funext hWr
  have key := sum_relations_eq_sum_edges (inEdges ei i) (fun e k => xr (ix2 (srcN ei e) k)) (typN et)
    (fun e r => ind et r e) (fun r => scl ei et i r) (fun r k => Wr (ix3 r k d)) (fun _ _ => rfl)
  unfold perRelation perEdge
  rw [relationSum_coe xr ei et Wr ht i d, edgeSum_coe xr ei et Wr ht i d, key]

end Cert.Rgcn

end
-- ==== Proof.Domain.lean ====
/-
  What the precondition says about the arguments, read back from its printed form.

  The precondition is a conjunction of six "for all entries" tests: every entry of the node features, of the relation
  weights, of the root weight and of the bias has absolute value below plus infinity, and every edge type word,
  read signed, is at least 0 and below 8. An extended real whose absolute value is below plus infinity is neither of
  the two infinities, hence a real number. A "for all entries" test that came out true was true at every entry, so
  each entry of the features and of the relation weights is a real number and each type word reads a number in 0..7.
-/
import Mathlib
import Idealize.ShloMosaic.Lib.ReduceAll
import Idealize.ShloMosaic.Lib.IdealHost
import Idealize.ShloMosaic.Lib.ValueIdx
import proofs.«139433_g6408091205734_cont_9to1_m_209_2_alg».proof.Pre_finite_inputs

noncomputable section

namespace Cert.Rgcn

open Idealize.ShloMosaic Idealize.ShloMosaic.ValueIdx
open Cert.Pre_finite_inputs

namespace Domain

/-- The scalar shape has one index. -/
instance scalarIdxSubsingleton : Subsingleton S_.Idx := ⟨fun a b => funext fun d => d.elim0⟩

/-- The word 0x7F800000 denotes plus infinity. -/
theorem ofBits_plus_inf : Ideal.ofBits .f32 0x7F800000#32 = (⊤ : EReal) := by
  simp [Ideal.ofBits, Ideal.ieee]

/-- An extended real whose absolute value is below plus infinity is a real number. -/
theorem real_of_abs_lt_inf (v : EReal)
    (h : Ideal.cmp .olt (max v (-v)) (Ideal.ofBits .f32 0x7F800000#32) = 1#1) : ∃ r : ℝ, v = (r : EReal) := by
  rw [ofBits_plus_inf] at h
  induction v using EReal.rec with
  | bot => simp [Ideal.cmp] at h
  | coe r => exact ⟨r, rfl⟩
  | top => simp [Ideal.cmp] at h

end Domain

open Domain

/-- The precondition read back: real features, real relation weights, type words in 0..7. -/
theorem domain_of_pre [Cert.Pre_finite_inputs.Facts]
    (x : FVec Ideal S10000x256 .f32) (ei : IVec S2x160000 32) (et : IVec S160000 32)
    (W : FVec Ideal S8x256x256 .f32) (root : FVec Ideal S256x256 .f32) (bias : FVec Ideal S256 .f32)
    (h : Cert.Pre_finite_inputs.fn (F := Ideal) x ei et W root bias = fun _ => 1#1) :
    (∀ j, ∃ r : ℝ, x j = (r : EReal)) ∧ (∀ j, ∃ r : ℝ, W j = (r : EReal)) ∧
      (∀ e : Fin 160000, 0 ≤ (et (ValueIdx.ix1 e)).toInt ∧ (et (ValueIdx.ix1 e)).toInt < 8) := by
  have h0 := congrFun h ValueIdx.ix0
  dsimp only [Cert.Pre_finite_inputs.fn, Cert.Pre_finite_inputs.fn_part1, andi] at h0
  simp only [IntOp.andi_eq_one] at h0
  obtain ⟨⟨⟨⟨⟨hx, hW⟩, -⟩, -⟩, hge⟩, hlt⟩ := h0
  refine ⟨fun j => ?_, fun j => ?_, fun e => ⟨?_, ?_⟩⟩
  · exact real_of_abs_lt_inf (x j) (Host.reduce_andi_all _ _ Facts.reducesTo_S10000x256_S_d0_1 Facts.h_S_ ix0 hx j)
  · exact real_of_abs_lt_inf (W j) (Host.reduce_andi_all _ _ Facts.reducesTo_S8x256x256_S_d0_1_2 Facts.h_S_ ix0 hW j)
  · have e0 : IntOp.cmpi .sge (et (ix1 e)) 0#32 = 1#1 :=
      Host.reduce_andi_all _ _ Facts.reducesTo_S160000_S_d0 Facts.h_S_ ix0 hge (ix1 e)
    have := IntOp.cmpi_sge.1 e0
    simpa using this
  · have e8 : IntOp.cmpi .slt (et (ix1 e)) 8#32 = 1#1 :=
      Host.reduce_andi_all _ _ Facts.reducesTo_S160000_S_d0 Facts.h_S_ ix0 hlt (ix1 e)
    have h8 := IntOp.cmpi_slt.1 e8
    have c8 : (8#32 : BitVec 32).toInt = 8 := by decide
    rw [c8] at h8
    exact h8

end Cert.Rgcn

end
-- ==== Proof.ValueEq.lean ====
/-
  The value equation: on every core, what the idealized program leaves in its result buffer is what the reference leaves
  in its own, whenever the two launch memories agree on the six arguments and the arguments satisfy the precondition.

  The program's side. Its result is what the host operations after the region compute from the buffers at the region's
  exit. Those operations are one function of five buffers: the product array, the two flattened rows of endpoint words,
  the type words and the bias. At the exit the product array holds, in its first 2048 columns, every node's features
  multiplied by each of the eight relation weights, and in its last 256 columns the features multiplied by the root
  weight; the two rows of words are the rows of the endpoint argument; the other two buffers are arguments as launched.
  Read at an entry (i, d), the function is the per-edge arrangement of the convolution: each in-edge of node i contributes
  its source's transformed features under its relation, scaled by one over the number of in-edges of its destination
  with its relation, and the root term and the bias are added.

  The reference's side. Its result is a stage term over its six arguments, which at (i, d) is the per-relation
  arrangement: for each relation the mean of the source features over the in-edges of that relation, times the relation's
  weight, the eight added in order, then the root term and the bias.

  The two arrangements agree at every (i, d) when the features and the relation weights are real numbers and every type
  word reads a number from 0 to 7, which is what the precondition says of the arguments.
-/
import proofs.«139433_g6408091205734_cont_9to1_m_209_2_alg».proof.Defs
import proofs.«139433_g6408091205734_cont_9to1_m_209_2_alg».proof.Proof.Gen.Pre_finite_inputs
import proofs.«139433_g6408091205734_cont_9to1_m_209_2_alg».proof.Proof.KernelResult
import proofs.«139433_g6408091205734_cont_9to1_m_209_2_alg».proof.Proof.KernelTail
import proofs.«139433_g6408091205734_cont_9to1_m_209_2_alg».proof.Proof.KernelProduct
import proofs.«139433_g6408091205734_cont_9to1_m_209_2_alg».proof.Proof.RefValue
import proofs.«139433_g6408091205734_cont_9to1_m_209_2_alg».proof.Proof.Algebra
import proofs.«139433_g6408091205734_cont_9to1_m_209_2_alg».proof.Proof.Domain

noncomputable section

open Idealize.ShloMosaic Idealize.ShloMosaic.TcCoe Idealize.SL.Sem Idealize.ShloMosaic.ValueIdx

namespace Cert.Proof.Parts

/-- The program's result at entry (i, d) is the per-edge arrangement over its six arguments as launched: the later host
    operations as one function of the five buffers they read, those buffers read at the region's exit, the function read
    at an entry, and the product array's columns identified. -/
theorem kernel_value (m : (ℓ : Loc Cert.KernelIdeal.nD Cert.KernelIdeal.τ Cert.KernelIdeal.sig) → Buf (Elt Ideal) ℓ) (c : Dev Cert.KernelIdeal.nD) (i : Fin 10000) (d : Fin 256) :
    (StableHlo.after (List.flatten Cert.KernelIdeal.HandFrame.tailOps) (Cert.KernelIdeal.Result.tailValuation m c) (Proc.devRef .tc Cert.KernelIdeal.main_v72) : FVec Ideal Cert.KernelIdeal.S10000x256 .f32) (ix2 i d)
      = Cert.Rgcn.perEdge (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) i d := by
  have h := Cert.KernelIdeal.Tail.after_tail (Cert.KernelIdeal.Result.tailValuation m c)
  rw [Cert.KernelIdeal.Result.tailValuation_product, Cert.KernelIdeal.Result.tailValuation_sources, Cert.KernelIdeal.Result.tailValuation_destinations,
    Cert.KernelIdeal.Result.tailValuation_types, Cert.KernelIdeal.Result.tailValuation_bias] at h
  refine (congrFun h (ix2 i d)).trans ?_
  rw [Cert.KernelIdeal.Tail.tailFn_apply]
  exact Cert.KernelIdeal.Tail.edgeForm_eq_perEdge _ _ _ _ _ _ _ _ _ _ _ (Cert.KernelIdeal.Product.product_relation m c) (Cert.KernelIdeal.Product.product_root m c)
    (Cert.KernelIdeal.Product.source_words m c) (Cert.KernelIdeal.Product.destination_words m c) rfl rfl i d

/-- The value equation on core `c`. -/
theorem value_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (c : Dev Cert.KernelIdeal.nD) :
    (StableHlo.after (List.flatten Cert.KernelIdeal.HandFrame.tailOps) (Cert.KernelIdeal.Result.tailValuation m c) (Proc.devRef .tc Cert.KernelIdeal.main_v72) : Buf (Elt Ideal) ((c.tc : Thread Cert.KernelIdeal.nD Cert.KernelIdeal.τ).loc Cert.KernelIdeal.main_v72))
      = Cert.ReferenceIdeal.Value.res_main_v305 m' c := by
  show (StableHlo.after (List.flatten Cert.KernelIdeal.HandFrame.tailOps) (Cert.KernelIdeal.Result.tailValuation m c) (Proc.devRef .tc Cert.KernelIdeal.main_v72) : FVec Ideal Cert.KernelIdeal.S10000x256 .f32) = _
  funext j
  obtain ⟨i, d, rfl⟩ : ∃ (i : Fin 10000) (d : Fin 256), j = ix2 i d := ⟨j 0, j 1, eq_ix2 j⟩
  obtain ⟨h0, h1, h2, h3, h4, h5⟩ := hagree c
  obtain ⟨hx, hW, ht⟩ := Cert.Rgcn.domain_of_pre _ _ _ _ _ _ (hpre c)
  rw [kernel_value m c i d, Cert.ReferenceIdeal.Read.val_main_v305_eq, h0, h1, h2, h3, h4, h5, Cert.Rgcn.RefValue.reference_value]
  exact (Cert.Rgcn.perRelation_eq_perEdge _ _ _ _ _ _ hx hW ht i d).symm

end Cert.Proof.Parts

end
-- ==== Proof.lean ====
/-
  The proof of the certificate's claim: three frames, the idealization, and the equality of results at the extended reals.

  What the two programs compute. Both take node features (10000 × 256), two rows of edge endpoint words (2 × 160000),
  edge type words (160000), eight relation weights (8 × 256 × 256), a root weight (256 × 256) and a bias (256), and return
  a relational graph convolution with mean aggregation (10000 × 256) together with the two word arrays unchanged.
  The compiled program first multiplies the features by all nine weight matrices at once — one grid region computing
  the 10000 × 2304 product of the features with the eight relation weights and the root weight laid side by side, block by
  block — and then, by host operations, gathers for every edge its source's transformed row under the edge's relation,
  scales it by one over the number of edges sharing its destination and relation, adds the rows into the destinations,
  and adds the root columns and the bias. The reference averages, relation by relation, the source features over each
  node's in-edges of that relation, multiplies each average by the relation's weight, and adds the eight products, the
  root term and the bias.

  The frames. The compiled program and its idealization print the same operations; one frame argument, generic in the
  float interpretation, proves that each terminates without fault and leaves its six arguments as launched: the region's
  left operand is an input array, never written back, and no host operation writes an argument. The reference has no
  region; its run ends with the result and the arguments side by side, and its frame keeps the arguments.

  The idealization rewrote nothing, so there is nothing for it to restate.

  The equality of results. From launch memories that agree on the arguments, the idealized program's run ends with its
  result buffer at what the later host operations compute from the buffers at the region's exit, and the reference's run
  with its result buffer at its stage term over its arguments. Read entry by entry, the first is the per-edge arrangement
  of the convolution and the second the per-relation arrangement, and the two agree when the features and the relation
  weights are real numbers and the type words read 0 to 7, which the precondition provides. The two returned word arrays
  are arguments, unchanged on both sides and equal by the agreement.
-/
import proofs.«139433_g6408091205734_cont_9to1_m_209_2_alg».proof.Defs
import proofs.«139433_g6408091205734_cont_9to1_m_209_2_alg».proof.Proof.Gen.Kernel
import proofs.«139433_g6408091205734_cont_9to1_m_209_2_alg».proof.Proof.Gen.KernelIdeal
import proofs.«139433_g6408091205734_cont_9to1_m_209_2_alg».proof.Proof.Gen.ReferenceIdeal
import proofs.«139433_g6408091205734_cont_9to1_m_209_2_alg».proof.Proof.Gen.Pre_finite_inputs
import proofs.«139433_g6408091205734_cont_9to1_m_209_2_alg».proof.Proof.Frames
import proofs.«139433_g6408091205734_cont_9to1_m_209_2_alg».proof.Proof.KernelResult
import proofs.«139433_g6408091205734_cont_9to1_m_209_2_alg».proof.Proof.ValueEq

noncomputable section

namespace Cert.Proof

open Idealize.ShloMosaic Idealize.ShloMosaic.TcCoe Idealize.SL.Sem

/-- At the extended reals, from memories agreeing on the arguments, both programs run and end with equal results and
    unchanged arguments. The result's witness is what the idealized program's later host operations compute from the
    region's exit; the two returned word arrays' witnesses are the arguments themselves. The idealized program's run is
    its frame run read at the result buffer; the reference's run is read through the value equation at the result and
    through the agreement at the two word arrays. -/
theorem algebraic : Cert.algebraic_KernelIdeal_ReferenceIdeal := by
  intro m ρ m' ρ' hpre hagree
  refine ⟨fun c => (StableHlo.after (List.flatten Cert.KernelIdeal.HandFrame.tailOps) (Cert.KernelIdeal.Result.tailValuation m c)
        (Proc.devRef .tc Cert.KernelIdeal.main_v72) : Buf (Elt Ideal) ((c.tc : Thread Cert.KernelIdeal.nD Cert.KernelIdeal.τ).loc Cert.KernelIdeal.main_v72)),
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2),
    Cert.KernelIdeal.Result.run_result m ρ, ?_⟩
  exact (θ_run Cert.ReferenceIdeal.defs _ _).mono (fun _ h c =>
      ⟨(h c).1.trans (Parts.value_eq m m' hpre hagree c).symm,
       (h c).2.1.trans (hagree c).2.1,
       (h c).2.2.1.trans (hagree c).2.2.1,
       (h c).2.2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    Parts.frame_kernel, Parts.frame_kernelIdeal, Parts.frame_referenceIdeal, Parts.preserves, algebraic⟩

end Cert.Proof

end
